-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1 : Shape := ⟨2, ![16384, 1]⟩
abbrev S100000x128 : Shape := ⟨2, ![100000, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : IVec S16384x1 32) (main_arg1 : FVec F S100000x128 .f32) (main_arg2 : FVec F S128x64 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_c_2 : IVec S_ 32 := constantI S_ 32 0#32
  let main_v9 : IVec S16384x1 32 := broadcastInDim S16384x1 ![] bcast_S_S16384x1 main_c_2
  let main_v10 : IVec S16384x1 1 := cmpi .sge main_arg0 main_v9
  let main_c_3 : IVec S_ 32 := constantI S_ 32 99999#32
  let main_v11 : IVec S16384x1 32 := broadcastInDim S16384x1 ![] bcast_S_S16384x1 main_c_3
  let main_v12 : IVec S16384x1 1 := cmpi .sle main_arg0 main_v11
  let main_v13 : IVec S16384x1 1 := andi main_v10 main_v12
  let main_c_4 : IVec S_ 1 := constantI S_ 1 1#1
  let main_v14 : IVec S_ 1 := (fun x v => Host.reduce IntOp.andi x v reducesTo_S16384x1_S_d0_1 h_S_) main_v13 main_c_4
  let main_v15 : IVec S_ 1 := andi main_v8 main_v14
  main_v15
-- ==== Kernel.lean ====
abbrev S16384x1 : Shape := ⟨2, ![16384, 1]⟩
abbrev S100000x128 : Shape := ⟨2, ![100000, 128]⟩
abbrev S128x64 : Shape := ⟨2, ![128, 64]⟩
abbrev S16384 : Shape := ⟨1, ![16384]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S128 : Shape := ⟨1, ![128]⟩
abbrev S64x128 : Shape := ⟨2, ![64, 128]⟩
abbrev S64x16384 : Shape := ⟨2, ![64, 16384]⟩
abbrev S8192x128 : Shape := ⟨2, ![8192, 128]⟩
abbrev S64x8192 : Shape := ⟨2, ![64, 8192]⟩
abbrev S8192x64 : Shape := ⟨2, ![8192, 64]⟩
abbrev S8192 : Shape := ⟨1, ![8192]⟩
abbrev S1x8192 : Shape := ⟨2, ![1, 8192]⟩
abbrev S16384x64 : Shape := ⟨2, ![16384, 64]⟩

abbrev nBuf : Table → Nat
  | .hbm => 9
  | .local .tc .vmem => 5
  | .local .scVector .vmem => 2
  | _ => 0

abbrev bufTy : (tb : Table) → Fin (nBuf tb) → BufTy
  | .hbm, ⟨0, _⟩ => ⟨S16384x1, .i32⟩
  | .hbm, ⟨1, _⟩ => ⟨S100000x128, .f32⟩
  | .hbm, ⟨2, _⟩ => ⟨S128x64, .f32⟩
  | .hbm, ⟨3, _⟩ => ⟨S16384, .i32⟩
  | .hbm, ⟨4, _⟩ => ⟨S128x128, .i32⟩
  | .hbm, ⟨5, _⟩ => ⟨S16384x128, .f32⟩
  | .hbm, ⟨6, _⟩ => ⟨S64x128, .f32⟩
  | .hbm, ⟨7, _⟩ => ⟨S64x16384, .f32⟩
  | .hbm, ⟨8, _⟩ => ⟨S16384x64, .f32⟩
  | .local .tc .vmem, ⟨0, _⟩ => ⟨S8192x128, .f32⟩
  | .local .tc .vmem, ⟨1, _⟩ => ⟨S8192x128, .f32⟩
  | .local .tc .vmem, ⟨2, _⟩ => ⟨S64x128, .f32⟩
  | .local .tc .vmem, ⟨3, _⟩ => ⟨S64x8192, .f32⟩
  | .local .tc .vmem, ⟨4, _⟩ => ⟨S64x8192, .f32⟩
  | .local .scVector .vmem, ⟨0, _⟩ => ⟨S4x128, .i32⟩
  | .local .scVector .vmem, ⟨1, _⟩ => ⟨S512x128, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_arg1_scv : Ref sig .scVector := ⟨.hbm, 1, rfl⟩
abbrev main_v2_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_94_r0 : BitVec 32 := 0#32
  ![v3.toNat, 0]
def k0_off2 (i : grid0.Coords) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v24 : BitVec 32 := Scalar.addi v2 c0_i32_24
  let c0_i32_27 : BitVec 32 := 0#32
  ![v24.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x1_S16384 : S16384x1.ShapeCasts S16384
  shapeCasts_S16384_S128x128 : S16384.ShapeCasts S128x128
  inb_S512x128_S128x128_0_0 : ∀ a, (![0, 0] : Fin 2 → Nat) a + S128x128.size a ≤ S512x128.size a
  inb_S4x128_S1x128_0_0 : ∀ a, (![0, 0] : Fin 2 → Nat) a + S1x128.size a ≤ S4x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S512x128_S128x128_128_0 : ∀ a, (![128, 0] : Fin 2 → Nat) a + S128x128.size a ≤ S512x128.size a
  inb_S4x128_S1x128_1_0 : ∀ a, (![1, 0] : Fin 2 → Nat) a + S1x128.size a ≤ S4x128.size a
  inb_S512x128_S128x128_256_0 : ∀ a, (![256, 0] : Fin 2 → Nat) a + S128x128.size a ≤ S512x128.size a
  inb_S4x128_S1x128_2_0 : ∀ a, (![2, 0] : Fin 2 → Nat) a + S1x128.size a ≤ S4x128.size a
  inb_S512x128_S128x128_384_0 : ∀ a, (![384, 0] : Fin 2 → Nat) a + S128x128.size a ≤ S512x128.size a
  inb_S4x128_S1x128_3_0 : ∀ a, (![3, 0] : Fin 2 → Nat) a + S1x128.size a ≤ S4x128.size a
  transposes_S128x64_S64x128_1_0 : S128x64.Transposes [1, 0] S64x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S8192x64_p1_0_S64x8192 : S8192x64.Transposes [1, 0] S64x8192
  reduces_S64x8192_S8192 : S64x8192.Reduces [0] S8192
  shapeCasts_S8192_S1x8192 : S8192.ShapeCasts S1x8192
  broadcasts_S1x8192_S64x8192 : S1x8192.Broadcasts S64x8192
  inb_S64x8192_S64x8192_0_0 : ∀ a, (![0, 0] : Fin 2 → Nat) a + S64x8192.size a ≤ S64x8192.size a
  h_S64x8192 : 0 < S64x8192.numel
  transposes_S64x16384_S16384x64_1_0 : S64x16384.Transposes [1, 0] S16384x64
  dot_S8192x128_S64x128_S8192x64_1_1_0_0_n_n_wf : DotDims.WF S8192x128 S64x128 S8192x64 [1] [1] [0] [0] [] []
  hcc0_scratch2 : 0 + S_.numel ≤ 11
  hcc0_scratch3 : 1 + S_.numel ≤ 11
  hcc0_scratch4 : 2 + S_.numel ≤ 11
  hcc0_scratch5 : 3 + S_.numel ≤ 11
  hcc0_scratch6 : 4 + S_.numel ≤ 11
  hcc0_scoped0 : 5 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x128.size a ≤ S128x128.size a
  k0_off2_inb : ∀ i : grid0.Coords, ∀ (r : Fin 4), ∀ a, (k0_off2 i (BitVec.ofNat 32 (128 * r.val))) a + S128x128.size a ≤ S16384x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S16384x128.size a
  hwx1_0 : ∀ i : grid1.Coords, EltTy.bits .f32 = 32 ∨ (Rect.block (s := S16384x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8192.size a ≤ S64x16384.size a
  hwx1_2 : ∀ i : grid1.Coords, EltTy.bits .f32 = 32 ∨ (Rect.block (s := S64x16384) S64x8192.size (cc1_transform_2 i) (hinb1_2 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scoped0 : DmaSems sig S_ := SemArray.consecutive 5 S_ hcc0_scoped0
def dot_S8192x128_S64x128_S8192x64_1_1_0_0_n_n : DotDims S8192x128 S64x128 S8192x64 where
  lhsContracting := [1]
  rhsContracting := [1]
  lhsNonContracting := [0]
  rhsNonContracting := [0]
  lhsBatch := []
  rhsBatch := []
  wf := dot_S8192x128_S64x128_S8192x64_1_1_0_0_n_n_wf

abbrev win1_0 : Pipeline.Window sig grid1 :=
  Pipeline.Window.ofSpec (Memref.whole main_v2) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x1 : Shape := ⟨2, ![16384, 1]⟩
abbrev S100000x128 : Shape := ⟨2, ![100000, 128]⟩
abbrev S128x64 : Shape := ⟨2, ![128, 64]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x64 : Shape := ⟨2, ![16384, 64]⟩

abbrev nBuf : Space → Nat
  | .hbm => 42
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S100000x128, .f32⟩
  | .hbm, ⟨2, _⟩ => ⟨S128x64, .f32⟩
  | .hbm, ⟨3, _⟩ => ⟨S16384, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x64, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S16384x64, .f32⟩
  | .hbm, ⟨41, _⟩ => ⟨S16384x64, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  reducesTo_S16384x64_S16384_d1 : S16384x64.ReducesTo [1] S16384
  bcast_S16384x1_S16384x64_0_1 : S16384x1.BroadcastsInDim S16384x64 (![0, 1] : Fin 2 → Fin S16384x64.rank)
  gather_S100000x128_S16384x1_S16384x128_1_0_n_n_0_1_1128_wf : GatherDims.WF S100000x128 S16384x1 S16384x128 [1] [0] [] [0] [] 1 ![1, 128]
  dot_S16384x128_S128x64_S16384x64_1_0_0_1_n_n_wf : DotDims.WF S16384x128 S128x64 S16384x64 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Setup.lean ====
/-
  The idealized kernel's program as the launch theorem reads it, and what each thread is handed.

  The gather kernel runs on 32 vector subcores, 16 on each of two SparseCores. Subcore `s` of SparseCore `c`
  is worker `2 s + c`: it reads rows `4 (2 s + c) … + 3` of the 128 × 128 index array (512 index words),
  gathers the 512 table rows they name into its own memory, 128 at a time, and writes them to rows
  `512 (2 s + c) …` of the 16384 × 128 output, again 128 at a time. So each worker is handed its four rows of
  the index array, a read share of the whole table, and its four 128-row pieces of the output; it hands
  back the same, the output pieces holding the gathered rows: entry `(i, k)` of the output is entry
  `(idx[i / 128, i % 128], k)` of the table.
-/
import proofs.«207835_g56727928045975_cont_9to1_m_1027_16_alg».proof.Defs
import proofs.«207835_g56727928045975_cont_9to1_m_1027_16_alg».proof.Proof.Gen.KernelIdeal
import proofs.«207835_g56727928045975_cont_9to1_m_1027_16_alg».proof.Proof.Gen.KernelIdeal.Skeleton
import proofs.«207835_g56727928045975_cont_9to1_m_1027_16_alg».proof.Proof.Gen.KernelIdeal.Launch
import proofs.«207835_g56727928045975_cont_9to1_m_1027_16_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import Idealize.ShloMosaic.Lib.ValueIdx

noncomputable section

namespace Cert.KSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The TensorCore pipeline's rounds library: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays -/

/-- The index array as the kernel reads it (128 × 128), the table, the gathered rows. -/
abbrev iLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

abbrev iV : Memref sig .scVector .hbm S128x128 .i32 := Memref.whole main_v1_scv
abbrev tV : Memref sig .scVector .hbm S100000x128 .f32 := Memref.whole main_arg1_scv
abbrev oV : Memref sig .scVector .hbm S16384x128 .f32 := Memref.whole main_v2_scv
/-- A worker's own memory: its 512 index words, its 512 gathered rows. -/
abbrev sI : Memref sig .scVector .vmem S4x128 .i32 := Memref.whole cc0_scratch0
abbrev sR : Memref sig .scVector .vmem S512x128 .f32 := Memref.whole cc0_scratch1

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Worker `L`'s four rows of the index array, as the kernel slices them. -/
abbrev idxM (L : grid0.Coords) : Memref sig .scVector .hbm S4x128 .i32 :=
  (iV : Memref sig .scVector .hbm S128x128 .i32).slice (Rect.unit (s := S128x128) (k0_off1 L) S4x128.size (k0_off1_inb L)) (fun _ => rfl)
/-- Worker `L`'s four 128-row pieces of the output, as the kernel slices them. -/
abbrev outM0 (L : grid0.Coords) : Memref sig .scVector .hbm S128x128 .f32 :=
  (oV : Memref sig .scVector .hbm S16384x128 .f32).slice (Rect.unit (s := S16384x128) (k0_off2 L 0#32) S128x128.size (k0_off2_inb L 0)) (fun _ => rfl)
abbrev outM1 (L : grid0.Coords) : Memref sig .scVector .hbm S128x128 .f32 :=
  (oV : Memref sig .scVector .hbm S16384x128 .f32).slice (Rect.unit (s := S16384x128) (k0_off2 L 128#32) S128x128.size (k0_off2_inb L 1)) (fun _ => rfl)
abbrev outM2 (L : grid0.Coords) : Memref sig .scVector .hbm S128x128 .f32 :=
  (oV : Memref sig .scVector .hbm S16384x128 .f32).slice (Rect.unit (s := S16384x128) (k0_off2 L 256#32) S128x128.size (k0_off2_inb L 2)) (fun _ => rfl)
abbrev outM3 (L : grid0.Coords) : Memref sig .scVector .hbm S128x128 .f32 :=
  (oV : Memref sig .scVector .hbm S16384x128 .f32).slice (Rect.unit (s := S16384x128) (k0_off2 L 384#32) S128x128.size (k0_off2_inb L 3)) (fun _ => rfl)

/-- The gathered rows as one function of the index array and the table: row `i` is the table's row
    `idx[i / 128, i % 128]` (the remainder only makes the function total). -/
def embF {α : Type} (I : S128x128.Idx → BitVec 32) (tab : S100000x128.Idx → α) : S16384x128.Idx → α :=
  fun j => tab (ix2 (⟨(I (ix2 (⟨(j 0).val / 128, by have : (j 0).val < 16384 := idx2_lt0 j; omega⟩ : Fin 128) (⟨(j 0).val % 128, Nat.mod_lt _ (by norm_num)⟩ : Fin 128))).toNat % 100000,
    Nat.mod_lt _ (by norm_num)⟩ : Fin 100000) (j 1))

/-- The table's read shares: SparseCore `c`'s of the whole, worker `s`'s of its SparseCore's. -/
abbrev qC (c : Fin 2) : PosShare TreeShare := shareTok fullShare 2 c
abbrev qT (c : Fin 2) (s : Fin 16) : PosShare TreeShare := shareTok (qC c) 16 s

/-! ## What the handshakes carry -/

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

variable (m : (ℓ : Loc nD τ sig) → Buf (Elt F) ℓ) (I : (d : Dev nD) → Buf (Elt F) (iLoc d))

/-- Worker `L`'s rows of the index array, at the contents `I d` the kernel finds there. -/
abbrev idxPts (d : Dev nD) (L : grid0.Coords) : sProp 𝕄 := iLoc d ↦[(idxM L).view.set]{fullShare} I d
/-- Worker `L`'s read share of the table, at its launch contents. -/
abbrev tabPts (d : Dev nD) (L : grid0.Coords) : sProp 𝕄 := tLoc d ↦{qT (cL L) (sL L)} m (tLoc d)
/-- Worker `L`'s four pieces of the output, at the contents `fo`. -/
abbrev outPts (d : Dev nD) (L : grid0.Coords) (fo : Buf (Elt F) (oLoc d)) : sProp 𝕄 :=
  iprop((oLoc d ↦[(outM0 L).view.set]{fullShare} fo) ∗ (oLoc d ↦[(outM1 L).view.set]{fullShare} fo)
    ∗ (oLoc d ↦[(outM2 L).view.set]{fullShare} fo) ∗ (oLoc d ↦[(outM3 L).view.set]{fullShare} fo))

/-- What worker `L` is handed (the output at `fo := m (oLoc d)`) and hands back (at `fo := gathered d`). -/
abbrev tileRes (d : Dev nD) (L : grid0.Coords) (fo : Buf (Elt F) (oLoc d)) : sProp 𝕄 :=
  iprop(idxPts I d L ∗ tabPts m d L ∗ outPts d L fo)

/-- The gathered rows on device `d`, as contents of the output array. -/
abbrev gathered (d : Dev nD) : Buf (Elt F) (oLoc d) := embF (I d) (m (tLoc d))

abbrev Lq (c : Fin ((K (F := F)).nCore 0)) (i : Fin ((K (F := F)).nSub 0)) : grid0.Coords :=
  coordsV (Fin.cast (nCore_zero (F := F)) c) (Fin.cast (nSub_zero (F := F)) i)

/-- What a SparseCore is handed: every worker's rows of the index array and pieces of the output, and the
    SparseCore's read share of the table (of which each worker gets a share, the rest staying with the sequencer). -/
abbrev coreRes (d : Dev nD) (c : Fin ((K (F := F)).nCore 0)) (fo : Buf (Elt F) (oLoc d)) : sProp 𝕄 :=
  iprop((bigSep Finset.univ fun i : Fin ((K (F := F)).nSub 0) => iprop(idxPts I d (Lq c i) ∗ outPts d (Lq c i) fo))
    ∗ tLoc d ↦{qC (Fin.cast (nCore_zero (F := F)) c)} m (tLoc d))

def P : (K (F := F)).Pay (nD := nD) (Val := Elt F) (Name := ℕ) (U := UU) where
  st := fun q d c => match q with | 0 => coreRes m I d c (m (oLoc d))
  dn := fun q d c => match q with | 0 => coreRes m I d c (gathered m I d)
  go := fun q d c i => match q with | 0 => tileRes m I d (Lq c i) (m (oLoc d))
  td := fun q d c i => match q with | 0 => tileRes m I d (Lq c i) (gathered m I d)
  x := fun _ _ => iprop(emp)

instance P_storable : (P (F := F) m I).IsStorable where
  st q d c := match q with | 0 => (inferInstance : BI.Storable (upEmb : UEmb _ 𝕄) (coreRes m I d c (m (oLoc d))))
  dn q d c := match q with | 0 => (inferInstance : BI.Storable (upEmb : UEmb _ 𝕄) (coreRes m I d c (gathered m I d)))
  go q d c i := match q with | 0 => (inferInstance : BI.Storable (upEmb : UEmb _ 𝕄) (tileRes m I d (Lq c i) (m (oLoc d))))
  td q d c i := match q with | 0 => (inferInstance : BI.Storable (upEmb : UEmb _ 𝕄) (tileRes m I d (Lq c i) (gathered m I d)))

/-! ## The TensorCore's part: the transposed weights, the result before its transposition -/

abbrev wLoc (d : Dev nD) : Loc nD τ sig := (SparseCore.T d).loc main_v3
abbrev rLoc (d : Dev nD) : Loc nD τ sig := (SparseCore.T d).loc main_v4

/-- Block `t` (8192 rows) of the gathered rows. -/
def blockOf [FloatOps F] (X : S16384x128.Idx → Elt F .f32) (t : Fin 2) : Vec F S8192x128 .f32 :=
  fun y => X (ix2 (⟨t.val * 8192 + (y 0).val, by have : (y 0).val < 8192 := idx2_lt0 y; have := t.isLt; omega⟩ : Fin 16384) (y 1))

/-- What the TensorCore region leaves in its result array: column `i` belongs to block `i / 8192`, where it is column
    `i % 8192` of the body's stored value on that block of the gathered rows and the transposed weights. -/
def regionOut [FloatOps F] (X : S16384x128.Idx → Elt F .f32) (Wt : Vec F S64x128 .f32) : S64x16384.Idx → Elt F .f32 :=
  fun j => k1_pay1 (blockOf X (⟨(j 1).val / 8192, by have : (j 1).val < 16384 := idx2_lt1 j; omega⟩ : Fin 2)) Wt
    (ix2 (j 0) (⟨(j 1).val % 8192, Nat.mod_lt _ (by norm_num)⟩ : Fin 8192))

end Cert.KSide

end
-- ==== Proof.KDefs.lean ====
/-
  The idealized kernel's result as one function of its three arguments: the index array re-laid as 128 × 128,
  the table's rows gathered at it, the TensorCore region's result on the gathered rows and the transposed
  weights, transposed back.
-/
import proofs.«207835_g56727928045975_cont_9to1_m_1027_16_alg».proof.Proof.Setup

noncomputable section

namespace Cert.KSide

open Cert.KernelIdeal Cert.KernelIdeal.Gen
open Idealize.ShloMosaic

variable {F : FTy → Type} [FloatOps F]

/-- The index array as the kernel reads it: 16384 × 1 re-laid as 128 × 128, row-major. -/
def idx2 (a0 : IVec S16384x1 32) : IVec S128x128 32 :=
  shapeCast S128x128 (shapeCast S16384 a0 Facts₀.shapeCasts_S16384x1_S16384) Facts₀.shapeCasts_S16384_S128x128

/-- The weights transposed, as the TensorCore region reads them. -/
def wT (a2 : FVec F S128x64 .f32) : FVec F S64x128 .f32 :=
  transpose S64x128 [1, 0] a2 Facts₀.transposes_S128x64_S64x128_1_0

/-- The kernel's result. -/
def kerOut (a0 : IVec S16384x1 32) (a1 : FVec F S100000x128 .f32) (a2 : FVec F S128x64 .f32) : FVec F S16384x64 .f32 :=
  transpose S16384x64 [1, 0] (regionOut (embF (idx2 a0) a1) (wT a2)) Facts₀.transposes_S64x16384_S16384x64_1_0

end Cert.KSide

end
-- ==== Proof.Launch.lean ====
/-
  The launch of the idealized kernel's program: from the proof of one worker's task, of how the arrays split
  among the workers, and of the TensorCore region, every weakly fair execution of all the device's threads
  terminates with the arguments unchanged and the result array holding the kernel's function of them.
-/
import proofs.«207835_g56727928045975_cont_9to1_m_1027_16_alg».proof.Proof.KDefs

noncomputable section

namespace Cert.KSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg) (I : (d : Dev nD) → Buf (Elt F) (iLoc d))

/-! ## What the parts prove, as statements -/

/-- One worker's task, at any place. -/
def TileBodyStmt : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m I d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scoped0)
          fun _ => iprop(tileRes m I d L (gathered m I d) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligation for the workers -/

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) tV (Memref.isWhole_whole _) oV (Memref.isWhole_whole _)
          sI (Memref.isWhole_whole _) sR (Memref.isWhole_whole _) cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBodyStmt m I) : (K (F := F)).TileObl (D (F := F)) 𝒱 (P m I) v₀ 0 := by
  intro d c i O W hO _ _
  simp only [show (P m I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The launch element -/

def u₀ (uP₀ : UP) : UU := (initOf (K (F := F)).hsCells (K (F := F)).hsToks, (uP₀, 1))

omit [FloatOps F] in
theorem bigSep_emp' {J : Type} (s : Finset J) : (bigSep s fun _ => iprop(emp)) = (iprop(emp) : sProp 𝕄) := bigSep_emp_const s

theorem launchElem (Gd : Dev nD → sProp 𝕄) (uP₀ : UP) (hfund : (BI.own (EP (F := F) uP₀) : sProp 𝕄) ⊢ |==> bigSep Finset.univ Gd) :
    (ownU (u₀ (F := F) uP₀) : sProp 𝕄)
    ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (P m I).x q thr) := by
  unfold u₀
  unfold EP at hfund
  iintro Hu
  ihave H := (ownU_pair _ _) $$ Hu
  icases H with ⟨HH, HR⟩
  ihave H2 := (own_pair_emb (embR (A := UH) (B := UP × Counters)) uP₀ (1 : Counters)) $$ HR
  icases H2 with ⟨HP, -⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- How the three arrays of the SparseCore call split among the SparseCores and join again. -/
def SplitStmt : Prop :=
  ∀ (d : Dev nD) (fo : Buf (Elt F) (oLoc d)),
    (iprop((iLoc d ↦{fullShare} I d) ∗ (oLoc d ↦{fullShare} fo) ∗ (tLoc d ↦{fullShare} m (tLoc d))) : sProp 𝕄)
      ⊣⊢ iprop((bigSep Finset.univ fun c : Fin ((K (F := F)).nCore 0) => coreRes m I d c fo) ∗ (tLoc d ↦{shareDrop fullShare 2} m (tLoc d)))

/-- The TensorCore region, entered from the gathered rows and the transposed weights. -/
def RegionStmt (G : Dev nD → sProp 𝕄) : Prop :=
  ∀ (κ : GSem nD τ sig → ℕ) (d : Dev nD) (X : Buf (Elt F) (oLoc d)) (Wt : Buf (Elt F) (wLoc d)) {α : Type}
    (k : PUnit → Prog (TpuEff nD τ sig (Elt F) (SparseCore.Sig (ΛP (F := F)) 1) .tc) α) (Q : α → sProp 𝕄),
    iprop((K (F := F)).ctx EH (P m I) κ ∗ (K (F := F)).tcSt EH d 1 ∗ boundary (SparseCore.T d) ∗ G d
        ∗ (oLoc d ↦{fullShare} X) ∗ (wLoc d ↦{fullShare} Wt) ∗ (∃ f, rLoc d ↦{fullShare} f)
        ∗ (iprop((K (F := F)).tcSt EH d 1 ∗ boundary (SparseCore.T d) ∗ (oLoc d ↦{fullShare} X) ∗ (wLoc d ↦{fullShare} Wt) ∗ (rLoc d ↦{fullShare} regionOut X Wt))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev a0Loc (d : Dev nD) : Loc nD τ sig := (SparseCore.T d).loc main_arg0
abbrev a2Loc (d : Dev nD) : Loc nD τ sig := (SparseCore.T d).loc main_arg2
abbrev v0Loc (d : Dev nD) : Loc nD τ sig := (SparseCore.T d).loc main_v0
abbrev v5Loc (d : Dev nD) : Loc nD τ sig := (SparseCore.T d).loc main_v5

abbrev opR1 : HloOp τ sig (Elt F) := StableHlo.reshape main_arg0 main_v0 rfl Facts₀.shapeCasts_S16384x1_S16384
abbrev opR2 : HloOp τ sig (Elt F) := StableHlo.reshape main_v0 main_v1 rfl Facts₀.shapeCasts_S16384_S128x128
abbrev opT3 : HloOp τ sig (Elt F) := StableHlo.unary main_arg2 main_v3 ((transpose S64x128 [1, 0] · Facts₀.transposes_S128x64_S64x128_1_0) : (⟨S128x64, .f32⟩ : BufTy).Contents (Elt F) → (⟨S64x128, .f32⟩ : BufTy).Contents (Elt F))
abbrev opT5 : HloOp τ sig (Elt F) := StableHlo.unary main_v4 main_v5 ((transpose S16384x64 [1, 0] · Facts₀.transposes_S64x16384_S16384x64_1_0) : (⟨S64x16384, .f32⟩ : BufTy).Contents (Elt F) → (⟨S16384x64, .f32⟩ : BufTy).Contents (Elt F))

/-- The launch valuation of device `d`. -/
def V0 (d : Dev nD) : Valuation τ sig (Elt F) := fun b => m (d, b)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (tLoc d ↦{fullShare} W main_arg1) ∗ (a2Loc d ↦{fullShare} W main_arg2)
      ∗ (v0Loc d ↦{fullShare} W main_v0) ∗ (iLoc d ↦{fullShare} W main_v1) ∗ (oLoc d ↦{fullShare} W main_v2)
      ∗ (wLoc d ↦{fullShare} W main_v3) ∗ (rLoc d ↦{fullShare} W main_v4) ∗ (v5Loc d ↦{fullShare} W main_v5)) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem held_pair (d : Dev nD) (x y : DevRef τ sig) (hxy : x ≠ y) (W : Valuation τ sig (Elt F)) :
    (held (SparseCore.T d) {x, y} W : sProp 𝕄) = iprop(((d, x) ↦{fullShare} W x) ∗ ((d, y) ↦{fullShare} W y)) := by
  unfold held
  rw [SparseCore.bigSep_insert' (by simpa using hxy), bigSep_singleton]

/-- The index array as the kernel finds it: the argument re-laid 128 × 128. -/
def Iof (d : Dev nD) : Buf (Elt F) (iLoc d) := idx2 (m (a0Loc d))

/-- What @main leaves the claim: the arguments at their launch contents, the result at the kernel's function of them. -/
abbrev FIN (d : Dev nD) : sProp 𝕄 :=
  iprop((a0Loc d ↦{fullShare} m (a0Loc d)) ∗ (tLoc d ↦{fullShare} m (tLoc d)) ∗ (a2Loc d ↦{fullShare} m (a2Loc d))
    ∗ (v5Loc d ↦{fullShare} kerOut (m (a0Loc d)) (m (tLoc d)) (m (a2Loc d))))

/-- The valuations @main passes through: after the first reshape, after the second. -/
def VB (d : Dev nD) : Valuation τ sig (Elt F) := (opR1 (F := F)).result (V0 m d)
def VC (d : Dev nD) : Valuation τ sig (Elt F) := (opR2 (F := F)).result (VB m d)

theorem VB_a0 (d : Dev nD) : VB m d a0' = m (a0Loc d) := (opR1 (F := F)).result_of_not_mem (V0 m d) (b := a0') (show a0' ∉ ({v0'} : Finset (DevRef τ sig)) by decide)
theorem VB_v1 (d : Dev nD) : VB m d v1' = m (iLoc d) := (opR1 (F := F)).result_of_not_mem (V0 m d) (b := v1') (show v1' ∉ ({v0'} : Finset (DevRef τ sig)) by decide)
theorem VC_v1 (d : Dev nD) : VC m d v1' = Iof m d := by
  unfold VC VB
  rw [StableHlo.reshape_result, StableHlo.reshape_result]
  rfl

theorem hR1 : (opR1 (F := F)).bufs ⊆ {a0', v0'} := show ({a0', v0'} : Finset (DevRef τ sig)) ⊆ {a0', v0'} from Finset.Subset.refl _
theorem hR2 : (opR2 (F := F)).bufs ⊆ {v0', v1'} := show ({v0', v1'} : Finset (DevRef τ sig)) ⊆ {v0', v1'} from Finset.Subset.refl _
theorem hT3 : (opT3 (F := F)).bufs ⊆ {a2', v3'} := show ({a2', v3'} : Finset (DevRef τ sig)) ⊆ {a2', v3'} from Finset.Subset.refl _
theorem hT5 : (opT5 (F := F)).bufs ⊆ {v4', v5'} := show ({v4', v5'} : Finset (DevRef τ sig)) ⊆ {v4', v5'} from Finset.Subset.refl _

theorem hmain (G : Dev nD → sProp 𝕄) (hsplit : SplitStmt m (Iof m)) (hregion : RegionStmt m (Iof m) G) (κ : GSem nD τ sig → ℕ) (d : Dev nD) :
    iprop((K (F := F)).ctx EH (P m (Iof m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv2, Hv3, Hv4, Hv5⟩, -, -⟩, HG⟩
  -- the first reshape
  iapply (wp_hlo_within 𝒱 (SparseCore.T d) none Set.univ (op := opR1) (S := {a0', v0'}) hR1 (V := V0 m d)) $$ [Hb Ha0 Hv0]
  · isplitl [Hb]; · iexact Hb
    rw [held_pair d a0' v0' (by decide)]
    isplitl [Ha0]; · iexact Ha0
    iexact Hv0
  iintro ⟨Hb, Hheld⟩
  ihave Hh := (Entails.of_eq (held_pair (F := F) d a0' v0' (by decide) _)) $$ Hheld
  icases Hh with ⟨Ha0, Hv0⟩
  rw [wp_ret]; imodintro
  -- the second reshape
  iapply (wp_hlo_within 𝒱 (SparseCore.T d) none Set.univ (op := opR2) (S := {v0', v1'}) hR2 (V := VB m d)) $$ [Hb Hv0 Hv1]
  · isplitl [Hb]; · iexact Hb
    rw [held_pair d v0' v1' (by decide), VB_v1]
    isplitl [Hv0]; · iexact Hv0
    iexact Hv1
  iintro ⟨Hb, Hheld⟩
  ihave Hh := (Entails.of_eq (held_pair (F := F) d v0' v1' (by decide) _)) $$ Hheld
  icases Hh with ⟨Hv0, Hv1⟩
  rw [wp_ret]; imodintro
  rw [show (opR2 (F := F)).result (VB m d) v1' = Iof m d from VC_v1 m d]
  -- the SparseCore call: the three arrays split among the SparseCores, and joined again
  ihave Hs := (hsplit d (m (oLoc d))).1 $$ [Hv1 Hv2 Ha1]
  · isplitl [Hv1]; · iexact Hv1
    isplitl [Hv2]; · iexact Hv2
    iexact Ha1
  icases Hs with ⟨Hcores, Hrem⟩
  iapply ((K (F := F)).wp_run (D (F := F)) 𝒱 (EH := EH) (P := P m (Iof m)) κ d 0) $$ [Hst Hcores Hrem Hb Ha0 Ha2 Hv0 Hv3 Hv4 Hv5 HG]
  isplitr; · iexact Hctx
  isplitl [Hst]; · iexact Hst
  isplitl [Hcores]; · iexact Hcores
  iintro ⟨Hst, Hdn⟩
  ihave Hj := (hsplit d (gathered m (Iof m) d)).2 $$ [Hdn Hrem]
  · isplitl [Hdn]; · iexact Hdn
    iexact Hrem
  icases Hj with ⟨Hv1, Hv2, Ha1⟩
  -- the weights transposed
  iapply (wp_hlo_within 𝒱 (SparseCore.T d) none Set.univ (op := opT3) (S := {a2', v3'}) hT3 (V := V0 m d)) $$ [Hb Ha2 Hv3]
  · isplitl [Hb]; · iexact Hb
    rw [held_pair d a2' v3' (by decide)]
    isplitl [Ha2]; · iexact Ha2
    iexact Hv3
  iintro ⟨Hb, Hheld⟩
  ihave Hh := (Entails.of_eq (held_pair (F := F) d a2' v3' (by decide) _)) $$ Hheld
  icases Hh with ⟨Ha2, Hv3⟩
  rw [wp_ret]; imodintro
  rw [show (opT3 (F := F)).result (V0 m d) v3' = wT (m (a2Loc d)) from StableHlo.unary_result _ _ _ _ _ _,
    show (opT3 (F := F)).result (V0 m d) a2' = m (a2Loc d) from (opT3 (F := F)).result_of_not_mem (V0 m d) (b := a2') (show a2' ∉ ({v3'} : Finset (DevRef τ sig)) by decide)]
  -- the TensorCore region
  simp only [Prog.lift]
  iapply (hregion κ d (gathered m (Iof m) d) (wT (m (a2Loc d))) _ _) $$ [Hst Hb HG Hv2 Hv3 Hv4 Ha0 Ha1 Ha2 Hv0 Hv1 Hv5]
  isplitr; · iexact Hctx
  isplitl [Hst]; · iexact Hst
  isplitl [Hb]; · iexact Hb
  isplitl [HG]; · iexact HG
  isplitl [Hv2]; · iexact Hv2
  isplitl [Hv3]; · iexact Hv3
  isplitl [Hv4]; · iexists _; iexact Hv4
  iintro ⟨Hst, Hb, Hv2, Hv3, Hv4⟩
  rw [wp_ret]; imodintro
  -- the result transposed back
  iapply (wp_hlo_within 𝒱 (SparseCore.T d) none Set.univ (op := opT5) (S := {v4', v5'}) hT5
      (V := Function.update (V0 m d) v4' (regionOut (gathered m (Iof m) d) (wT (m (a2Loc d)))))) $$ [Hb Hv4 Hv5]
  · isplitl [Hb]; · iexact Hb
    rw [held_pair d v4' v5' (by decide), Function.update_self, Function.update_of_ne (show v5' ≠ v4' by decide)]
    isplitl [Hv4]; · iexact Hv4
    iexact Hv5
  iintro ⟨Hb, Hheld⟩
  ihave Hh := (Entails.of_eq (held_pair (F := F) d v4' v5' (by decide) _)) $$ Hheld
  icases Hh with ⟨Hv4, Hv5⟩
  rw [wp_ret]; imodintro; imodintro
  rw [show (opT5 (F := F)).result (Function.update (V0 m d) v4' (regionOut (gathered m (Iof m) d) (wT (m (a2Loc d))))) v5'
        = kerOut (m (a0Loc d)) (m (tLoc d)) (m (a2Loc d)) from by
      rw [StableHlo.unary_result, Function.update_self]; rfl,
    show (opR1 (F := F)).result (V0 m d) a0' = m (a0Loc d) from VB_a0 m d]
  isplitl [Hst]; · iexact Hst
  isplitl [Ha0]; · iexact Ha0
  isplitl [Ha1]; · iexact Ha1
  isplitl [Ha2]; · iexact Ha2
  iexact Hv5

/-! ## The final assertion read off the final memory -/

def fq (d : Dev nD) (s' : Phys nD τ sig (Elt F)) : Prop :=
  s'.mem.mem (v5Loc d) = kerOut (m (a0Loc d)) (m (tLoc d)) (m (a2Loc d))
    ∧ s'.mem.mem (a0Loc d) = m (a0Loc d) ∧ s'.mem.mem (tLoc d) = m (tLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Ha0, Ha1, Ha2, Hv5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := tLoc d) (I := Finset.univ) (q := fullShare) (f := m (tLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := v5Loc d) (I := Finset.univ) (q := fullShare) (f := kerOut (m (a0Loc d)) (m (tLoc d)) (m (a2Loc d)))) $$ [HSI Hv5]
  · isplitl [HSI] <;> iassumption
  icases H with %h5
  ipureintro
  exact ⟨funext fun i => h5 i (Finset.mem_univ i), funext fun i => h0 i (Finset.mem_univ i), funext fun i => h1 i (Finset.mem_univ i),
    funext fun i => h2 i (Finset.mem_univ i)⟩

/-! ## The program's run -/

/-- The result at the kernel's function of the arguments, the arguments unchanged. -/
def QC : PUnit × MemSt nD τ sig (Elt F) → Prop := fun r => ∀ c : Dev nD,
  r.2.mem (v5Loc c) = kerOut (m (a0Loc c)) (m (tLoc c)) (m (a2Loc c))
    ∧ r.2.mem (a0Loc c) = m (a0Loc c) ∧ r.2.mem (tLoc c) = m (tLoc c) ∧ r.2.mem (a2Loc c) = m (a2Loc c)

theorem run_main [∀ e, Nonempty (Elt F e)] (G : Dev nD → sProp 𝕄) (uP : UP)
    (hfund : (BI.own (EP (F := F) uP) : sProp 𝕄) ⊢ |==> bigSep Finset.univ G)
    (htile : TileBodyStmt m (Iof m)) (hsplit : SplitStmt m (Iof m)) (hvec : (K (F := F)).VecSplit' (P m (Iof m)) 0)
    (hregion : RegionStmt m (Iof m) G) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Iof m)) facts v₀
    (fun q hq => match q with | 0 => nomatch hq)
    (fun q _ => match q with | 0 => tileObl m (Iof m) htile)
    (fun q _ => match q with | 0 => SparseCore.Cfg.VecSplit.of_plain hvec)
    m ρ main G (FIN m) (u₀ (F := F) uP) (sep_elim_left.trans (launchElem m (Iof m) G uP hfund)) (hmain m ρ G hsplit hregion) (fq m) (hfin m) (QC m) (fun _ h => h)

end Cert.KSide

end
-- ==== Proof.Splits.lean ====
/-
  How the whole arrays split among the 32 workers and join again.

  Worker `(c, s)` (SparseCore `c < 2`, subcore `s < 16`) reads rows `8 s + 4 c … + 3` of the 128 × 128 index array:
  part `2 s + c` of its cut into 32 parts of 4 rows. Its `r`-th piece of the 16384 × 128 output (`r < 4`) is rows
  `1024 s + 512 c + 128 r … + 127`: part `8 s + 4 c + r` of the cut into 128 parts of 128 rows. The maps
  `(c, s) ↦ 2 s + c` and `(c, s, r) ↦ 8 s + 4 c + r` are bijections onto the part numbers, so the workers' rows are
  pairwise disjoint and cover each array. The table is not cut: it is held whole at read shares, one per SparseCore
  out of the full share, one per worker out of its SparseCore's, with a remainder at each level.
-/
import proofs.«207835_g56727928045975_cont_9to1_m_1027_16_alg».proof.Proof.Setup

noncomputable section

namespace Cert.KSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

/-! ## The part numbers -/

theorem hdivI : 32 ∣ S128x128.size 0 := ⟨4, rfl⟩
theorem hdivO : 128 ∣ S16384x128.size 0 := ⟨128, rfl⟩

/-- Part `p` of the index array cut into 32 parts of 4 rows. -/
abbrev iRow (p : Fin 32) : Rect S128x128 := Rect.part (s := S128x128) (a₀ := 0) hdivI p
/-- Part `p` of the output cut into 128 parts of 128 rows. -/
abbrev oRow (p : Fin 128) : Rect S16384x128 := Rect.part (s := S16384x128) (a₀ := 0) hdivO p

/-- The part of the index array worker `(c, s)` reads. -/
def pI (c : Fin 2) (s : Fin 16) : Fin 32 := ⟨2 * s.val + c.val, by omega⟩
/-- The part of the output that is worker `(c, s)`'s piece `r`. -/
def pO (c : Fin 2) (s : Fin 16) (r : Fin 4) : Fin 128 := ⟨8 * s.val + 4 * c.val + r.val, by omega⟩

/-- `(c, s) ↦ 2 s + c` is a bijection onto the 32 parts. -/
def eI : Fin 2 × Fin 16 ≃ Fin 32 where
  toFun x := pI x.1 x.2
  invFun p := (⟨p.val % 2, Nat.mod_lt _ (by norm_num)⟩, ⟨p.val / 2, by have := p.isLt; omega⟩)
  left_inv x := by
    obtain ⟨c, s⟩ := x
    refine Prod.ext (Fin.ext ?_) (Fin.ext ?_)
    · show (2 * s.val + c.val) % 2 = c.val; omega
    · show (2 * s.val + c.val) / 2 = s.val; omega
  right_inv p := by
    refine Fin.ext ?_
    show 2 * (p.val / 2) + p.val % 2 = p.val; omega

/-- `(c, s, r) ↦ 8 s + 4 c + r` is a bijection onto the 128 parts. -/
def eO : Fin 2 × (Fin 16 × Fin 4) ≃ Fin 128 where
  toFun x := pO x.1 x.2.1 x.2.2
  invFun p := (⟨p.val / 4 % 2, Nat.mod_lt _ (by norm_num)⟩, ⟨p.val / 8, by have := p.isLt; omega⟩, ⟨p.val % 4, Nat.mod_lt _ (by norm_num)⟩)
  left_inv x := by
    obtain ⟨c, s, r⟩ := x
    refine Prod.ext (Fin.ext ?_) (Prod.ext (Fin.ext ?_) (Fin.ext ?_))
    · show (8 * s.val + 4 * c.val + r.val) / 4 % 2 = c.val; omega
    · show (8 * s.val + 4 * c.val + r.val) / 8 = s.val; omega
    · show (8 * s.val + 4 * c.val + r.val) % 4 = r.val; omega
  right_inv p := by
    refine Fin.ext ?_
    show 8 * (p.val / 8) + 4 * (p.val / 4 % 2) + p.val % 4 = p.val; omega

/-! ## A worker's rectangles are those parts -/

theorem rectI_eq (L : grid0.Coords) :
    Rect.unit (s := S128x128) (k0_off1 L) S4x128.size (k0_off1_inb L) = iRow (pI (cL L) (sL L)) := by
  unfold iRow Rect.part Rect.block
  congr 1 <;> funext a
  · rw [k0_off1_eq]
    match a with
    | 0 => simp [Shape.partIx, Shape.partSize, pI]; omega
    | 1 => simp [Shape.partIx, Shape.partSize]
  · match a with
    | 0 => simp [Shape.partSize]
    | 1 => simp [Shape.partSize]

theorem rectO_eq (L : grid0.Coords) (r : Fin 4) :
    Rect.unit (s := S16384x128) (k0_off2 L (BitVec.ofNat 32 (128 * r.val))) S128x128.size (k0_off2_inb L r)
      = oRow (pO (cL L) (sL L) r) := by
  unfold oRow Rect.part Rect.block
  congr 1 <;> funext a
  · rw [k0_off2_eq]
    match a with
    | 0 => simp [Shape.partIx, Shape.partSize, pO]; omega
    | 1 => simp [Shape.partIx, Shape.partSize]
  · match a with
    | 0 => simp [Shape.partSize]
    | 1 => simp [Shape.partSize]

/-- The rows worker `(c, s)` reads of the index array, its piece `r` of the output. -/
abbrev iSet (c : Fin 2) (s : Fin 16) : Finset S128x128.Idx := (iRow (pI c s)).set
abbrev oSet (c : Fin 2) (s : Fin 16) (r : Fin 4) : Finset S16384x128.Idx := (oRow (pO c s r)).set

theorem set_idxM (L : grid0.Coords) : (idxM L).view.set = iSet (cL L) (sL L) := by
  show ((View.whole (main_v1_scv : Ref sig .scVector)).slice (Rect.unit (s := S128x128) (k0_off1 L) S4x128.size (k0_off1_inb L))).set = _
  rw [View.set_slice, rectI_eq]; exact Finset.map_refl

theorem set_outM (L : grid0.Coords) (r : Fin 4) :
    ((oV : Memref sig .scVector .hbm S16384x128 .f32).slice
      (Rect.unit (s := S16384x128) (k0_off2 L (BitVec.ofNat 32 (128 * r.val))) S128x128.size (k0_off2_inb L r)) (fun _ => rfl)).view.set
      = oSet (cL L) (sL L) r := by
  show ((View.whole (main_v2_scv : Ref sig .scVector)).slice
    (Rect.unit (s := S16384x128) (k0_off2 L (BitVec.ofNat 32 (128 * r.val))) S128x128.size (k0_off2_inb L r))).set = _
  rw [View.set_slice, rectO_eq]; exact Finset.map_refl

theorem set_outM0 (L : grid0.Coords) : (outM0 L).view.set = oSet (cL L) (sL L) 0 := set_outM L 0
theorem set_outM1 (L : grid0.Coords) : (outM1 L).view.set = oSet (cL L) (sL L) 1 := set_outM L 1
theorem set_outM2 (L : grid0.Coords) : (outM2 L).view.set = oSet (cL L) (sL L) 2 := set_outM L 2
theorem set_outM3 (L : grid0.Coords) : (outM3 L).view.set = oSet (cL L) (sL L) 3 := set_outM L 3

/-! ## The arrays as the workers' parts -/

theorem iRows_disjoint : ∀ p ∈ (Finset.univ : Finset (Fin 32)), ∀ p' ∈ (Finset.univ : Finset (Fin 32)), p ≠ p' →
    Disjoint (iRow p).set (iRow p').set := fun _ _ _ _ h => Rect.part_disjoint hdivI h
theorem iRows_cover : (Finset.univ : Finset (Fin 32)).biUnion (fun p => (iRow p).set) = Finset.univ := Rect.biUnion_part hdivI
theorem oRows_disjoint : ∀ p ∈ (Finset.univ : Finset (Fin 128)), ∀ p' ∈ (Finset.univ : Finset (Fin 128)), p ≠ p' →
    Disjoint (oRow p).set (oRow p').set := fun _ _ _ _ h => Rect.part_disjoint hdivO h
theorem oRows_cover : (Finset.univ : Finset (Fin 128)).biUnion (fun p => (oRow p).set) = Finset.univ := Rect.biUnion_part hdivO

/-- A `bigSep` over four summands. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

variable (m : (ℓ : Loc nD τ sig) → Buf (Elt F) ℓ) (I : (d : Dev nD) → Buf (Elt F) (iLoc d))

/-- Worker `(c, s)`'s four pieces of the output, over the part numbers. -/
abbrev out4 (d : Dev nD) (c : Fin 2) (s : Fin 16) (fo : Buf (Elt F) (oLoc d)) : sProp 𝕄 :=
  iprop((oLoc d ↦[oSet c s 0]{fullShare} fo) ∗ (oLoc d ↦[oSet c s 1]{fullShare} fo)
    ∗ (oLoc d ↦[oSet c s 2]{fullShare} fo) ∗ (oLoc d ↦[oSet c s 3]{fullShare} fo))

/-- The index array is the workers' rows of it. -/
theorem iPts_parts (d : Dev nD) (f : Buf (Elt F) (iLoc d)) :
    (iLoc d ↦{fullShare} f : sProp 𝕄)
      = bigSep Finset.univ fun c : Fin 2 => bigSep Finset.univ fun s : Fin 16 => iLoc d ↦[iSet c s]{fullShare} f := by
  have h1 : (iLoc d ↦{fullShare} f : sProp 𝕄) = bigSep Finset.univ fun p : Fin 32 => iLoc d ↦[(iRow p).set]{fullShare} f := by
    rw [← pointsTo_biUnion Finset.univ (ℓ := iLoc d) (fun p : Fin 32 => (iRow p).set) iRows_disjoint, iRows_cover]; try rfl
  rw [h1, bigSep_univ_equiv eI, bigSep_univ_prod]
  rfl

/-- The output is the workers' pieces of it. -/
theorem oPts_parts (d : Dev nD) (f : Buf (Elt F) (oLoc d)) :
    (oLoc d ↦{fullShare} f : sProp 𝕄)
      = bigSep Finset.univ fun c : Fin 2 => bigSep Finset.univ fun s : Fin 16 => out4 d c s f := by
  have h1 : (oLoc d ↦{fullShare} f : sProp 𝕄) = bigSep Finset.univ fun p : Fin 128 => oLoc d ↦[(oRow p).set]{fullShare} f := by
    rw [← pointsTo_biUnion Finset.univ (ℓ := oLoc d) (fun p : Fin 128 => (oRow p).set) oRows_disjoint, oRows_cover]; try rfl
  rw [h1, bigSep_univ_equiv eO, bigSep_univ_prod]
  refine bigSep_congr fun c _ => ?_
  rw [bigSep_univ_prod]
  refine bigSep_congr fun s _ => ?_
  rw [bigSep_fin_four]
  rfl

/-- The table's full share is the SparseCores' read shares and a remainder. -/
theorem tPts_cores (d : Dev nD) (f : Buf (Elt F) (tLoc d)) :
    (tLoc d ↦{fullShare} f : sProp 𝕄)
      = iprop((tLoc d ↦{shareDrop fullShare 2} f) ∗ bigSep Finset.univ fun c : Fin 2 => tLoc d ↦{qC c} f) :=
  have h : (tLoc d ↦{fullShare} f : sProp 𝕄)
      ⊣⊢ iprop((tLoc d ↦{shareDrop fullShare 2} f) ∗ bigSep Finset.univ fun c : Fin 2 => tLoc d ↦{shareTok fullShare 2 c} f) :=
    Transfers.pointsTo_toks fullShare 2
  BI.equiv_iff.mp ⟨h.1, h.2⟩

/-- A SparseCore's read share is its workers' read shares and a remainder. -/
theorem tPts_workers (d : Dev nD) (c : Fin 2) (f : Buf (Elt F) (tLoc d)) :
    (tLoc d ↦{qC c} f : sProp 𝕄)
      = iprop((tLoc d ↦{shareDrop (qC c) 16} f) ∗ bigSep Finset.univ fun s : Fin 16 => tLoc d ↦{qT c s} f) :=
  have h : (tLoc d ↦{qC c} f : sProp 𝕄)
      ⊣⊢ iprop((tLoc d ↦{shareDrop (qC c) 16} f) ∗ bigSep Finset.univ fun s : Fin 16 => tLoc d ↦{shareTok (qC c) 16 s} f) :=
    Transfers.pointsTo_toks (qC c) 16
  BI.equiv_iff.mp ⟨h.1, h.2⟩

/-! ## What a worker and a SparseCore are handed, over the part numbers -/

theorem tile_pieces (d : Dev nD) (L : grid0.Coords) (fo : Buf (Elt F) (oLoc d)) :
    (iprop(idxPts I d L ∗ outPts d L fo) : sProp 𝕄)
      = iprop((iLoc d ↦[iSet (cL L) (sL L)]{fullShare} I d) ∗ out4 d (cL L) (sL L) fo) := by
  show (iprop((iLoc d ↦[(idxM L).view.set]{fullShare} I d) ∗ (oLoc d ↦[(outM0 L).view.set]{fullShare} fo)
    ∗ (oLoc d ↦[(outM1 L).view.set]{fullShare} fo) ∗ (oLoc d ↦[(outM2 L).view.set]{fullShare} fo)
    ∗ (oLoc d ↦[(outM3 L).view.set]{fullShare} fo)) : sProp 𝕄) = _
  rw [set_idxM, set_outM0, set_outM1, set_outM2, set_outM3]

theorem tileRes_eq (d : Dev nD) (L : grid0.Coords) (fo : Buf (Elt F) (oLoc d)) :
    tileRes m I d L fo
      = iprop((iLoc d ↦[iSet (cL L) (sL L)]{fullShare} I d) ∗ (tLoc d ↦{qT (cL L) (sL L)} m (tLoc d)) ∗ out4 d (cL L) (sL L) fo) := by
  show (iprop((iLoc d ↦[(idxM L).view.set]{fullShare} I d) ∗ (tLoc d ↦{qT (cL L) (sL L)} m (tLoc d))
    ∗ (oLoc d ↦[(outM0 L).view.set]{fullShare} fo)
    ∗ (oLoc d ↦[(outM1 L).view.set]{fullShare} fo) ∗ (oLoc d ↦[(outM2 L).view.set]{fullShare} fo)
    ∗ (oLoc d ↦[(outM3 L).view.set]{fullShare} fo)) : sProp 𝕄) = _
  rw [set_idxM, set_outM0, set_outM1, set_outM2, set_outM3]

theorem coreRes_eq (d : Dev nD) (c : Fin ((K (F := F)).nCore 0)) (fo : Buf (Elt F) (oLoc d)) :
    coreRes m I d c fo
      = iprop(((bigSep Finset.univ fun s : Fin 16 => iLoc d ↦[iSet (Fin.cast (nCore_zero (F := F)) c) s]{fullShare} I d)
          ∗ (bigSep Finset.univ fun s : Fin 16 => out4 d (Fin.cast (nCore_zero (F := F)) c) s fo))
        ∗ tLoc d ↦{qC (Fin.cast (nCore_zero (F := F)) c)} m (tLoc d)) := by
  have h : (bigSep Finset.univ fun i : Fin ((K (F := F)).nSub 0) => (iprop(idxPts I d (Lq c i) ∗ outPts d (Lq c i) fo) : sProp 𝕄))
      = bigSep Finset.univ fun s : Fin 16 => iprop((iLoc d ↦[iSet (Fin.cast (nCore_zero (F := F)) c) s]{fullShare} I d)
          ∗ out4 d (Fin.cast (nCore_zero (F := F)) c) s fo) :=
    bigSep_congr fun i _ => tile_pieces I d (Lq c i) fo
  rw [← bigSep_sep', ← h]

/-! ## The split at the launch and its inverse -/

theorem cores_split (d : Dev nD) (fo : Buf (Elt F) (oLoc d)) :
    (iprop((iLoc d ↦{fullShare} I d) ∗ (oLoc d ↦{fullShare} fo) ∗ (tLoc d ↦{fullShare} m (tLoc d))) : sProp 𝕄)
      ⊣⊢ iprop((bigSep Finset.univ fun c : Fin ((K (F := F)).nCore 0) => coreRes m I d c fo) ∗ (tLoc d ↦{shareDrop fullShare 2} m (tLoc d))) := by
  have hR : (bigSep Finset.univ fun c : Fin ((K (F := F)).nCore 0) => coreRes m I d c fo)
      = iprop(((bigSep Finset.univ fun c : Fin 2 => bigSep Finset.univ fun s : Fin 16 => iLoc d ↦[iSet c s]{fullShare} I d)
          ∗ (bigSep Finset.univ fun c : Fin 2 => bigSep Finset.univ fun s : Fin 16 => out4 d c s fo))
        ∗ bigSep Finset.univ fun c : Fin 2 => tLoc d ↦{qC c} m (tLoc d)) := by
    rw [← bigSep_sep', ← bigSep_sep']
    exact bigSep_congr fun c _ => coreRes_eq m I d c fo
  rw [hR, iPts_parts d (I d), oPts_parts d fo, tPts_cores d (m (tLoc d))]
  refine ⟨?_, ?_⟩
  · iintro ⟨Hi, Ho, Hd, Ht⟩
    isplitr [Hd]
    · isplitr [Ht]
      · isplitl [Hi]
        · iexact Hi
        · iexact Ho
      · iexact Ht
    · iexact Hd
  · iintro ⟨⟨⟨Hi, Ho⟩, Ht⟩, Hd⟩
    isplitl [Hi]
    · iexact Hi
    isplitl [Ho]
    · iexact Ho
    isplitl [Hd]
    · iexact Hd
    iexact Ht

/-- A SparseCore's operands split among its sixteen workers, the table by read shares with the remainder kept aside;
    the workers' results join into the SparseCore's. -/
theorem vecSplit : (K (F := F)).VecSplit' (P m I) 0 := by
  intro d c
  show coreRes m I d c (m (oLoc d)) ⊢ |={Set.univ}=> iprop(
      (bigSep Finset.univ fun i : Fin ((K (F := F)).nSub 0) => tileRes m I d (Lq c i) (m (oLoc d)))
      ∗ ((bigSep Finset.univ fun i : Fin ((K (F := F)).nSub 0) => tileRes m I d (Lq c i) (gathered m I d))
          -∗ coreRes m I d c (gathered m I d)))
  have hT : ∀ fo : Buf (Elt F) (oLoc d), (bigSep Finset.univ fun i : Fin ((K (F := F)).nSub 0) => tileRes m I d (Lq c i) fo)
      = iprop((bigSep Finset.univ fun s : Fin 16 => iLoc d ↦[iSet (Fin.cast (nCore_zero (F := F)) c) s]{fullShare} I d)
          ∗ (bigSep Finset.univ fun s : Fin 16 => tLoc d ↦{qT (Fin.cast (nCore_zero (F := F)) c) s} m (tLoc d))
          ∗ (bigSep Finset.univ fun s : Fin 16 => out4 d (Fin.cast (nCore_zero (F := F)) c) s fo)) := by
    intro fo
    rw [← bigSep_sep', ← bigSep_sep']
    exact bigSep_congr fun i _ => tileRes_eq m I d (Lq c i) fo
  rw [hT, hT, coreRes_eq, coreRes_eq, tPts_workers]
  iintro ⟨⟨Hi, Ho⟩, Hd, Ht⟩
  imodintro
  isplitl [Hi Ho Ht]
  · isplitl [Hi]
    · iexact Hi
    isplitl [Ht]
    · iexact Ht
    iexact Ho
  · iintro ⟨Hi, Ht, Ho⟩
    isplitl [Hi Ho]
    · isplitl [Hi]
      · iexact Hi
      · iexact Ho
    · isplitl [Hd]
      · iexact Hd
      · iexact Ht

end Cert.KSide

end
-- ==== Proof.RegionBody.lean ====
/-
  The TensorCore region's body and its proof data. The body reads its two input blocks whole, a block of 8192
  gathered rows and the transposed weights, and stores one value over the whole output block: the softmax
  of the block's logits, laid out 64 × 8192. So after the body at grid point `t` the output's staging
  buffer holds that value of block `t` of the gathered rows; the inputs' buffers hold their blocks as fetched.
-/
import proofs.«207835_g56727928045975_cont_9to1_m_1027_16_alg».proof.Proof.Setup
import Idealize.ShloMosaic.Lib.Pipeline.FrameBody
import Idealize.ShloMosaic.Lib.Pipeline.Value
import Idealize.ShloMosaic.Lib.Tactic

set_option maxRecDepth 16384

noncomputable section

namespace Cert.KSide

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Pipeline (Dat Cfg Window BodyObligation BodyObligationLoose cellOf)

variable {F : FTy → Type} [FloatOps F]

local notation "𝕄" => MT nD τ sig (HIx 1) (Elt F) ℕ UU ℕ

/-! ## The body's accesses: each the whole of its staging buffer -/

abbrev rIn0 : Rect S8192x128 := Rect.unit (s := S8192x128) ![0, 0] S8192x128.size inb_S8192x128_S8192x128_0_0
abbrev rIn1 : Rect S64x128 := Rect.unit (s := S64x128) ![0, 0] S64x128.size inb_S64x128_S64x128_0_0
abbrev rOut : Rect S64x8192 := Rect.unit (s := S64x8192) ![0, 0] S64x8192.size inb_S64x8192_S64x8192_0_0

theorem off00 : (![0, 0] : Fin 2 → Nat) = fun _ => 0 := by funext a; fin_cases a <;> rfl

/-- What the body leaves in the output window's buffer, from the input windows' blocks: its one store. -/
def outBlk (x0 : Vec F S8192x128 .f32) (x1 : Vec F S64x128 .f32) : Vec F S64x8192 .f32 :=
  View.canon [⟨rOut, k1_pay1 (View.ld x0 rIn0) (View.ld x1 rIn1)⟩]

/-- The one store covers the buffer. -/
theorem cover_out (p0 : Vec F S64x8192 .f32) (y : S64x8192.Idx) :
    ∃ pc ∈ ([⟨rOut, p0⟩] : List (View.Piece (Elt F) S64x8192 .f32)), y ∈ pc.1.set :=
  View.cover_of_tiled [⟨rOut, p0⟩] S64x8192.size (by rfl) y

/-- The stored block is the payload of the two blocks read. -/
theorem outBlk_eq (x0 : Vec F S8192x128 .f32) (x1 : Vec F S64x128 .f32) : outBlk x0 x1 = k1_pay1 x0 x1 := by
  unfold outBlk
  rw [View.canon_unit_zero off00, View.ld_unit_zero off00, View.ld_unit_zero off00]

/-! ## The body's triple -/

set_option maxHeartbeats 1000000 in
/-- The kernel body on whole staging memrefs, the inputs' at read contents and the output's at anything, runs to the
    continuation holding the inputs' as they were and the output's at `outBlk` of the inputs'. -/
theorem sound_kernel1 (c : Dev nD) (E : Set ℕ) (i : grid1.Coords) (arg1 : Memref sig .tc .vmem S8192x128 .f32) (harg1 : arg1.IsWhole)
    (arg2 : Memref sig .tc .vmem S64x128 .f32) (harg2 : arg2.IsWhole) (arg3 : Memref sig .tc .vmem S64x8192 .f32) (harg3 : arg3.IsWhole)
    (x0 : Vec F S8192x128 .f32) (x1 : Vec F S64x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kc ⟨⟩))
      ⊢ wp frame (wpE (defs₀ (F := F)) Variants.none c none) E (cc1__tc_body i arg1 harg1 arg2 harg2 arg3 harg3) Kc := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

variable (d : Dev nD) (X : Buf (Elt F) (oLoc d)) (Wt : Buf (Elt F) (wLoc d)) (f : Buf (Elt F) (rLoc d))

/-- The windows' arrays when the region is entered: the gathered rows, the transposed weights, the result array at
    whatever it holds. -/
def Ad : (w : Fin cfg1.W) → Buf (Elt F) ((cfg1.win w).arr.view.loc (d.tc : Thread nD τ))
  | ⟨0, _⟩ => X
  | ⟨1, _⟩ => Wt
  | ⟨2, _⟩ => f

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Ad d X Wt f w)

/-- The recorded pairs the TensorCore may hold across the region: those at or below level 8, the level every pair
    recorded up to the end of the one SparseCore call sits at or below. -/
def recB : Set (SemLoc sig × HIx 1) := {p | (K (F := F)).lev ((d.tc : Thread nD τ), p.1) p.2 ≤ 8}

/-- The proof data of the one pipeline on device `d`: after the body at point `t` each input's buffer at its block and
    the output's at `outBlk` of the input blocks; the invariant the scoped buffers no window stages; nothing owed;
    full shares. -/
def dats : Dat τ (Elt F) (HIx 1) ℕ UU ℕ cfg1 d where
  A := Ad d X Wt f
  after w t := match w with
    | ⟨0, _⟩ => iblk d X Wt f 0 t
    | ⟨1, _⟩ => iblk d X Wt f 1 t
    | ⟨2, _⟩ => outBlk (iblk d X Wt f 0 t) (iblk d X Wt f 1 t)
  Φ _ := Pipeline.scopedRest spec1 d
  q _ := fullShare
  owed _ := 0
  recorded _ := recB (F := F) d

theorem A_eq (w : Fin cfg1.W) : (dats d X Wt f).A w = Ad d X Wt f w := by dsimp only [dats]
theorem after1_0 (t : Fin cfg1.N) : (dats d X Wt f).after 0 t = iblk d X Wt f 0 t := by dsimp only [dats]
theorem after1_1 (t : Fin cfg1.N) : (dats d X Wt f).after 1 t = iblk d X Wt f 1 t := by dsimp only [dats]
theorem after1_2 (t : Fin cfg1.N) : (dats d X Wt f).after 2 t = outBlk (iblk d X Wt f 0 t) (iblk d X Wt f 1 t) := by dsimp only [dats]

/-- Each input's current staging buffer holds its block at every point, fetched there or not. -/
theorem before1_0 (t : Fin cfg1.N) (x) : (dats d X Wt f).before 0 t x = iblk d X Wt f 0 t :=
  ((dats d X Wt f).before_in_eq_fetched 0 rfl (fun _ => rfl) (fun _ _ _ => rfl)
      (fun t => by rw [after1_0]; unfold Dat.blockOf iblk; rw [A_eq]; try rfl) t x).trans
    (by unfold Dat.fetched Dat.blockOf iblk; rw [A_eq]; try rfl)
theorem before1_1 (t : Fin cfg1.N) (x) : (dats d X Wt f).before 1 t x = iblk d X Wt f 1 t :=
  ((dats d X Wt f).before_in_eq_fetched 1 rfl (fun _ => rfl) (fun _ _ _ => rfl)
      (fun t => by rw [after1_1]; unfold Dat.blockOf iblk; rw [A_eq]; try rfl) t x).trans
    (by unfold Dat.fetched Dat.blockOf iblk; rw [A_eq]; try rfl)

/-! ## The body obligation, at a generic point -/

def bodyPre (t : Fin cfg1.N) : sProp 𝕄 :=
  iprop((dats d X Wt f).Φ t.castSucc ∗ (dats d X Wt f).owesAt none t.castSucc
    ∗ (∃ x, owns (d : Thread nD τ) (st1_0 t) fullShare ((dats d X Wt f).before 0 t x))
    ∗ (∃ x, owns (d : Thread nD τ) (st1_1 t) fullShare ((dats d X Wt f).before 1 t x))
    ∗ (∃ x, owns (d : Thread nD τ) (st1_2 t) fullShare ((dats d X Wt f).before 2 t x)))

def bodyPost (t : Fin cfg1.N) : sProp 𝕄 :=
  iprop((dats d X Wt f).Φ t.succ ∗ (dats d X Wt f).owesAt none t.succ
    ∗ owns (d : Thread nD τ) (st1_0 t) fullShare ((dats d X Wt f).after 0 t)
    ∗ owns (d : Thread nD τ) (st1_1 t) fullShare ((dats d X Wt f).after 1 t)
    ∗ owns (d : Thread nD τ) (st1_2 t) fullShare ((dats d X Wt f).after 2 t))

theorem sound_body (t : Fin cfg1.N) :
    bodyPre d X Wt f t ⊢ wp frame (wpE (defs₀ (F := F)) Variants.none d none) Set.univ (bodyAt1 t) (fun _ => bodyPost d X Wt f t) := by
  unfold bodyPre bodyPost bodyAt1
  simp only [before1_0, before1_1]
  rw [show (dats d X Wt f).Φ t.succ = (dats d X Wt f).Φ t.castSucc from rfl,
    show (dats d X Wt f).owesAt none t.succ = (dats d X Wt f).owesAt none t.castSucc from rfl,
    after1_0, after1_1, after1_2]
  iintro ⟨HΦ, Ho, ⟨%x0, H0⟩, ⟨%x1, H1⟩, ⟨%x2, H2⟩⟩
  iapply (sound_kernel1 d Set.univ (grid1.coords t) _ _ _ _ _ _ (iblk d X Wt f 0 t) (iblk d X Wt f 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation : BodyObligation (dats d X Wt f) (defs₀ (F := F)) Variants.none none Set.univ := fun t => by
  rw [bigSep_W1, bigSep_W1]
  exact sound_body d X Wt f t

end Cert.KSide

end
-- ==== Proof.Region.lean ====
/-
  The TensorCore region entered from inside the SparseCore program. The two column blocks of the 64 × 16384
  result tile it (columns 0 … 8191 written at grid point 0, columns 8192 … 16383 at grid point 1), so after the
  region the result array is one function of the gathered rows and the transposed weights: column `i` is column
  `i % 8192` of the body's value on block `i / 8192`. The inputs' arrays are left as they were. The staging
  cells of the region's pipeline are funded at the launch and their invariants allocated at the region's entry.
-/
import proofs.«207835_g56727928045975_cont_9to1_m_1027_16_alg».proof.Proof.RegionBody

set_option maxRecDepth 16384

noncomputable section

namespace Cert.KSide

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Pipeline (Dat Cfg Window BodyObligation BodyObligationLoose cellOf)

variable {F : FTy → Type} [FloatOps F]

local notation "𝕄" => MT nD τ sig (HIx 1) (Elt F) ℕ UU ℕ

variable (d : Dev nD) (X : Buf (Elt F) (oLoc d)) (Wt : Buf (Elt F) (wLoc d)) (f : Buf (Elt F) (rLoc d))

/-! ## From the blocks to the arrays -/

/-- The printed index maps over the grid: the gathered rows move by blocks of rows with the point, the weights stay,
    the result moves by blocks of columns with the point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

/-- A grid point as a block number. -/
def tFin (t : Fin cfg1.N) : Fin 2 := ⟨t.val, by have := t.isLt; have e : cfg1.N = 2 := N_1; omega⟩

/-- The first window's block at point `t` is block `t` of the gathered rows. -/
theorem iblk0_eq (t : Fin cfg1.N) : iblk d X Wt f 0 t = blockOf X (tFin t) := by
  obtain ⟨e0, e1, -, -, -, -⟩ := idx_facts t
  funext y
  show X (((cfg1.win 0).blk t).view.emb y) = X _
  congr 1
  funext a; apply Fin.ext
  match a with
  | ⟨0, _⟩ => show win1_0.index t (0 : Fin 2) * 8192 + 1 * (y 0).val = t.val * 8192 + (y 0).val; omega
  | ⟨1, _⟩ => show win1_0.index t (1 : Fin 2) * 128 + 1 * (y 1).val = (y 1).val; omega

/-- The second window's block at any point is the whole of the transposed weights. -/
theorem iblk1_eq (t : Fin cfg1.N) : iblk d X Wt f 1 t = Wt := by
  obtain ⟨-, -, e2, e3, -, -⟩ := idx_facts t
  funext y
  show Wt (((cfg1.win 1).blk t).view.emb y) = Wt y
  congr 1
  funext a; apply Fin.ext
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- The result's final contents at an index whose column is column `j 1` of block `t`. -/
theorem regionOut_at (X : S16384x128.Idx → Elt F .f32) (Wt : Vec F S64x128 .f32) (t : Fin 2) (j : S64x8192.Idx) (i : S64x16384.Idx)
    (h0 : (i 0).val = (j 0).val) (h1 : (i 1).val = t.val * 8192 + (j 1).val) :
    k1_pay1 (blockOf X t) Wt j = regionOut X Wt i := by
  have hj1 : (j 1).val < 8192 := idx2_lt1 j
  have ht : t.val < 2 := t.isLt
  have hi1 : (i 1).val < 16384 := idx2_lt1 i
  unfold regionOut
  refine congr (congrArg (fun b => k1_pay1 (blockOf X b) Wt) (Fin.ext ?_)) (funext fun a => Fin.ext ?_)
  · show t.val = (i 1).val / 8192; omega
  · match a with
    | ⟨0, _⟩ => exact h0.symm
    | ⟨1, _⟩ => show (j 1).val = (i 1).val % 8192; omega

/-- What point `t` writes back is block `t` of the result array's final contents. -/
theorem flushed_eq (t : Fin cfg1.N) :
    (dats d X Wt f).flushed 2 t = ((cfg1.win 2).blk t).view.read (Elt F) (regionOut X Wt) := by
  show (cfg1.win 2).cut (grid1.coords t) ((dats d X Wt f).after 2 t) = _
  rw [after1_2, outBlk_eq, iblk0_eq, iblk1_eq]
  obtain ⟨-, -, -, -, e4, e5⟩ := idx_facts t
  funext j
  show k1_pay1 (blockOf X (tFin t)) Wt j = regionOut X Wt (((cfg1.win 2).blk t).view.emb j)
  refine regionOut_at X Wt (tFin t) j _ ?_ ?_
  · show win1_2.index t (0 : Fin 2) * 64 + 1 * (j 0).val = (j 0).val; omega
  · show win1_2.index t (1 : Fin 2) * 8192 + 1 * (j 1).val = t.val * 8192 + (j 1).val; omega

/-- An index of the result array is in point `t`'s block iff each coordinate is in the block's range on its axis. -/
theorem mem_blk (t : Fin cfg1.N) (i : S64x16384.Idx) :
    i ∈ ((cfg1.win 2).blk t).view.set ↔ ∀ a : Fin 2, win1_2.index t a * S64x8192.size a ≤ (i a).val ∧ (i a).val < win1_2.index t a * S64x8192.size a + S64x8192.size a := by
  show i ∈ ((View.whole main_v4).slice (win1_2.rect t)).set ↔ _
  rw [View.set_slice_whole, Rect.mem_set_unit]
  exact Iff.rfl

/-- The two column blocks cover the result array. -/
theorem cover (i : S64x16384.Idx) : ∃ t : Fin cfg1.N, (cfg1.win 2).flush t = true ∧ i ∈ ((cfg1.win 2).blk t).view.set := by
  have hi0 : (i 0).val < 64 := (i 0).isLt
  have hi1 : (i 1).val < 16384 := (i 1).isLt
  have eN : cfg1.N = 2 := N_1
  let t : Fin cfg1.N := ⟨(i 1).val / 8192, by omega⟩
  obtain ⟨-, -, -, -, e4, e5⟩ := idx_facts t
  have e5' : win1_2.index t (1 : Fin 2) = (i 1).val / 8192 := e5
  refine ⟨t, flush1_2 t, ?_⟩
  rw [mem_blk]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 8192 ≤ (i 1).val ∧ (i 1).val < win1_2.index t (1 : Fin 2) * 8192 + 8192; omega

/-- The result array after the region. -/
theorem final2 : (dats d X Wt f).arrAt 2 cfg1.N = regionOut X Wt :=
  (dats d X Wt f).arrAt_eq_of_cover 2 (regionOut X Wt) (fun t _ => flushed_eq d X Wt f t) cover

/-- The input arrays after the region: as they were. -/
theorem final0 : (dats d X Wt f).arrAt 0 cfg1.N = X := ((dats d X Wt f).arrAt_in 0 rfl _).trans (A_eq d X Wt f 0)
theorem final1 : (dats d X Wt f).arrAt 1 cfg1.N = Wt := ((dats d X Wt f).arrAt_in 1 rfl _).trans (A_eq d X Wt f 1)

/-! ## What the region needs from the launch -/

/-- The admissible (empty) prefetched tables of the one pipeline. -/
abbrev aP : (p : Fin 1) → (pcfgs (F := F) p).Adm := fun p => (cfgs p).toPCfg_adm

/-- The pipeline's rounds element at launch: its staging cells, its loop's transfers. -/
def uP₀ : UP := initOf (Pipeline.cells (nD := nD) (τ := τ) cfgs cellOf_inj) (Pipeline.launchToks (nD := nD) (τ := τ) cfgs cellOf_inj)

/-- What the region needs from the launch on device `d`: its staging cells' ghost state and its loop's duty tokens. -/
def Gd (d : Dev nD) : sProp 𝕄 :=
  iprop(Pipeline.cellsGhost cfgs (EP (F := F)) 0 d ∗ Pipeline.toksInit cfgs (EP (F := F)) 0 d)

theorem bigSep_fin1 (Φ : Fin 1 → sProp 𝕄) : bigSep Finset.univ Φ = Φ 0 := by
  rw [show (Finset.univ : Finset (Fin 1)) = {0} from rfl, bigSep_singleton]

theorem fund_Gd : (BI.own (EP (F := F) uP₀) : sProp 𝕄) ⊢ |==> bigSep Finset.univ fun d : Dev nD => Gd (F := F) d := by
  refine (Pipeline.fund_ghost (nD := nD) (τ := τ) cfgs (EP (F := F)) cellOf_inj).trans (bupd_mono ?_)
  unfold Gd
  simp only [bigSep_fin1, bigSep_sep']
  exact BI.Entails.refl _

/-! ## The region: its proof data on every device, what it is entered from and what it leaves -/

section Region

variable (Xs : (c : Dev nD) → Buf (Elt F) (oLoc c)) (Ws : (c : Dev nD) → Buf (Elt F) (wLoc c)) (fs : (c : Dev nD) → Buf (Elt F) (rLoc c))

/-- The proof data on every device. -/
abbrev pdats : (p : Fin 1) → (c : Dev nD) → Dat τ (Elt F) (HIx 1) ℕ UU ℕ (Pipeline.pin (pcfgs (F := F)) aP p) c :=
  fun _ c => dats c (Xs c) (Ws c) (fs c)

/-- The TensorCore owing nothing, every pair it has recorded at or below level 8. -/
def owesTc (c : Dev nD) : sProp 𝕄 :=
  iprop(∃ W, ⌜(K (F := F)).WBelow (T c) W (8 * 1)⌝ ∗ owes (T c) (0 : CellTallies nD τ sig (HIx 1)) W)

def preR (c : Dev nD) : sProp 𝕄 :=
  iprop(owesTc (F := F) c ∗ (oLoc c ↦{fullShare} Xs c) ∗ (wLoc c ↦{fullShare} Ws c) ∗ (rLoc c ↦{fullShare} fs c))
def postR (c : Dev nD) : sProp 𝕄 :=
  iprop(owesTc (F := F) c ∗ (oLoc c ↦{fullShare} Xs c) ∗ (wLoc c ↦{fullShare} Ws c) ∗ (rLoc c ↦{fullShare} regionOut (Xs c) (Ws c)))

theorem share_full (c : Dev nD) (w : Fin cfg1.W) : (dats c (Xs c) (Ws c) (fs c)).share w = fullShare :=
  (dats c (Xs c) (Ws c) (fs c)).share_full (fun _ => rfl) w

theorem prefHeld_nil (c : Dev nD) :
    (emp : sProp 𝕄) ⊢ Pipeline.prefHeld (pcfgs (F := F) 0).pre c (fun _ => fullShare) (aP (F := F) 0).1 := by
  unfold Pipeline.prefHeld
  show (emp : sProp 𝕄) ⊢ bigSep (Finset.univ : Finset (Fin 0)) _
  rw [Finset.univ_eq_empty, bigSep_empty]
  exact BI.Entails.refl _

theorem hentry_R (c : Dev nD) :
    iprop(preR Xs Ws fs c ∗ Pipeline.ownSems0 (fun k : PEmpty => k.elim) c ∗ levAts (K (F := F)).L (K (F := F)).lev)
      ⊢ |={Set.univ}=> iprop((dats c (Xs c) (Ws c) (fs c)).arrays ((dats c (Xs c) (Ws c) (fs c)).arrAt · 0)
          ∗ Pipeline.prefHeld (pcfgs (F := F) 0).pre c (fun _ => fullShare) (aP (F := F) 0).1
          ∗ (dats c (Xs c) (Ws c) (fs c)).owesAt (none : HIx 1) 0 ∗ (emp : sProp 𝕄) ∗ (emp : sProp 𝕄)) := by
  rw [Pipeline.arrays_eq cfgs (pdats Xs Ws fs) 0 c arr_whole1 (share_full Xs Ws fs c), bigSep_W1]
  unfold preR owesTc
  iintro ⟨⟨⟨%W, %hW, Ho⟩, HX, HW, Hf⟩, -, -⟩
  imodintro
  isplitl [HX HW Hf]
  · isplitl [HX]; · iexact HX
    isplitl [HW]; · iexact HW
    iexact Hf
  isplitr
  · iapply (prefHeld_nil c); iempintro
  isplitl [Ho]
  · iexists W; isplitr
    · ipureintro; exact fun p hp => Or.inl (hW p (Finset.mem_coe.mp hp))
    iexact Ho
  isplitl [] <;> iempintro

theorem hexit_R (c : Dev nD) :
    iprop((dats c (Xs c) (Ws c) (fs c)).arrays ((dats c (Xs c) (Ws c) (fs c)).arrAt · cfg1.N)
        ∗ (dats c (Xs c) (Ws c) (fs c)).owesAt (none : HIx 1) (Fin.last cfg1.N) ∗ (emp : sProp 𝕄) ∗ (emp : sProp 𝕄))
      ⊢ |={Set.univ}=> postR Xs Ws c := by
  rw [Pipeline.arrays_eq cfgs (pdats Xs Ws fs) 0 c arr_whole1 (share_full Xs Ws fs c), bigSep_W1]
  dsimp only
  rw [final0, final1, final2]
  unfold postR owesTc
  iintro ⟨⟨HX, HW, Hf⟩, ⟨%W, %hW, Ho⟩, -, -⟩
  imodintro
  isplitl [Ho]
  · iexists W; isplitr
    · ipureintro
      intro p hp
      rcases hW (Finset.mem_coe.mpr hp) with h | ⟨w, s, rfl⟩
      · exact h
      · exact Nat.zero_le _
    iexact Ho
  isplitl [HX]; · iexact HX
  isplitl [HW]; · iexact HW
  iexact Hf

def Rseg : Pipeline.RegionSeg (pcfgs (F := F)) aP (pdats Xs Ws fs) (none : HIx 1) defs₀ 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody c := (body_obligation c (Xs c) (Ws c) (fs c)).loose
  hwaits c := Pipeline.hwaits_of_owed_zero (pcfgs (F := F)) aP (pdats Xs Ws fs) (none : HIx 1) (K (F := F)).L (K (F := F)).lev (0 : Fin 1) (fun _ _ => rfl) c
  pre := preR Xs Ws fs
  post := postR Xs Ws
  X _ := iprop(emp)
  Y _ := iprop(emp)
  Z _ := iprop(emp)
  hentry c := hentry_R Xs Ws fs c
  hin c := by
    show iprop(_ ∗ _ ∗ Pipeline.scopedRest spec1 c) ⊢ Pipeline.scopedRest spec1 c
    iintro ⟨-, -, H⟩; iexact H
  hout c := by
    rw [Pipeline.ownSems0_none]
    show Pipeline.scopedRest spec1 c ⊢ iprop(_ ∗ _ ∗ Pipeline.scopedRest spec1 c)
    iintro H
    isplitr; · iempintro
    isplitr; · iempintro
    iexact H
  hexit c := hexit_R Xs Ws fs c

end Region

/-! ## The region's step on the TensorCore -/

/-- One device's contents as a family over the devices: there is one device. -/
def fam {β : Dev nD → Type} (d : Dev nD) (x : β d) : (c : Dev nD) → β c := fun c => (Subsingleton.elim d c) ▸ x
theorem fam_self {β : Dev nD → Type} (d : Dev nD) (x : β d) : fam d x d = x := rfl

set_option backward.isDefEq.respectTransparency.types false in
theorem region_wp (m : (ℓ : Loc nD τ sig) → Buf (Elt F) ℓ) (I : (d : Dev nD) → Buf (Elt F) (iLoc d)) (κ : GSem nD τ sig → ℕ) (d : Dev nD)
    (X : Buf (Elt F) (oLoc d)) (Wt : Buf (Elt F) (wLoc d)) {α : Type}
    (k : PUnit → Prog (TpuEff nD τ sig (Elt F) (SparseCore.Sig (ΛP (F := F)) 1) .tc) α) (Q : α → sProp 𝕄) :
    iprop((K (F := F)).ctx EH (P m I) κ ∗ (K (F := F)).tcSt EH d 1 ∗ boundary (SparseCore.T d) ∗ Gd d
        ∗ (oLoc d ↦{fullShare} X) ∗ (wLoc d ↦{fullShare} Wt) ∗ (∃ f, rLoc d ↦{fullShare} f)
        ∗ (iprop((K (F := F)).tcSt EH d 1 ∗ boundary (SparseCore.T d) ∗ (oLoc d ↦{fullShare} X) ∗ (wLoc d ↦{fullShare} Wt) ∗ (rLoc d ↦{fullShare} regionOut X Wt))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q := by
  unfold SparseCore.Cfg.tcSt Gd
  rw [(K (F := F)).Otc_end (nD := nD) d (le_refl 1)]
  iintro ⟨#Hctx, ⟨Ho, Hrest⟩, Hbd, HG, HX, HW, ⟨%f, Hf⟩, Hk⟩
  have hprog : (Prog.op (TpuEff.customCall (SparseCore.inner (Pipeline.entry (0 : Fin 1))) ()) k : Prog (TpuEff nD τ sig (Elt F) (SparseCore.Sig (ΛP (F := F)) 1) .tc) α)
      = (SparseCore.liftProg (Q := 1) (Prog.op (TpuEff.customCall (Pipeline.entry (0 : Fin 1)) ()) (fun _ => Prog.ret PUnit.unit) : Prog (TpuEff nD τ sig (Elt F) (ΛP (F := F)) .tc) PUnit)) >>= k := rfl
  rw [hprog, wp_bind]
  iapply ((K (F := F)).wp_liftProg (D (F := F)) 𝒱 (T d) Set.univ none _ _)
  iapply (Pipeline.RegionSeg.wp (pcfgs (F := F)) aP (pdats (fam d X) (fam d Wt) (fam d f)) (none : HIx 1) cellOf_inj (EP (F := F)) defs₀ 𝒱₀
    (K (F := F)).L (K (F := F)).lev (Rseg (fam d X) (fam d Wt) (fam d f)) d none (fun _ h => nomatch h) (fun _ => Prog.ret PUnit.unit) _)
  have hpost : (Rseg (fam d X) (fam d Wt) (fam d f)).post d
      = iprop((∃ W, ⌜(K (F := F)).WBelow (T d) W (8 * 1)⌝ ∗ owes (T d) (0 : CellTallies nD τ sig (HIx 1)) W)
          ∗ (oLoc d ↦{fullShare} X) ∗ (wLoc d ↦{fullShare} Wt) ∗ (rLoc d ↦{fullShare} regionOut X Wt)) := rfl
  have hpre : (Rseg (fam d X) (fam d Wt) (fam d f)).pre d
      = iprop((∃ W, ⌜(K (F := F)).WBelow (T d) W (8 * 1)⌝ ∗ owes (T d) (0 : CellTallies nD τ sig (HIx 1)) W)
          ∗ (oLoc d ↦{fullShare} X) ∗ (wLoc d ↦{fullShare} Wt) ∗ (rLoc d ↦{fullShare} f)) := rfl
  rw [hpost, hpre]
  isplitl [Hrest Hk]
  · iintro ⟨Hbd, Hpost⟩
    rw [wp_ret]
    imodintro
    icases Hpost with ⟨Ho, HX, HW, Hf⟩
    iapply Hk
    isplitl [Ho Hrest]
    · isplitl [Ho]; · iexact Ho
      iexact Hrest
    isplitl [Hbd]; · iexact Hbd
    isplitl [HX]; · iexact HX
    isplitl [HW]; · iexact HW
    iexact Hf
  isplitl [Hbd]; · iexact Hbd
  isplitl [Ho HX HW Hf]
  · isplitl [Ho]; · iexact Ho
    isplitl [HX]; · iexact HX
    isplitl [HW]; · iexact HW
    iexact Hf
  isplitr
  · iapply (SparseCore.Cfg.ctx_levAts (K := K (F := F)) (EH := EH) (P := P m I) κ); iexact Hctx
  iexact HG

end Cert.KSide

end
-- ==== Proof.KRun.lean ====
/-
  The idealized kernel's run, the parts put together: the arrays' split among the workers, the TensorCore
  region and the launch; one worker's task enters as a hypothesis of its stated form.
-/
import proofs.«207835_g56727928045975_cont_9to1_m_1027_16_alg».proof.Proof.Launch
import proofs.«207835_g56727928045975_cont_9to1_m_1027_16_alg».proof.Proof.Splits
import proofs.«207835_g56727928045975_cont_9to1_m_1027_16_alg».proof.Proof.Region

noncomputable section

namespace Cert.KSide

open Cert.KernelIdeal Cert.KernelIdeal.Gen
open Idealize.ShloMosaic
open Idealize.ShloMosaic.SparseCore.Cfg (HIx)
open Idealize.SL Idealize.SL.Sem

variable {F : FTy → Type} [FloatOps F] [∀ e, Nonempty (Elt F e)]
variable (m : (ℓ : Loc nD τ sig) → Buf (Elt F) ℓ) (ρ : Dev nD → PrngReg)

/-- Every weakly fair execution of the device's threads terminates with the arguments unchanged and the result at
    the kernel's function of them, given one worker's task. -/
theorem run (htile : TileBodyStmt m (Iof m)) :
    θ_run (Cert.KernelIdeal.defs (F := F)) (Cert.KernelIdeal.threads (F := F)) ⟨m, fun _ => 0, ρ⟩ (QC m) :=
  run_main m ρ (fun d => Gd (F := F) d) uP₀ fund_Gd htile (fun d fo => cores_split m (Iof m) d fo) (vecSplit m (Iof m))
    (fun κ d X Wt _ k Q => region_wp m (Iof m) κ d X Wt k Q)

end Cert.KSide

end
-- ==== Proof.SetupB.lean ====
/-
  The word-level kernel's program as the launch theorem reads it, and what each thread is handed.

  The gather kernel runs on 32 vector subcores, 16 on each of two SparseCores. Subcore `s` of SparseCore `c`
  is worker `2 s + c`: it reads rows `4 (2 s + c) … + 3` of the 128 × 128 index array (512 index words),
  gathers the 512 table rows they name into its own memory, 128 at a time, and writes them to rows
  `512 (2 s + c) …` of the 16384 × 128 output, again 128 at a time. So each worker is handed its four rows of
  the index array, a read share of the whole table, and its four 128-row pieces of the output; it hands
  back the same, the output pieces holding the gathered rows: entry `(i, k)` of the output is entry
  `(idx[i / 128, i % 128], k)` of the table.
-/
import proofs.«207835_g56727928045975_cont_9to1_m_1027_16_alg».proof.Defs
import proofs.«207835_g56727928045975_cont_9to1_m_1027_16_alg».proof.Proof.Gen.Kernel
import proofs.«207835_g56727928045975_cont_9to1_m_1027_16_alg».proof.Proof.Gen.Kernel.Skeleton
import proofs.«207835_g56727928045975_cont_9to1_m_1027_16_alg».proof.Proof.Gen.Kernel.Launch
import proofs.«207835_g56727928045975_cont_9to1_m_1027_16_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.Tactic
import Idealize.ShloMosaic.Lib.ValueIdx

noncomputable section

namespace Cert.KSideB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library: the left factor. -/
abbrev EH : Emb UH (MT nD τ sig (HIx 1) (Elt F) ℕ UU ℕ) := embL
/-- The TensorCore pipeline's rounds library: the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays -/

/-- The index array as the kernel reads it (128 × 128), the table, the gathered rows. -/
abbrev iLoc (d : Dev nD) : Loc nD τ sig := (SparseCore.T d).loc main_v1
abbrev tLoc (d : Dev nD) : Loc nD τ sig := (SparseCore.T d).loc main_arg1
abbrev oLoc (d : Dev nD) : Loc nD τ sig := (SparseCore.T d).loc main_v2

abbrev iV : Memref sig .scVector .hbm S128x128 .i32 := Memref.whole main_v1_scv
abbrev tV : Memref sig .scVector .hbm S100000x128 .f32 := Memref.whole main_arg1_scv
abbrev oV : Memref sig .scVector .hbm S16384x128 .f32 := Memref.whole main_v2_scv
/-- A worker's own memory: its 512 index words, its 512 gathered rows. -/
abbrev sI : Memref sig .scVector .vmem S4x128 .i32 := Memref.whole cc0_scratch0
abbrev sR : Memref sig .scVector .vmem S512x128 .f32 := Memref.whole cc0_scratch1

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Worker `L`'s four rows of the index array, as the kernel slices them. -/
abbrev idxM (L : grid0.Coords) : Memref sig .scVector .hbm S4x128 .i32 :=
  (iV : Memref sig .scVector .hbm S128x128 .i32).slice (Rect.unit (s := S128x128) (k0_off1 L) S4x128.size (k0_off1_inb L)) (fun _ => rfl)
/-- Worker `L`'s four 128-row pieces of the output, as the kernel slices them. -/
abbrev outM0 (L : grid0.Coords) : Memref sig .scVector .hbm S128x128 .f32 :=
  (oV : Memref sig .scVector .hbm S16384x128 .f32).slice (Rect.unit (s := S16384x128) (k0_off2 L 0#32) S128x128.size (k0_off2_inb L 0)) (fun _ => rfl)
abbrev outM1 (L : grid0.Coords) : Memref sig .scVector .hbm S128x128 .f32 :=
  (oV : Memref sig .scVector .hbm S16384x128 .f32).slice (Rect.unit (s := S16384x128) (k0_off2 L 128#32) S128x128.size (k0_off2_inb L 1)) (fun _ => rfl)
abbrev outM2 (L : grid0.Coords) : Memref sig .scVector .hbm S128x128 .f32 :=
  (oV : Memref sig .scVector .hbm S16384x128 .f32).slice (Rect.unit (s := S16384x128) (k0_off2 L 256#32) S128x128.size (k0_off2_inb L 2)) (fun _ => rfl)
abbrev outM3 (L : grid0.Coords) : Memref sig .scVector .hbm S128x128 .f32 :=
  (oV : Memref sig .scVector .hbm S16384x128 .f32).slice (Rect.unit (s := S16384x128) (k0_off2 L 384#32) S128x128.size (k0_off2_inb L 3)) (fun _ => rfl)

/-- The gathered rows as one function of the index array and the table: row `i` is the table's row
    `idx[i / 128, i % 128]` (the remainder only makes the function total). -/
def embF {α : Type} (I : S128x128.Idx → BitVec 32) (tab : S100000x128.Idx → α) : S16384x128.Idx → α :=
  fun j => tab (ix2 (⟨(I (ix2 (⟨(j 0).val / 128, by have : (j 0).val < 16384 := idx2_lt0 j; omega⟩ : Fin 128) (⟨(j 0).val % 128, Nat.mod_lt _ (by norm_num)⟩ : Fin 128))).toNat % 100000,
    Nat.mod_lt _ (by norm_num)⟩ : Fin 100000) (j 1))

/-- The table's read shares: SparseCore `c`'s of the whole, worker `s`'s of its SparseCore's. -/
abbrev qC (c : Fin 2) : PosShare TreeShare := shareTok fullShare 2 c
abbrev qT (c : Fin 2) (s : Fin 16) : PosShare TreeShare := shareTok (qC c) 16 s

/-! ## What the handshakes carry -/

theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

variable (m : (ℓ : Loc nD τ sig) → Buf (Elt F) ℓ) (I : (d : Dev nD) → Buf (Elt F) (iLoc d))

/-- Worker `L`'s rows of the index array, at the contents `I d` the kernel finds there. -/
abbrev idxPts (d : Dev nD) (L : grid0.Coords) : sProp 𝕄 := iLoc d ↦[(idxM L).view.set]{fullShare} I d
/-- Worker `L`'s read share of the table, at its launch contents. -/
abbrev tabPts (d : Dev nD) (L : grid0.Coords) : sProp 𝕄 := tLoc d ↦{qT (cL L) (sL L)} m (tLoc d)
/-- Worker `L`'s four pieces of the output, at the contents `fo`. -/
abbrev outPts (d : Dev nD) (L : grid0.Coords) (fo : Buf (Elt F) (oLoc d)) : sProp 𝕄 :=
  iprop((oLoc d ↦[(outM0 L).view.set]{fullShare} fo) ∗ (oLoc d ↦[(outM1 L).view.set]{fullShare} fo)
    ∗ (oLoc d ↦[(outM2 L).view.set]{fullShare} fo) ∗ (oLoc d ↦[(outM3 L).view.set]{fullShare} fo))

/-- What worker `L` is handed (the output at `fo := m (oLoc d)`) and hands back (at `fo := gathered d`). -/
abbrev tileRes (d : Dev nD) (L : grid0.Coords) (fo : Buf (Elt F) (oLoc d)) : sProp 𝕄 :=
  iprop(idxPts I d L ∗ tabPts m d L ∗ outPts d L fo)

/-- The gathered rows on device `d`, as contents of the output array. -/
abbrev gathered (d : Dev nD) : Buf (Elt F) (oLoc d) := embF (I d) (m (tLoc d))

abbrev Lq (c : Fin ((K (F := F)).nCore 0)) (i : Fin ((K (F := F)).nSub 0)) : grid0.Coords :=
  coordsV (Fin.cast (nCore_zero (F := F)) c) (Fin.cast (nSub_zero (F := F)) i)

/-- What a SparseCore is handed: every worker's rows of the index array and pieces of the output, and the
    SparseCore's read share of the table (of which each worker gets a share, the rest staying with the sequencer). -/
abbrev coreRes (d : Dev nD) (c : Fin ((K (F := F)).nCore 0)) (fo : Buf (Elt F) (oLoc d)) : sProp 𝕄 :=
  iprop((bigSep Finset.univ fun i : Fin ((K (F := F)).nSub 0) => iprop(idxPts I d (Lq c i) ∗ outPts d (Lq c i) fo))
    ∗ tLoc d ↦{qC (Fin.cast (nCore_zero (F := F)) c)} m (tLoc d))

def P : (K (F := F)).Pay (nD := nD) (Val := Elt F) (Name := ℕ) (U := UU) where
  st := fun q d c => match q with | 0 => coreRes m I d c (m (oLoc d))
  dn := fun q d c => match q with | 0 => coreRes m I d c (gathered m I d)
  go := fun q d c i => match q with | 0 => tileRes m I d (Lq c i) (m (oLoc d))
  td := fun q d c i => match q with | 0 => tileRes m I d (Lq c i) (gathered m I d)
  x := fun _ _ => iprop(emp)

instance P_storable : (P (F := F) m I).IsStorable where
  st q d c := match q with | 0 => (inferInstance : BI.Storable (upEmb : UEmb _ 𝕄) (coreRes m I d c (m (oLoc d))))
  dn q d c := match q with | 0 => (inferInstance : BI.Storable (upEmb : UEmb _ 𝕄) (coreRes m I d c (gathered m I d)))
  go q d c i := match q with | 0 => (inferInstance : BI.Storable (upEmb : UEmb _ 𝕄) (tileRes m I d (Lq c i) (m (oLoc d))))
  td q d c i := match q with | 0 => (inferInstance : BI.Storable (upEmb : UEmb _ 𝕄) (tileRes m I d (Lq c i) (gathered m I d)))

/-! ## The TensorCore's part: the transposed weights, the result before its transposition -/

abbrev wLoc (d : Dev nD) : Loc nD τ sig := (SparseCore.T d).loc main_v3
abbrev rLoc (d : Dev nD) : Loc nD τ sig := (SparseCore.T d).loc main_v4

/-- Block `t` (8192 rows) of the gathered rows. -/
def blockOf [FloatOps F] (X : S16384x128.Idx → Elt F .f32) (t : Fin 2) : Vec F S8192x128 .f32 :=
  fun y => X (ix2 (⟨t.val * 8192 + (y 0).val, by have : (y 0).val < 8192 := idx2_lt0 y; have := t.isLt; omega⟩ : Fin 16384) (y 1))

/-- What the TensorCore region leaves in its result array: column `i` belongs to block `i / 8192`, where it is column
    `i % 8192` of the body's stored value on that block of the gathered rows and the transposed weights. -/
def regionOut [FloatOps F] (X : S16384x128.Idx → Elt F .f32) (Wt : Vec F S64x128 .f32) : S64x16384.Idx → Elt F .f32 :=
  fun j => k1_pay1 (blockOf X (⟨(j 1).val / 8192, by have : (j 1).val < 16384 := idx2_lt1 j; omega⟩ : Fin 2)) Wt
    (ix2 (j 0) (⟨(j 1).val % 8192, Nat.mod_lt _ (by norm_num)⟩ : Fin 8192))

end Cert.KSideB

end
-- ==== Proof.KDefsB.lean ====
/-
  The word-level kernel's result as one function of its three arguments: the index array re-laid as 128 × 128,
  the table's rows gathered at it, the TensorCore region's result on the gathered rows and the transposed
  weights, transposed back.
-/
import proofs.«207835_g56727928045975_cont_9to1_m_1027_16_alg».proof.Proof.SetupB

noncomputable section

namespace Cert.KSideB

open Cert.Kernel Cert.Kernel.Gen
open Idealize.ShloMosaic

variable {F : FTy → Type} [FloatOps F]

/-- The index array as the kernel reads it: 16384 × 1 re-laid as 128 × 128, row-major. -/
def idx2 (a0 : IVec S16384x1 32) : IVec S128x128 32 :=
  shapeCast S128x128 (shapeCast S16384 a0 Facts₀.shapeCasts_S16384x1_S16384) Facts₀.shapeCasts_S16384_S128x128

/-- The weights transposed, as the TensorCore region reads them. -/
def wT (a2 : FVec F S128x64 .f32) : FVec F S64x128 .f32 :=
  transpose S64x128 [1, 0] a2 Facts₀.transposes_S128x64_S64x128_1_0

/-- The kernel's result. -/
def kerOut (a0 : IVec S16384x1 32) (a1 : FVec F S100000x128 .f32) (a2 : FVec F S128x64 .f32) : FVec F S16384x64 .f32 :=
  transpose S16384x64 [1, 0] (regionOut (embF (idx2 a0) a1) (wT a2)) Facts₀.transposes_S64x16384_S16384x64_1_0

end Cert.KSideB

end
-- ==== Proof.LaunchB.lean ====
/-
  The launch of the word-level kernel's program: from the proof of one worker's task, of how the arrays split
  among the workers, and of the TensorCore region, every weakly fair execution of all the device's threads
  terminates with the arguments unchanged and the result array holding the kernel's function of them.
-/
import proofs.«207835_g56727928045975_cont_9to1_m_1027_16_alg».proof.Proof.KDefsB

noncomputable section

namespace Cert.KSideB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable [FloatOps F]
variable (m : (ℓ : Loc nD τ sig) → Buf (Elt F) ℓ) (ρ : Dev nD → PrngReg) (I : (d : Dev nD) → Buf (Elt F) (iLoc d))

/-! ## What the parts prove, as statements -/

/-- One worker's task, at any place. -/
def TileBodyStmt : Prop :=
  ∀ (d : Dev nD) (L : grid0.Coords) (O : CellTallies nD τ sig (HIx 1)) (W : Waits sig (HIx 1)), (∀ g, O g none = 0) →
    iprop(levAts (K (F := F)).L (K (F := F)).lev ∗ emp ∗ tileRes m I d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scoped0)
          fun _ => iprop(tileRes m I d L (gathered m I d) ∗ scopedBufs (V d (cV L) (jV L)) ∗ scopedSems0 (V d (cV L) (jV L))
            ∗ ∃ W', ⌜∀ p ∈ W', p ∈ W ∨ p.2 = none⌝ ∗ owes (V d (cV L) (jV L)) O W')

/-! ## The launch theorem's obligation for the workers -/

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) tV (Memref.isWhole_whole _) oV (Memref.isWhole_whole _)
          sI (Memref.isWhole_whole _) sR (Memref.isWhole_whole _) cc0_scratch2 cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (htile : TileBodyStmt m I) : (K (F := F)).TileObl (D (F := F)) 𝒱 (P m I) v₀ 0 := by
  intro d c i O W hO _ _
  simp only [show (P m I).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## The launch element -/

def u₀ (uP₀ : UP) : UU := (initOf (K (F := F)).hsCells (K (F := F)).hsToks, (uP₀, 1))

omit [FloatOps F] in
theorem bigSep_emp' {J : Type} (s : Finset J) : (bigSep s fun _ => iprop(emp)) = (iprop(emp) : sProp 𝕄) := bigSep_emp_const s

theorem launchElem (Gd : Dev nD → sProp 𝕄) (uP₀ : UP) (hfund : (BI.own (EP (F := F) uP₀) : sProp 𝕄) ⊢ |==> bigSep Finset.univ Gd) :
    (ownU (u₀ (F := F) uP₀) : sProp 𝕄)
    ⊢ |={Set.univ}=> iprop(BI.own (EH (initOf (K (F := F)).hsCells (K (F := F)).hsToks)) ∗ (bigSep Finset.univ Gd)
        ∗ bigSep Finset.univ fun thr : Thread nD τ => bigSep Finset.univ fun q : Fin 1 => (P m I).x q thr) := by
  unfold u₀
  unfold EP at hfund
  iintro Hu
  ihave H := (ownU_pair _ _) $$ Hu
  icases H with ⟨HH, HR⟩
  ihave H2 := (own_pair_emb (embR (A := UH) (B := UP × Counters)) uP₀ (1 : Counters)) $$ HR
  icases H2 with ⟨HP, -⟩
  imod hfund $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- How the three arrays of the SparseCore call split among the SparseCores and join again. -/
def SplitStmt : Prop :=
  ∀ (d : Dev nD) (fo : Buf (Elt F) (oLoc d)),
    (iprop((iLoc d ↦{fullShare} I d) ∗ (oLoc d ↦{fullShare} fo) ∗ (tLoc d ↦{fullShare} m (tLoc d))) : sProp 𝕄)
      ⊣⊢ iprop((bigSep Finset.univ fun c : Fin ((K (F := F)).nCore 0) => coreRes m I d c fo) ∗ (tLoc d ↦{shareDrop fullShare 2} m (tLoc d)))

/-- The TensorCore region, entered from the gathered rows and the transposed weights. -/
def RegionStmt (G : Dev nD → sProp 𝕄) : Prop :=
  ∀ (κ : GSem nD τ sig → ℕ) (d : Dev nD) (X : Buf (Elt F) (oLoc d)) (Wt : Buf (Elt F) (wLoc d)) {α : Type}
    (k : PUnit → Prog (TpuEff nD τ sig (Elt F) (SparseCore.Sig (ΛP (F := F)) 1) .tc) α) (Q : α → sProp 𝕄),
    iprop((K (F := F)).ctx EH (P m I) κ ∗ (K (F := F)).tcSt EH d 1 ∗ boundary (SparseCore.T d) ∗ G d
        ∗ (oLoc d ↦{fullShare} X) ∗ (wLoc d ↦{fullShare} Wt) ∗ (∃ f, rLoc d ↦{fullShare} f)
        ∗ (iprop((K (F := F)).tcSt EH d 1 ∗ boundary (SparseCore.T d) ∗ (oLoc d ↦{fullShare} X) ∗ (wLoc d ↦{fullShare} Wt) ∗ (rLoc d ↦{fullShare} regionOut X Wt))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

abbrev a0Loc (d : Dev nD) : Loc nD τ sig := (SparseCore.T d).loc main_arg0
abbrev a2Loc (d : Dev nD) : Loc nD τ sig := (SparseCore.T d).loc main_arg2
abbrev v0Loc (d : Dev nD) : Loc nD τ sig := (SparseCore.T d).loc main_v0
abbrev v5Loc (d : Dev nD) : Loc nD τ sig := (SparseCore.T d).loc main_v5

abbrev opR1 : HloOp τ sig (Elt F) := StableHlo.reshape main_arg0 main_v0 rfl Facts₀.shapeCasts_S16384x1_S16384
abbrev opR2 : HloOp τ sig (Elt F) := StableHlo.reshape main_v0 main_v1 rfl Facts₀.shapeCasts_S16384_S128x128
abbrev opT3 : HloOp τ sig (Elt F) := StableHlo.unary main_arg2 main_v3 ((transpose S64x128 [1, 0] · Facts₀.transposes_S128x64_S64x128_1_0) : (⟨S128x64, .f32⟩ : BufTy).Contents (Elt F) → (⟨S64x128, .f32⟩ : BufTy).Contents (Elt F))
abbrev opT5 : HloOp τ sig (Elt F) := StableHlo.unary main_v4 main_v5 ((transpose S16384x64 [1, 0] · Facts₀.transposes_S64x16384_S16384x64_1_0) : (⟨S64x16384, .f32⟩ : BufTy).Contents (Elt F) → (⟨S16384x64, .f32⟩ : BufTy).Contents (Elt F))

/-- The launch valuation of device `d`. -/
def V0 (d : Dev nD) : Valuation τ sig (Elt F) := fun b => m (d, b)

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (tLoc d ↦{fullShare} W main_arg1) ∗ (a2Loc d ↦{fullShare} W main_arg2)
      ∗ (v0Loc d ↦{fullShare} W main_v0) ∗ (iLoc d ↦{fullShare} W main_v1) ∗ (oLoc d ↦{fullShare} W main_v2)
      ∗ (wLoc d ↦{fullShare} W main_v3) ∗ (rLoc d ↦{fullShare} W main_v4) ∗ (v5Loc d ↦{fullShare} W main_v5)) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
theorem held_pair (d : Dev nD) (x y : DevRef τ sig) (hxy : x ≠ y) (W : Valuation τ sig (Elt F)) :
    (held (SparseCore.T d) {x, y} W : sProp 𝕄) = iprop(((d, x) ↦{fullShare} W x) ∗ ((d, y) ↦{fullShare} W y)) := by
  unfold held
  rw [SparseCore.bigSep_insert' (by simpa using hxy), bigSep_singleton]

/-- The index array as the kernel finds it: the argument re-laid 128 × 128. -/
def Iof (d : Dev nD) : Buf (Elt F) (iLoc d) := idx2 (m (a0Loc d))

/-- What @main leaves the claim: the arguments at their launch contents, the result at the kernel's function of them. -/
abbrev FIN (d : Dev nD) : sProp 𝕄 :=
  iprop((a0Loc d ↦{fullShare} m (a0Loc d)) ∗ (tLoc d ↦{fullShare} m (tLoc d)) ∗ (a2Loc d ↦{fullShare} m (a2Loc d))
    ∗ (v5Loc d ↦{fullShare} kerOut (m (a0Loc d)) (m (tLoc d)) (m (a2Loc d))))

/-- The valuations @main passes through: after the first reshape, after the second. -/
def VB (d : Dev nD) : Valuation τ sig (Elt F) := (opR1 (F := F)).result (V0 m d)
def VC (d : Dev nD) : Valuation τ sig (Elt F) := (opR2 (F := F)).result (VB m d)

theorem VB_a0 (d : Dev nD) : VB m d a0' = m (a0Loc d) := (opR1 (F := F)).result_of_not_mem (V0 m d) (b := a0') (show a0' ∉ ({v0'} : Finset (DevRef τ sig)) by decide)
theorem VB_v1 (d : Dev nD) : VB m d v1' = m (iLoc d) := (opR1 (F := F)).result_of_not_mem (V0 m d) (b := v1') (show v1' ∉ ({v0'} : Finset (DevRef τ sig)) by decide)
theorem VC_v1 (d : Dev nD) : VC m d v1' = Iof m d := by
  unfold VC VB
  rw [StableHlo.reshape_result, StableHlo.reshape_result]
  rfl

theorem hR1 : (opR1 (F := F)).bufs ⊆ {a0', v0'} := show ({a0', v0'} : Finset (DevRef τ sig)) ⊆ {a0', v0'} from Finset.Subset.refl _
theorem hR2 : (opR2 (F := F)).bufs ⊆ {v0', v1'} := show ({v0', v1'} : Finset (DevRef τ sig)) ⊆ {v0', v1'} from Finset.Subset.refl _
theorem hT3 : (opT3 (F := F)).bufs ⊆ {a2', v3'} := show ({a2', v3'} : Finset (DevRef τ sig)) ⊆ {a2', v3'} from Finset.Subset.refl _
theorem hT5 : (opT5 (F := F)).bufs ⊆ {v4', v5'} := show ({v4', v5'} : Finset (DevRef τ sig)) ⊆ {v4', v5'} from Finset.Subset.refl _

theorem hmain (G : Dev nD → sProp 𝕄) (hsplit : SplitStmt m (Iof m)) (hregion : RegionStmt m (Iof m) G) (κ : GSem nD τ sig → ℕ) (d : Dev nD) :
    iprop((K (F := F)).ctx EH (P m (Iof m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Ha1, Ha2, Hv0, Hv1, Hv2, Hv3, Hv4, Hv5⟩, -, -⟩, HG⟩
  -- the first reshape
  iapply (wp_hlo_within 𝒱 (SparseCore.T d) none Set.univ (op := opR1) (S := {a0', v0'}) hR1 (V := V0 m d)) $$ [Hb Ha0 Hv0]
  · isplitl [Hb]; · iexact Hb
    rw [held_pair d a0' v0' (by decide)]
    isplitl [Ha0]; · iexact Ha0
    iexact Hv0
  iintro ⟨Hb, Hheld⟩
  ihave Hh := (Entails.of_eq (held_pair (F := F) d a0' v0' (by decide) _)) $$ Hheld
  icases Hh with ⟨Ha0, Hv0⟩
  rw [wp_ret]; imodintro
  -- the second reshape
  iapply (wp_hlo_within 𝒱 (SparseCore.T d) none Set.univ (op := opR2) (S := {v0', v1'}) hR2 (V := VB m d)) $$ [Hb Hv0 Hv1]
  · isplitl [Hb]; · iexact Hb
    rw [held_pair d v0' v1' (by decide), VB_v1]
    isplitl [Hv0]; · iexact Hv0
    iexact Hv1
  iintro ⟨Hb, Hheld⟩
  ihave Hh := (Entails.of_eq (held_pair (F := F) d v0' v1' (by decide) _)) $$ Hheld
  icases Hh with ⟨Hv0, Hv1⟩
  rw [wp_ret]; imodintro
  rw [show (opR2 (F := F)).result (VB m d) v1' = Iof m d from VC_v1 m d]
  -- the SparseCore call: the three arrays split among the SparseCores, and joined again
  ihave Hs := (hsplit d (m (oLoc d))).1 $$ [Hv1 Hv2 Ha1]
  · isplitl [Hv1]; · iexact Hv1
    isplitl [Hv2]; · iexact Hv2
    iexact Ha1
  icases Hs with ⟨Hcores, Hrem⟩
  iapply ((K (F := F)).wp_run (D (F := F)) 𝒱 (EH := EH) (P := P m (Iof m)) κ d 0) $$ [Hst Hcores Hrem Hb Ha0 Ha2 Hv0 Hv3 Hv4 Hv5 HG]
  isplitr; · iexact Hctx
  isplitl [Hst]; · iexact Hst
  isplitl [Hcores]; · iexact Hcores
  iintro ⟨Hst, Hdn⟩
  ihave Hj := (hsplit d (gathered m (Iof m) d)).2 $$ [Hdn Hrem]
  · isplitl [Hdn]; · iexact Hdn
    iexact Hrem
  icases Hj with ⟨Hv1, Hv2, Ha1⟩
  -- the weights transposed
  iapply (wp_hlo_within 𝒱 (SparseCore.T d) none Set.univ (op := opT3) (S := {a2', v3'}) hT3 (V := V0 m d)) $$ [Hb Ha2 Hv3]
  · isplitl [Hb]; · iexact Hb
    rw [held_pair d a2' v3' (by decide)]
    isplitl [Ha2]; · iexact Ha2
    iexact Hv3
  iintro ⟨Hb, Hheld⟩
  ihave Hh := (Entails.of_eq (held_pair (F := F) d a2' v3' (by decide) _)) $$ Hheld
  icases Hh with ⟨Ha2, Hv3⟩
  rw [wp_ret]; imodintro
  rw [show (opT3 (F := F)).result (V0 m d) v3' = wT (m (a2Loc d)) from StableHlo.unary_result _ _ _ _ _ _,
    show (opT3 (F := F)).result (V0 m d) a2' = m (a2Loc d) from (opT3 (F := F)).result_of_not_mem (V0 m d) (b := a2') (show a2' ∉ ({v3'} : Finset (DevRef τ sig)) by decide)]
  -- the TensorCore region
  simp only [Prog.lift]
  iapply (hregion κ d (gathered m (Iof m) d) (wT (m (a2Loc d))) _ _) $$ [Hst Hb HG Hv2 Hv3 Hv4 Ha0 Ha1 Ha2 Hv0 Hv1 Hv5]
  isplitr; · iexact Hctx
  isplitl [Hst]; · iexact Hst
  isplitl [Hb]; · iexact Hb
  isplitl [HG]; · iexact HG
  isplitl [Hv2]; · iexact Hv2
  isplitl [Hv3]; · iexact Hv3
  isplitl [Hv4]; · iexists _; iexact Hv4
  iintro ⟨Hst, Hb, Hv2, Hv3, Hv4⟩
  rw [wp_ret]; imodintro
  -- the result transposed back
  iapply (wp_hlo_within 𝒱 (SparseCore.T d) none Set.univ (op := opT5) (S := {v4', v5'}) hT5
      (V := Function.update (V0 m d) v4' (regionOut (gathered m (Iof m) d) (wT (m (a2Loc d)))))) $$ [Hb Hv4 Hv5]
  · isplitl [Hb]; · iexact Hb
    rw [held_pair d v4' v5' (by decide), Function.update_self, Function.update_of_ne (show v5' ≠ v4' by decide)]
    isplitl [Hv4]; · iexact Hv4
    iexact Hv5
  iintro ⟨Hb, Hheld⟩
  ihave Hh := (Entails.of_eq (held_pair (F := F) d v4' v5' (by decide) _)) $$ Hheld
  icases Hh with ⟨Hv4, Hv5⟩
  rw [wp_ret]; imodintro; imodintro
  rw [show (opT5 (F := F)).result (Function.update (V0 m d) v4' (regionOut (gathered m (Iof m) d) (wT (m (a2Loc d))))) v5'
        = kerOut (m (a0Loc d)) (m (tLoc d)) (m (a2Loc d)) from by
      rw [StableHlo.unary_result, Function.update_self]; rfl,
    show (opR1 (F := F)).result (V0 m d) a0' = m (a0Loc d) from VB_a0 m d]
  isplitl [Hst]; · iexact Hst
  isplitl [Ha0]; · iexact Ha0
  isplitl [Ha1]; · iexact Ha1
  isplitl [Ha2]; · iexact Ha2
  iexact Hv5

/-! ## The final assertion read off the final memory -/

def fq (d : Dev nD) (s' : Phys nD τ sig (Elt F)) : Prop :=
  s'.mem.mem (v5Loc d) = kerOut (m (a0Loc d)) (m (tLoc d)) (m (a2Loc d))
    ∧ s'.mem.mem (a0Loc d) = m (a0Loc d) ∧ s'.mem.mem (tLoc d) = m (tLoc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Ha0, Ha1, Ha2, Hv5⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := tLoc d) (I := Finset.univ) (q := fullShare) (f := m (tLoc d)))) $$ [HSI Ha1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := v5Loc d) (I := Finset.univ) (q := fullShare) (f := kerOut (m (a0Loc d)) (m (tLoc d)) (m (a2Loc d)))) $$ [HSI Hv5]
  · isplitl [HSI] <;> iassumption
  icases H with %h5
  ipureintro
  exact ⟨funext fun i => h5 i (Finset.mem_univ i), funext fun i => h0 i (Finset.mem_univ i), funext fun i => h1 i (Finset.mem_univ i),
    funext fun i => h2 i (Finset.mem_univ i)⟩

/-! ## The program's run -/

/-- The result at the kernel's function of the arguments, the arguments unchanged. -/
def QC : PUnit × MemSt nD τ sig (Elt F) → Prop := fun r => ∀ c : Dev nD,
  r.2.mem (v5Loc c) = kerOut (m (a0Loc c)) (m (tLoc c)) (m (a2Loc c))
    ∧ r.2.mem (a0Loc c) = m (a0Loc c) ∧ r.2.mem (tLoc c) = m (tLoc c) ∧ r.2.mem (a2Loc c) = m (a2Loc c)

theorem run_main [∀ e, Nonempty (Elt F e)] (G : Dev nD → sProp 𝕄) (uP : UP)
    (hfund : (BI.own (EP (F := F) uP) : sProp 𝕄) ⊢ |==> bigSep Finset.univ G)
    (htile : TileBodyStmt m (Iof m)) (hsplit : SplitStmt m (Iof m)) (hvec : (K (F := F)).VecSplit' (P m (Iof m)) 0)
    (hregion : RegionStmt m (Iof m) G) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Iof m)) facts v₀
    (fun q hq => match q with | 0 => nomatch hq)
    (fun q _ => match q with | 0 => tileObl m (Iof m) htile)
    (fun q _ => match q with | 0 => SparseCore.Cfg.VecSplit.of_plain hvec)
    m ρ main G (FIN m) (u₀ (F := F) uP) (sep_elim_left.trans (launchElem m (Iof m) G uP hfund)) (hmain m ρ G hsplit hregion) (fq m) (hfin m) (QC m) (fun _ h => h)

end Cert.KSideB

end
-- ==== Proof.SplitsB.lean ====
/-
  How the whole arrays split among the 32 workers and join again.

  Worker `(c, s)` (SparseCore `c < 2`, subcore `s < 16`) reads rows `8 s + 4 c … + 3` of the 128 × 128 index array:
  part `2 s + c` of its cut into 32 parts of 4 rows. Its `r`-th piece of the 16384 × 128 output (`r < 4`) is rows
  `1024 s + 512 c + 128 r … + 127`: part `8 s + 4 c + r` of the cut into 128 parts of 128 rows. The maps
  `(c, s) ↦ 2 s + c` and `(c, s, r) ↦ 8 s + 4 c + r` are bijections onto the part numbers, so the workers' rows are
  pairwise disjoint and cover each array. The table is not cut: it is held whole at read shares, one per SparseCore
  out of the full share, one per worker out of its SparseCore's, with a remainder at each level.
-/
import proofs.«207835_g56727928045975_cont_9to1_m_1027_16_alg».proof.Proof.SetupB

noncomputable section

namespace Cert.KSideB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx

variable {F : FTy → Type}

local notation "𝕄" => MT nD τ sig (HIx 1) (Elt F) ℕ UU ℕ

/-! ## The part numbers -/

theorem hdivI : 32 ∣ S128x128.size 0 := ⟨4, rfl⟩
theorem hdivO : 128 ∣ S16384x128.size 0 := ⟨128, rfl⟩

/-- Part `p` of the index array cut into 32 parts of 4 rows. -/
abbrev iRow (p : Fin 32) : Rect S128x128 := Rect.part (s := S128x128) (a₀ := 0) hdivI p
/-- Part `p` of the output cut into 128 parts of 128 rows. -/
abbrev oRow (p : Fin 128) : Rect S16384x128 := Rect.part (s := S16384x128) (a₀ := 0) hdivO p

/-- The part of the index array worker `(c, s)` reads. -/
def pI (c : Fin 2) (s : Fin 16) : Fin 32 := ⟨2 * s.val + c.val, by omega⟩
/-- The part of the output that is worker `(c, s)`'s piece `r`. -/
def pO (c : Fin 2) (s : Fin 16) (r : Fin 4) : Fin 128 := ⟨8 * s.val + 4 * c.val + r.val, by omega⟩

/-- `(c, s) ↦ 2 s + c` is a bijection onto the 32 parts. -/
def eI : Fin 2 × Fin 16 ≃ Fin 32 where
  toFun x := pI x.1 x.2
  invFun p := (⟨p.val % 2, Nat.mod_lt _ (by norm_num)⟩, ⟨p.val / 2, by have := p.isLt; omega⟩)
  left_inv x := by
    obtain ⟨c, s⟩ := x
    refine Prod.ext (Fin.ext ?_) (Fin.ext ?_)
    · show (2 * s.val + c.val) % 2 = c.val; omega
    · show (2 * s.val + c.val) / 2 = s.val; omega
  right_inv p := by
    refine Fin.ext ?_
    show 2 * (p.val / 2) + p.val % 2 = p.val; omega

/-- `(c, s, r) ↦ 8 s + 4 c + r` is a bijection onto the 128 parts. -/
def eO : Fin 2 × (Fin 16 × Fin 4) ≃ Fin 128 where
  toFun x := pO x.1 x.2.1 x.2.2
  invFun p := (⟨p.val / 4 % 2, Nat.mod_lt _ (by norm_num)⟩, ⟨p.val / 8, by have := p.isLt; omega⟩, ⟨p.val % 4, Nat.mod_lt _ (by norm_num)⟩)
  left_inv x := by
    obtain ⟨c, s, r⟩ := x
    refine Prod.ext (Fin.ext ?_) (Prod.ext (Fin.ext ?_) (Fin.ext ?_))
    · show (8 * s.val + 4 * c.val + r.val) / 4 % 2 = c.val; omega
    · show (8 * s.val + 4 * c.val + r.val) / 8 = s.val; omega
    · show (8 * s.val + 4 * c.val + r.val) % 4 = r.val; omega
  right_inv p := by
    refine Fin.ext ?_
    show 8 * (p.val / 8) + 4 * (p.val / 4 % 2) + p.val % 4 = p.val; omega

/-! ## A worker's rectangles are those parts -/

theorem rectI_eq (L : grid0.Coords) :
    Rect.unit (s := S128x128) (k0_off1 L) S4x128.size (k0_off1_inb L) = iRow (pI (cL L) (sL L)) := by
  unfold iRow Rect.part Rect.block
  congr 1 <;> funext a
  · rw [k0_off1_eq]
    match a with
    | 0 => simp [Shape.partIx, Shape.partSize, pI]; omega
    | 1 => simp [Shape.partIx, Shape.partSize]
  · match a with
    | 0 => simp [Shape.partSize]
    | 1 => simp [Shape.partSize]

theorem rectO_eq (L : grid0.Coords) (r : Fin 4) :
    Rect.unit (s := S16384x128) (k0_off2 L (BitVec.ofNat 32 (128 * r.val))) S128x128.size (k0_off2_inb L r)
      = oRow (pO (cL L) (sL L) r) := by
  unfold oRow Rect.part Rect.block
  congr 1 <;> funext a
  · rw [k0_off2_eq]
    match a with
    | 0 => simp [Shape.partIx, Shape.partSize, pO]; omega
    | 1 => simp [Shape.partIx, Shape.partSize]
  · match a with
    | 0 => simp [Shape.partSize]
    | 1 => simp [Shape.partSize]

/-- The rows worker `(c, s)` reads of the index array, its piece `r` of the output. -/
abbrev iSet (c : Fin 2) (s : Fin 16) : Finset S128x128.Idx := (iRow (pI c s)).set
abbrev oSet (c : Fin 2) (s : Fin 16) (r : Fin 4) : Finset S16384x128.Idx := (oRow (pO c s r)).set

theorem set_idxM (L : grid0.Coords) : (idxM L).view.set = iSet (cL L) (sL L) := by
  show ((View.whole (main_v1_scv : Ref sig .scVector)).slice (Rect.unit (s := S128x128) (k0_off1 L) S4x128.size (k0_off1_inb L))).set = _
  rw [View.set_slice, rectI_eq]; exact Finset.map_refl

theorem set_outM (L : grid0.Coords) (r : Fin 4) :
    ((oV : Memref sig .scVector .hbm S16384x128 .f32).slice
      (Rect.unit (s := S16384x128) (k0_off2 L (BitVec.ofNat 32 (128 * r.val))) S128x128.size (k0_off2_inb L r)) (fun _ => rfl)).view.set
      = oSet (cL L) (sL L) r := by
  show ((View.whole (main_v2_scv : Ref sig .scVector)).slice
    (Rect.unit (s := S16384x128) (k0_off2 L (BitVec.ofNat 32 (128 * r.val))) S128x128.size (k0_off2_inb L r))).set = _
  rw [View.set_slice, rectO_eq]; exact Finset.map_refl

theorem set_outM0 (L : grid0.Coords) : (outM0 L).view.set = oSet (cL L) (sL L) 0 := set_outM L 0
theorem set_outM1 (L : grid0.Coords) : (outM1 L).view.set = oSet (cL L) (sL L) 1 := set_outM L 1
theorem set_outM2 (L : grid0.Coords) : (outM2 L).view.set = oSet (cL L) (sL L) 2 := set_outM L 2
theorem set_outM3 (L : grid0.Coords) : (outM3 L).view.set = oSet (cL L) (sL L) 3 := set_outM L 3

/-! ## The arrays as the workers' parts -/

theorem iRows_disjoint : ∀ p ∈ (Finset.univ : Finset (Fin 32)), ∀ p' ∈ (Finset.univ : Finset (Fin 32)), p ≠ p' →
    Disjoint (iRow p).set (iRow p').set := fun _ _ _ _ h => Rect.part_disjoint hdivI h
theorem iRows_cover : (Finset.univ : Finset (Fin 32)).biUnion (fun p => (iRow p).set) = Finset.univ := Rect.biUnion_part hdivI
theorem oRows_disjoint : ∀ p ∈ (Finset.univ : Finset (Fin 128)), ∀ p' ∈ (Finset.univ : Finset (Fin 128)), p ≠ p' →
    Disjoint (oRow p).set (oRow p').set := fun _ _ _ _ h => Rect.part_disjoint hdivO h
theorem oRows_cover : (Finset.univ : Finset (Fin 128)).biUnion (fun p => (oRow p).set) = Finset.univ := Rect.biUnion_part hdivO

/-- A `bigSep` over four summands. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

variable (m : (ℓ : Loc nD τ sig) → Buf (Elt F) ℓ) (I : (d : Dev nD) → Buf (Elt F) (iLoc d))

/-- Worker `(c, s)`'s four pieces of the output, over the part numbers. -/
abbrev out4 (d : Dev nD) (c : Fin 2) (s : Fin 16) (fo : Buf (Elt F) (oLoc d)) : sProp 𝕄 :=
  iprop((oLoc d ↦[oSet c s 0]{fullShare} fo) ∗ (oLoc d ↦[oSet c s 1]{fullShare} fo)
    ∗ (oLoc d ↦[oSet c s 2]{fullShare} fo) ∗ (oLoc d ↦[oSet c s 3]{fullShare} fo))

/-- The index array is the workers' rows of it. -/
theorem iPts_parts (d : Dev nD) (f : Buf (Elt F) (iLoc d)) :
    (iLoc d ↦{fullShare} f : sProp 𝕄)
      = bigSep Finset.univ fun c : Fin 2 => bigSep Finset.univ fun s : Fin 16 => iLoc d ↦[iSet c s]{fullShare} f := by
  have h1 : (iLoc d ↦{fullShare} f : sProp 𝕄) = bigSep Finset.univ fun p : Fin 32 => iLoc d ↦[(iRow p).set]{fullShare} f := by
    rw [← pointsTo_biUnion Finset.univ (ℓ := iLoc d) (fun p : Fin 32 => (iRow p).set) iRows_disjoint, iRows_cover]; try rfl
  rw [h1, bigSep_univ_equiv eI, bigSep_univ_prod]
  rfl

/-- The output is the workers' pieces of it. -/
theorem oPts_parts (d : Dev nD) (f : Buf (Elt F) (oLoc d)) :
    (oLoc d ↦{fullShare} f : sProp 𝕄)
      = bigSep Finset.univ fun c : Fin 2 => bigSep Finset.univ fun s : Fin 16 => out4 d c s f := by
  have h1 : (oLoc d ↦{fullShare} f : sProp 𝕄) = bigSep Finset.univ fun p : Fin 128 => oLoc d ↦[(oRow p).set]{fullShare} f := by
    rw [← pointsTo_biUnion Finset.univ (ℓ := oLoc d) (fun p : Fin 128 => (oRow p).set) oRows_disjoint, oRows_cover]; try rfl
  rw [h1, bigSep_univ_equiv eO, bigSep_univ_prod]
  refine bigSep_congr fun c _ => ?_
  rw [bigSep_univ_prod]
  refine bigSep_congr fun s _ => ?_
  rw [bigSep_fin_four]
  rfl

/-- The table's full share is the SparseCores' read shares and a remainder. -/
theorem tPts_cores (d : Dev nD) (f : Buf (Elt F) (tLoc d)) :
    (tLoc d ↦{fullShare} f : sProp 𝕄)
      = iprop((tLoc d ↦{shareDrop fullShare 2} f) ∗ bigSep Finset.univ fun c : Fin 2 => tLoc d ↦{qC c} f) :=
  have h : (tLoc d ↦{fullShare} f : sProp 𝕄)
      ⊣⊢ iprop((tLoc d ↦{shareDrop fullShare 2} f) ∗ bigSep Finset.univ fun c : Fin 2 => tLoc d ↦{shareTok fullShare 2 c} f) :=
    Transfers.pointsTo_toks fullShare 2
  BI.equiv_iff.mp ⟨h.1, h.2⟩

/-- A SparseCore's read share is its workers' read shares and a remainder. -/
theorem tPts_workers (d : Dev nD) (c : Fin 2) (f : Buf (Elt F) (tLoc d)) :
    (tLoc d ↦{qC c} f : sProp 𝕄)
      = iprop((tLoc d ↦{shareDrop (qC c) 16} f) ∗ bigSep Finset.univ fun s : Fin 16 => tLoc d ↦{qT c s} f) :=
  have h : (tLoc d ↦{qC c} f : sProp 𝕄)
      ⊣⊢ iprop((tLoc d ↦{shareDrop (qC c) 16} f) ∗ bigSep Finset.univ fun s : Fin 16 => tLoc d ↦{shareTok (qC c) 16 s} f) :=
    Transfers.pointsTo_toks (qC c) 16
  BI.equiv_iff.mp ⟨h.1, h.2⟩

/-! ## What a worker and a SparseCore are handed, over the part numbers -/

theorem tile_pieces (d : Dev nD) (L : grid0.Coords) (fo : Buf (Elt F) (oLoc d)) :
    (iprop(idxPts I d L ∗ outPts d L fo) : sProp 𝕄)
      = iprop((iLoc d ↦[iSet (cL L) (sL L)]{fullShare} I d) ∗ out4 d (cL L) (sL L) fo) := by
  show (iprop((iLoc d ↦[(idxM L).view.set]{fullShare} I d) ∗ (oLoc d ↦[(outM0 L).view.set]{fullShare} fo)
    ∗ (oLoc d ↦[(outM1 L).view.set]{fullShare} fo) ∗ (oLoc d ↦[(outM2 L).view.set]{fullShare} fo)
    ∗ (oLoc d ↦[(outM3 L).view.set]{fullShare} fo)) : sProp 𝕄) = _
  rw [set_idxM, set_outM0, set_outM1, set_outM2, set_outM3]

theorem tileRes_eq (d : Dev nD) (L : grid0.Coords) (fo : Buf (Elt F) (oLoc d)) :
    tileRes m I d L fo
      = iprop((iLoc d ↦[iSet (cL L) (sL L)]{fullShare} I d) ∗ (tLoc d ↦{qT (cL L) (sL L)} m (tLoc d)) ∗ out4 d (cL L) (sL L) fo) := by
  show (iprop((iLoc d ↦[(idxM L).view.set]{fullShare} I d) ∗ (tLoc d ↦{qT (cL L) (sL L)} m (tLoc d))
    ∗ (oLoc d ↦[(outM0 L).view.set]{fullShare} fo)
    ∗ (oLoc d ↦[(outM1 L).view.set]{fullShare} fo) ∗ (oLoc d ↦[(outM2 L).view.set]{fullShare} fo)
    ∗ (oLoc d ↦[(outM3 L).view.set]{fullShare} fo)) : sProp 𝕄) = _
  rw [set_idxM, set_outM0, set_outM1, set_outM2, set_outM3]

theorem coreRes_eq (d : Dev nD) (c : Fin ((K (F := F)).nCore 0)) (fo : Buf (Elt F) (oLoc d)) :
    coreRes m I d c fo
      = iprop(((bigSep Finset.univ fun s : Fin 16 => iLoc d ↦[iSet (Fin.cast (nCore_zero (F := F)) c) s]{fullShare} I d)
          ∗ (bigSep Finset.univ fun s : Fin 16 => out4 d (Fin.cast (nCore_zero (F := F)) c) s fo))
        ∗ tLoc d ↦{qC (Fin.cast (nCore_zero (F := F)) c)} m (tLoc d)) := by
  have h : (bigSep Finset.univ fun i : Fin ((K (F := F)).nSub 0) => (iprop(idxPts I d (Lq c i) ∗ outPts d (Lq c i) fo) : sProp 𝕄))
      = bigSep Finset.univ fun s : Fin 16 => iprop((iLoc d ↦[iSet (Fin.cast (nCore_zero (F := F)) c) s]{fullShare} I d)
          ∗ out4 d (Fin.cast (nCore_zero (F := F)) c) s fo) :=
    bigSep_congr fun i _ => tile_pieces I d (Lq c i) fo
  rw [← bigSep_sep', ← h]

/-! ## The split at the launch and its inverse -/

theorem cores_split (d : Dev nD) (fo : Buf (Elt F) (oLoc d)) :
    (iprop((iLoc d ↦{fullShare} I d) ∗ (oLoc d ↦{fullShare} fo) ∗ (tLoc d ↦{fullShare} m (tLoc d))) : sProp 𝕄)
      ⊣⊢ iprop((bigSep Finset.univ fun c : Fin ((K (F := F)).nCore 0) => coreRes m I d c fo) ∗ (tLoc d ↦{shareDrop fullShare 2} m (tLoc d))) := by
  have hR : (bigSep Finset.univ fun c : Fin ((K (F := F)).nCore 0) => coreRes m I d c fo)
      = iprop(((bigSep Finset.univ fun c : Fin 2 => bigSep Finset.univ fun s : Fin 16 => iLoc d ↦[iSet c s]{fullShare} I d)
          ∗ (bigSep Finset.univ fun c : Fin 2 => bigSep Finset.univ fun s : Fin 16 => out4 d c s fo))
        ∗ bigSep Finset.univ fun c : Fin 2 => tLoc d ↦{qC c} m (tLoc d)) := by
    rw [← bigSep_sep', ← bigSep_sep']
    exact bigSep_congr fun c _ => coreRes_eq m I d c fo
  rw [hR, iPts_parts d (I d), oPts_parts d fo, tPts_cores d (m (tLoc d))]
  refine ⟨?_, ?_⟩
  · iintro ⟨Hi, Ho, Hd, Ht⟩
    isplitr [Hd]
    · isplitr [Ht]
      · isplitl [Hi]
        · iexact Hi
        · iexact Ho
      · iexact Ht
    · iexact Hd
  · iintro ⟨⟨⟨Hi, Ho⟩, Ht⟩, Hd⟩
    isplitl [Hi]
    · iexact Hi
    isplitl [Ho]
    · iexact Ho
    isplitl [Hd]
    · iexact Hd
    iexact Ht

/-- A SparseCore's operands split among its sixteen workers, the table by read shares with the remainder kept aside;
    the workers' results join into the SparseCore's. -/
theorem vecSplit : (K (F := F)).VecSplit' (P m I) 0 := by
  intro d c
  show coreRes m I d c (m (oLoc d)) ⊢ |={Set.univ}=> iprop(
      (bigSep Finset.univ fun i : Fin ((K (F := F)).nSub 0) => tileRes m I d (Lq c i) (m (oLoc d)))
      ∗ ((bigSep Finset.univ fun i : Fin ((K (F := F)).nSub 0) => tileRes m I d (Lq c i) (gathered m I d))
          -∗ coreRes m I d c (gathered m I d)))
  have hT : ∀ fo : Buf (Elt F) (oLoc d), (bigSep Finset.univ fun i : Fin ((K (F := F)).nSub 0) => tileRes m I d (Lq c i) fo)
      = iprop((bigSep Finset.univ fun s : Fin 16 => iLoc d ↦[iSet (Fin.cast (nCore_zero (F := F)) c) s]{fullShare} I d)
          ∗ (bigSep Finset.univ fun s : Fin 16 => tLoc d ↦{qT (Fin.cast (nCore_zero (F := F)) c) s} m (tLoc d))
          ∗ (bigSep Finset.univ fun s : Fin 16 => out4 d (Fin.cast (nCore_zero (F := F)) c) s fo)) := by
    intro fo
    rw [← bigSep_sep', ← bigSep_sep']
    exact bigSep_congr fun i _ => tileRes_eq m I d (Lq c i) fo
  rw [hT, hT, coreRes_eq, coreRes_eq, tPts_workers]
  iintro ⟨⟨Hi, Ho⟩, Hd, Ht⟩
  imodintro
  isplitl [Hi Ho Ht]
  · isplitl [Hi]
    · iexact Hi
    isplitl [Ht]
    · iexact Ht
    iexact Ho
  · iintro ⟨Hi, Ht, Ho⟩
    isplitl [Hi Ho]
    · isplitl [Hi]
      · iexact Hi
      · iexact Ho
    · isplitl [Hd]
      · iexact Hd
      · iexact Ht

end Cert.KSideB

end
-- ==== Proof.RegionBodyB.lean ====
/-
  The TensorCore region's body and its proof data. The body reads its two input blocks whole, a block of 8192
  gathered rows and the transposed weights, and stores one value over the whole output block: the softmax
  of the block's logits, laid out 64 × 8192. So after the body at grid point `t` the output's staging
  buffer holds that value of block `t` of the gathered rows; the inputs' buffers hold their blocks as fetched.
-/
import proofs.«207835_g56727928045975_cont_9to1_m_1027_16_alg».proof.Proof.SetupB
import Idealize.ShloMosaic.Lib.Pipeline.FrameBody
import Idealize.ShloMosaic.Lib.Pipeline.Value
import Idealize.ShloMosaic.Lib.Tactic

set_option maxRecDepth 16384

noncomputable section

namespace Cert.KSideB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Pipeline (Dat Cfg Window BodyObligation BodyObligationLoose cellOf)

variable {F : FTy → Type} [FloatOps F]

local notation "𝕄" => MT nD τ sig (HIx 1) (Elt F) ℕ UU ℕ

/-! ## The body's accesses: each the whole of its staging buffer -/

abbrev rIn0 : Rect S8192x128 := Rect.unit (s := S8192x128) ![0, 0] S8192x128.size inb_S8192x128_S8192x128_0_0
abbrev rIn1 : Rect S64x128 := Rect.unit (s := S64x128) ![0, 0] S64x128.size inb_S64x128_S64x128_0_0
abbrev rOut : Rect S64x8192 := Rect.unit (s := S64x8192) ![0, 0] S64x8192.size inb_S64x8192_S64x8192_0_0

theorem off00 : (![0, 0] : Fin 2 → Nat) = fun _ => 0 := by funext a; fin_cases a <;> rfl

/-- What the body leaves in the output window's buffer, from the input windows' blocks: its one store. -/
def outBlk (x0 : Vec F S8192x128 .f32) (x1 : Vec F S64x128 .f32) : Vec F S64x8192 .f32 :=
  View.canon [⟨rOut, k1_pay1 (View.ld x0 rIn0) (View.ld x1 rIn1)⟩]

/-- The one store covers the buffer. -/
theorem cover_out (p0 : Vec F S64x8192 .f32) (y : S64x8192.Idx) :
    ∃ pc ∈ ([⟨rOut, p0⟩] : List (View.Piece (Elt F) S64x8192 .f32)), y ∈ pc.1.set :=
  View.cover_of_tiled [⟨rOut, p0⟩] S64x8192.size (by rfl) y

/-- The stored block is the payload of the two blocks read. -/
theorem outBlk_eq (x0 : Vec F S8192x128 .f32) (x1 : Vec F S64x128 .f32) : outBlk x0 x1 = k1_pay1 x0 x1 := by
  unfold outBlk
  rw [View.canon_unit_zero off00, View.ld_unit_zero off00, View.ld_unit_zero off00]

/-! ## The body's triple -/

set_option maxHeartbeats 1000000 in
/-- The kernel body on whole staging memrefs, the inputs' at read contents and the output's at anything, runs to the
    continuation holding the inputs' as they were and the output's at `outBlk` of the inputs'. -/
theorem sound_kernel1 (c : Dev nD) (E : Set ℕ) (i : grid1.Coords) (arg1 : Memref sig .tc .vmem S8192x128 .f32) (harg1 : arg1.IsWhole)
    (arg2 : Memref sig .tc .vmem S64x128 .f32) (harg2 : arg2.IsWhole) (arg3 : Memref sig .tc .vmem S64x8192 .f32) (harg3 : arg3.IsWhole)
    (x0 : Vec F S8192x128 .f32) (x1 : Vec F S64x128 .f32) (Kc : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Kc ⟨⟩))
      ⊢ wp frame (wpE (defs₀ (F := F)) Variants.none c none) E (cc1__tc_body i arg1 harg1 arg2 harg2 arg3 harg3) Kc := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

variable (d : Dev nD) (X : Buf (Elt F) (oLoc d)) (Wt : Buf (Elt F) (wLoc d)) (f : Buf (Elt F) (rLoc d))

/-- The windows' arrays when the region is entered: the gathered rows, the transposed weights, the result array at
    whatever it holds. -/
def Ad : (w : Fin cfg1.W) → Buf (Elt F) ((cfg1.win w).arr.view.loc (d.tc : Thread nD τ))
  | ⟨0, _⟩ => X
  | ⟨1, _⟩ => Wt
  | ⟨2, _⟩ => f

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (Ad d X Wt f w)

/-- The recorded pairs the TensorCore may hold across the region: those at or below level 8, the level every pair
    recorded up to the end of the one SparseCore call sits at or below. -/
def recB : Set (SemLoc sig × HIx 1) := {p | (K (F := F)).lev ((d.tc : Thread nD τ), p.1) p.2 ≤ 8}

/-- The proof data of the one pipeline on device `d`: after the body at point `t` each input's buffer at its block and
    the output's at `outBlk` of the input blocks; the invariant the scoped buffers no window stages; nothing owed;
    full shares. -/
def dats : Dat τ (Elt F) (HIx 1) ℕ UU ℕ cfg1 d where
  A := Ad d X Wt f
  after w t := match w with
    | ⟨0, _⟩ => iblk d X Wt f 0 t
    | ⟨1, _⟩ => iblk d X Wt f 1 t
    | ⟨2, _⟩ => outBlk (iblk d X Wt f 0 t) (iblk d X Wt f 1 t)
  Φ _ := Pipeline.scopedRest spec1 d
  q _ := fullShare
  owed _ := 0
  recorded _ := recB (F := F) d

theorem A_eq (w : Fin cfg1.W) : (dats d X Wt f).A w = Ad d X Wt f w := by dsimp only [dats]
theorem after1_0 (t : Fin cfg1.N) : (dats d X Wt f).after 0 t = iblk d X Wt f 0 t := by dsimp only [dats]
theorem after1_1 (t : Fin cfg1.N) : (dats d X Wt f).after 1 t = iblk d X Wt f 1 t := by dsimp only [dats]
theorem after1_2 (t : Fin cfg1.N) : (dats d X Wt f).after 2 t = outBlk (iblk d X Wt f 0 t) (iblk d X Wt f 1 t) := by dsimp only [dats]

/-- Each input's current staging buffer holds its block at every point, fetched there or not. -/
theorem before1_0 (t : Fin cfg1.N) (x) : (dats d X Wt f).before 0 t x = iblk d X Wt f 0 t :=
  ((dats d X Wt f).before_in_eq_fetched 0 rfl (fun _ => rfl) (fun _ _ _ => rfl)
      (fun t => by rw [after1_0]; unfold Dat.blockOf iblk; rw [A_eq]; try rfl) t x).trans
    (by unfold Dat.fetched Dat.blockOf iblk; rw [A_eq]; try rfl)
theorem before1_1 (t : Fin cfg1.N) (x) : (dats d X Wt f).before 1 t x = iblk d X Wt f 1 t :=
  ((dats d X Wt f).before_in_eq_fetched 1 rfl (fun _ => rfl) (fun _ _ _ => rfl)
      (fun t => by rw [after1_1]; unfold Dat.blockOf iblk; rw [A_eq]; try rfl) t x).trans
    (by unfold Dat.fetched Dat.blockOf iblk; rw [A_eq]; try rfl)

/-! ## The body obligation, at a generic point -/

def bodyPre (t : Fin cfg1.N) : sProp 𝕄 :=
  iprop((dats d X Wt f).Φ t.castSucc ∗ (dats d X Wt f).owesAt none t.castSucc
    ∗ (∃ x, owns (d : Thread nD τ) (st1_0 t) fullShare ((dats d X Wt f).before 0 t x))
    ∗ (∃ x, owns (d : Thread nD τ) (st1_1 t) fullShare ((dats d X Wt f).before 1 t x))
    ∗ (∃ x, owns (d : Thread nD τ) (st1_2 t) fullShare ((dats d X Wt f).before 2 t x)))

def bodyPost (t : Fin cfg1.N) : sProp 𝕄 :=
  iprop((dats d X Wt f).Φ t.succ ∗ (dats d X Wt f).owesAt none t.succ
    ∗ owns (d : Thread nD τ) (st1_0 t) fullShare ((dats d X Wt f).after 0 t)
    ∗ owns (d : Thread nD τ) (st1_1 t) fullShare ((dats d X Wt f).after 1 t)
    ∗ owns (d : Thread nD τ) (st1_2 t) fullShare ((dats d X Wt f).after 2 t))

theorem sound_body (t : Fin cfg1.N) :
    bodyPre d X Wt f t ⊢ wp frame (wpE (defs₀ (F := F)) Variants.none d none) Set.univ (bodyAt1 t) (fun _ => bodyPost d X Wt f t) := by
  unfold bodyPre bodyPost bodyAt1
  simp only [before1_0, before1_1]
  rw [show (dats d X Wt f).Φ t.succ = (dats d X Wt f).Φ t.castSucc from rfl,
    show (dats d X Wt f).owesAt none t.succ = (dats d X Wt f).owesAt none t.castSucc from rfl,
    after1_0, after1_1, after1_2]
  iintro ⟨HΦ, Ho, ⟨%x0, H0⟩, ⟨%x1, H1⟩, ⟨%x2, H2⟩⟩
  iapply (sound_kernel1 d Set.univ (grid1.coords t) _ _ _ _ _ _ (iblk d X Wt f 0 t) (iblk d X Wt f 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation : BodyObligation (dats d X Wt f) (defs₀ (F := F)) Variants.none none Set.univ := fun t => by
  rw [bigSep_W1, bigSep_W1]
  exact sound_body d X Wt f t

end Cert.KSideB

end
-- ==== Proof.RegionB.lean ====
/-
  The TensorCore region entered from inside the SparseCore program. The two column blocks of the 64 × 16384
  result tile it (columns 0 … 8191 written at grid point 0, columns 8192 … 16383 at grid point 1), so after the
  region the result array is one function of the gathered rows and the transposed weights: column `i` is column
  `i % 8192` of the body's value on block `i / 8192`. The inputs' arrays are left as they were. The staging
  cells of the region's pipeline are funded at the launch and their invariants allocated at the region's entry.
-/
import proofs.«207835_g56727928045975_cont_9to1_m_1027_16_alg».proof.Proof.RegionBodyB

set_option maxRecDepth 16384

noncomputable section

namespace Cert.KSideB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Pipeline (Dat Cfg Window BodyObligation BodyObligationLoose cellOf)

variable {F : FTy → Type} [FloatOps F]

local notation "𝕄" => MT nD τ sig (HIx 1) (Elt F) ℕ UU ℕ

variable (d : Dev nD) (X : Buf (Elt F) (oLoc d)) (Wt : Buf (Elt F) (wLoc d)) (f : Buf (Elt F) (rLoc d))

/-! ## From the blocks to the arrays -/

/-- The printed index maps over the grid: the gathered rows move by blocks of rows with the point, the weights stay,
    the result moves by blocks of columns with the point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val :=
  (by decide +kernel : ∀ t : Fin grid1.N, _)

/-- A grid point as a block number. -/
def tFin (t : Fin cfg1.N) : Fin 2 := ⟨t.val, by have := t.isLt; have e : cfg1.N = 2 := N_1; omega⟩

/-- The first window's block at point `t` is block `t` of the gathered rows. -/
theorem iblk0_eq (t : Fin cfg1.N) : iblk d X Wt f 0 t = blockOf X (tFin t) := by
  obtain ⟨e0, e1, -, -, -, -⟩ := idx_facts t
  funext y
  show X (((cfg1.win 0).blk t).view.emb y) = X _
  congr 1
  funext a; apply Fin.ext
  match a with
  | ⟨0, _⟩ => show win1_0.index t (0 : Fin 2) * 8192 + 1 * (y 0).val = t.val * 8192 + (y 0).val; omega
  | ⟨1, _⟩ => show win1_0.index t (1 : Fin 2) * 128 + 1 * (y 1).val = (y 1).val; omega

/-- The second window's block at any point is the whole of the transposed weights. -/
theorem iblk1_eq (t : Fin cfg1.N) : iblk d X Wt f 1 t = Wt := by
  obtain ⟨-, -, e2, e3, -, -⟩ := idx_facts t
  funext y
  show Wt (((cfg1.win 1).blk t).view.emb y) = Wt y
  congr 1
  funext a; apply Fin.ext
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- The result's final contents at an index whose column is column `j 1` of block `t`. -/
theorem regionOut_at (X : S16384x128.Idx → Elt F .f32) (Wt : Vec F S64x128 .f32) (t : Fin 2) (j : S64x8192.Idx) (i : S64x16384.Idx)
    (h0 : (i 0).val = (j 0).val) (h1 : (i 1).val = t.val * 8192 + (j 1).val) :
    k1_pay1 (blockOf X t) Wt j = regionOut X Wt i := by
  have hj1 : (j 1).val < 8192 := idx2_lt1 j
  have ht : t.val < 2 := t.isLt
  have hi1 : (i 1).val < 16384 := idx2_lt1 i
  unfold regionOut
  refine congr (congrArg (fun b => k1_pay1 (blockOf X b) Wt) (Fin.ext ?_)) (funext fun a => Fin.ext ?_)
  · show t.val = (i 1).val / 8192; omega
  · match a with
    | ⟨0, _⟩ => exact h0.symm
    | ⟨1, _⟩ => show (j 1).val = (i 1).val % 8192; omega

/-- What point `t` writes back is block `t` of the result array's final contents. -/
theorem flushed_eq (t : Fin cfg1.N) :
    (dats d X Wt f).flushed 2 t = ((cfg1.win 2).blk t).view.read (Elt F) (regionOut X Wt) := by
  show (cfg1.win 2).cut (grid1.coords t) ((dats d X Wt f).after 2 t) = _
  rw [after1_2, outBlk_eq, iblk0_eq, iblk1_eq]
  obtain ⟨-, -, -, -, e4, e5⟩ := idx_facts t
  funext j
  show k1_pay1 (blockOf X (tFin t)) Wt j = regionOut X Wt (((cfg1.win 2).blk t).view.emb j)
  refine regionOut_at X Wt (tFin t) j _ ?_ ?_
  · show win1_2.index t (0 : Fin 2) * 64 + 1 * (j 0).val = (j 0).val; omega
  · show win1_2.index t (1 : Fin 2) * 8192 + 1 * (j 1).val = t.val * 8192 + (j 1).val; omega

/-- An index of the result array is in point `t`'s block iff each coordinate is in the block's range on its axis. -/
theorem mem_blk (t : Fin cfg1.N) (i : S64x16384.Idx) :
    i ∈ ((cfg1.win 2).blk t).view.set ↔ ∀ a : Fin 2, win1_2.index t a * S64x8192.size a ≤ (i a).val ∧ (i a).val < win1_2.index t a * S64x8192.size a + S64x8192.size a := by
  show i ∈ ((View.whole main_v4).slice (win1_2.rect t)).set ↔ _
  rw [View.set_slice_whole, Rect.mem_set_unit]
  exact Iff.rfl

/-- The two column blocks cover the result array. -/
theorem cover (i : S64x16384.Idx) : ∃ t : Fin cfg1.N, (cfg1.win 2).flush t = true ∧ i ∈ ((cfg1.win 2).blk t).view.set := by
  have hi0 : (i 0).val < 64 := (i 0).isLt
  have hi1 : (i 1).val < 16384 := (i 1).isLt
  have eN : cfg1.N = 2 := N_1
  let t : Fin cfg1.N := ⟨(i 1).val / 8192, by omega⟩
  obtain ⟨-, -, -, -, e4, e5⟩ := idx_facts t
  have e5' : win1_2.index t (1 : Fin 2) = (i 1).val / 8192 := e5
  refine ⟨t, flush1_2 t, ?_⟩
  rw [mem_blk]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 8192 ≤ (i 1).val ∧ (i 1).val < win1_2.index t (1 : Fin 2) * 8192 + 8192; omega

/-- The result array after the region. -/
theorem final2 : (dats d X Wt f).arrAt 2 cfg1.N = regionOut X Wt :=
  (dats d X Wt f).arrAt_eq_of_cover 2 (regionOut X Wt) (fun t _ => flushed_eq d X Wt f t) cover

/-- The input arrays after the region: as they were. -/
theorem final0 : (dats d X Wt f).arrAt 0 cfg1.N = X := ((dats d X Wt f).arrAt_in 0 rfl _).trans (A_eq d X Wt f 0)
theorem final1 : (dats d X Wt f).arrAt 1 cfg1.N = Wt := ((dats d X Wt f).arrAt_in 1 rfl _).trans (A_eq d X Wt f 1)

/-! ## What the region needs from the launch -/

/-- The admissible (empty) prefetched tables of the one pipeline. -/
abbrev aP : (p : Fin 1) → (pcfgs (F := F) p).Adm := fun p => (cfgs p).toPCfg_adm

/-- The pipeline's rounds element at launch: its staging cells, its loop's transfers. -/
def uP₀ : UP := initOf (Pipeline.cells (nD := nD) (τ := τ) cfgs cellOf_inj) (Pipeline.launchToks (nD := nD) (τ := τ) cfgs cellOf_inj)

/-- What the region needs from the launch on device `d`: its staging cells' ghost state and its loop's duty tokens. -/
def Gd (d : Dev nD) : sProp 𝕄 :=
  iprop(Pipeline.cellsGhost cfgs (EP (F := F)) 0 d ∗ Pipeline.toksInit cfgs (EP (F := F)) 0 d)

theorem bigSep_fin1 (Φ : Fin 1 → sProp 𝕄) : bigSep Finset.univ Φ = Φ 0 := by
  rw [show (Finset.univ : Finset (Fin 1)) = {0} from rfl, bigSep_singleton]

theorem fund_Gd : (BI.own (EP (F := F) uP₀) : sProp 𝕄) ⊢ |==> bigSep Finset.univ fun d : Dev nD => Gd (F := F) d := by
  refine (Pipeline.fund_ghost (nD := nD) (τ := τ) cfgs (EP (F := F)) cellOf_inj).trans (bupd_mono ?_)
  unfold Gd
  simp only [bigSep_fin1, bigSep_sep']
  exact BI.Entails.refl _

/-! ## The region: its proof data on every device, what it is entered from and what it leaves -/

section Region

variable (Xs : (c : Dev nD) → Buf (Elt F) (oLoc c)) (Ws : (c : Dev nD) → Buf (Elt F) (wLoc c)) (fs : (c : Dev nD) → Buf (Elt F) (rLoc c))

/-- The proof data on every device. -/
abbrev pdats : (p : Fin 1) → (c : Dev nD) → Dat τ (Elt F) (HIx 1) ℕ UU ℕ (Pipeline.pin (pcfgs (F := F)) aP p) c :=
  fun _ c => dats c (Xs c) (Ws c) (fs c)

/-- The TensorCore owing nothing, every pair it has recorded at or below level 8. -/
def owesTc (c : Dev nD) : sProp 𝕄 :=
  iprop(∃ W, ⌜(K (F := F)).WBelow (T c) W (8 * 1)⌝ ∗ owes (T c) (0 : CellTallies nD τ sig (HIx 1)) W)

def preR (c : Dev nD) : sProp 𝕄 :=
  iprop(owesTc (F := F) c ∗ (oLoc c ↦{fullShare} Xs c) ∗ (wLoc c ↦{fullShare} Ws c) ∗ (rLoc c ↦{fullShare} fs c))
def postR (c : Dev nD) : sProp 𝕄 :=
  iprop(owesTc (F := F) c ∗ (oLoc c ↦{fullShare} Xs c) ∗ (wLoc c ↦{fullShare} Ws c) ∗ (rLoc c ↦{fullShare} regionOut (Xs c) (Ws c)))

theorem share_full (c : Dev nD) (w : Fin cfg1.W) : (dats c (Xs c) (Ws c) (fs c)).share w = fullShare :=
  (dats c (Xs c) (Ws c) (fs c)).share_full (fun _ => rfl) w

theorem prefHeld_nil (c : Dev nD) :
    (emp : sProp 𝕄) ⊢ Pipeline.prefHeld (pcfgs (F := F) 0).pre c (fun _ => fullShare) (aP (F := F) 0).1 := by
  unfold Pipeline.prefHeld
  show (emp : sProp 𝕄) ⊢ bigSep (Finset.univ : Finset (Fin 0)) _
  rw [Finset.univ_eq_empty, bigSep_empty]
  exact BI.Entails.refl _

theorem hentry_R (c : Dev nD) :
    iprop(preR Xs Ws fs c ∗ Pipeline.ownSems0 (fun k : PEmpty => k.elim) c ∗ levAts (K (F := F)).L (K (F := F)).lev)
      ⊢ |={Set.univ}=> iprop((dats c (Xs c) (Ws c) (fs c)).arrays ((dats c (Xs c) (Ws c) (fs c)).arrAt · 0)
          ∗ Pipeline.prefHeld (pcfgs (F := F) 0).pre c (fun _ => fullShare) (aP (F := F) 0).1
          ∗ (dats c (Xs c) (Ws c) (fs c)).owesAt (none : HIx 1) 0 ∗ (emp : sProp 𝕄) ∗ (emp : sProp 𝕄)) := by
  rw [Pipeline.arrays_eq cfgs (pdats Xs Ws fs) 0 c arr_whole1 (share_full Xs Ws fs c), bigSep_W1]
  unfold preR owesTc
  iintro ⟨⟨⟨%W, %hW, Ho⟩, HX, HW, Hf⟩, -, -⟩
  imodintro
  isplitl [HX HW Hf]
  · isplitl [HX]; · iexact HX
    isplitl [HW]; · iexact HW
    iexact Hf
  isplitr
  · iapply (prefHeld_nil c); iempintro
  isplitl [Ho]
  · iexists W; isplitr
    · ipureintro; exact fun p hp => Or.inl (hW p (Finset.mem_coe.mp hp))
    iexact Ho
  isplitl [] <;> iempintro

theorem hexit_R (c : Dev nD) :
    iprop((dats c (Xs c) (Ws c) (fs c)).arrays ((dats c (Xs c) (Ws c) (fs c)).arrAt · cfg1.N)
        ∗ (dats c (Xs c) (Ws c) (fs c)).owesAt (none : HIx 1) (Fin.last cfg1.N) ∗ (emp : sProp 𝕄) ∗ (emp : sProp 𝕄))
      ⊢ |={Set.univ}=> postR Xs Ws c := by
  rw [Pipeline.arrays_eq cfgs (pdats Xs Ws fs) 0 c arr_whole1 (share_full Xs Ws fs c), bigSep_W1]
  dsimp only
  rw [final0, final1, final2]
  unfold postR owesTc
  iintro ⟨⟨HX, HW, Hf⟩, ⟨%W, %hW, Ho⟩, -, -⟩
  imodintro
  isplitl [Ho]
  · iexists W; isplitr
    · ipureintro
      intro p hp
      rcases hW (Finset.mem_coe.mpr hp) with h | ⟨w, s, rfl⟩
      · exact h
      · exact Nat.zero_le _
    iexact Ho
  isplitl [HX]; · iexact HX
  isplitl [HW]; · iexact HW
  iexact Hf

def Rseg : Pipeline.RegionSeg (pcfgs (F := F)) aP (pdats Xs Ws fs) (none : HIx 1) defs₀ 𝒱₀ (K (F := F)).L (K (F := F)).lev (0 : Fin 1) where
  win := winFacts1.to₀
  block_pos := block_pos1
  stage_whole := stage_whole1
  K := PEmpty
  osem := fun k => k.elim
  ho := Pipeline.OwnSemFacts.none _
  hbody c := (body_obligation c (Xs c) (Ws c) (fs c)).loose
  hwaits c := Pipeline.hwaits_of_owed_zero (pcfgs (F := F)) aP (pdats Xs Ws fs) (none : HIx 1) (K (F := F)).L (K (F := F)).lev (0 : Fin 1) (fun _ _ => rfl) c
  pre := preR Xs Ws fs
  post := postR Xs Ws
  X _ := iprop(emp)
  Y _ := iprop(emp)
  Z _ := iprop(emp)
  hentry c := hentry_R Xs Ws fs c
  hin c := by
    show iprop(_ ∗ _ ∗ Pipeline.scopedRest spec1 c) ⊢ Pipeline.scopedRest spec1 c
    iintro ⟨-, -, H⟩; iexact H
  hout c := by
    rw [Pipeline.ownSems0_none]
    show Pipeline.scopedRest spec1 c ⊢ iprop(_ ∗ _ ∗ Pipeline.scopedRest spec1 c)
    iintro H
    isplitr; · iempintro
    isplitr; · iempintro
    iexact H
  hexit c := hexit_R Xs Ws fs c

end Region

/-! ## The region's step on the TensorCore -/

/-- One device's contents as a family over the devices: there is one device. -/
def fam {β : Dev nD → Type} (d : Dev nD) (x : β d) : (c : Dev nD) → β c := fun c => (Subsingleton.elim d c) ▸ x
theorem fam_self {β : Dev nD → Type} (d : Dev nD) (x : β d) : fam d x d = x := rfl

set_option backward.isDefEq.respectTransparency.types false in
theorem region_wp (m : (ℓ : Loc nD τ sig) → Buf (Elt F) ℓ) (I : (d : Dev nD) → Buf (Elt F) (iLoc d)) (κ : GSem nD τ sig → ℕ) (d : Dev nD)
    (X : Buf (Elt F) (oLoc d)) (Wt : Buf (Elt F) (wLoc d)) {α : Type}
    (k : PUnit → Prog (TpuEff nD τ sig (Elt F) (SparseCore.Sig (ΛP (F := F)) 1) .tc) α) (Q : α → sProp 𝕄) :
    iprop((K (F := F)).ctx EH (P m I) κ ∗ (K (F := F)).tcSt EH d 1 ∗ boundary (SparseCore.T d) ∗ Gd d
        ∗ (oLoc d ↦{fullShare} X) ∗ (wLoc d ↦{fullShare} Wt) ∗ (∃ f, rLoc d ↦{fullShare} f)
        ∗ (iprop((K (F := F)).tcSt EH d 1 ∗ boundary (SparseCore.T d) ∗ (oLoc d ↦{fullShare} X) ∗ (wLoc d ↦{fullShare} Wt) ∗ (rLoc d ↦{fullShare} regionOut X Wt))
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ (.op (.customCall (SparseCore.inner (Pipeline.entry 0)) ()) k) Q := by
  unfold SparseCore.Cfg.tcSt Gd
  rw [(K (F := F)).Otc_end (nD := nD) d (le_refl 1)]
  iintro ⟨#Hctx, ⟨Ho, Hrest⟩, Hbd, HG, HX, HW, ⟨%f, Hf⟩, Hk⟩
  have hprog : (Prog.op (TpuEff.customCall (SparseCore.inner (Pipeline.entry (0 : Fin 1))) ()) k : Prog (TpuEff nD τ sig (Elt F) (SparseCore.Sig (ΛP (F := F)) 1) .tc) α)
      = (SparseCore.liftProg (Q := 1) (Prog.op (TpuEff.customCall (Pipeline.entry (0 : Fin 1)) ()) (fun _ => Prog.ret PUnit.unit) : Prog (TpuEff nD τ sig (Elt F) (ΛP (F := F)) .tc) PUnit)) >>= k := rfl
  rw [hprog, wp_bind]
  iapply ((K (F := F)).wp_liftProg (D (F := F)) 𝒱 (T d) Set.univ none _ _)
  iapply (Pipeline.RegionSeg.wp (pcfgs (F := F)) aP (pdats (fam d X) (fam d Wt) (fam d f)) (none : HIx 1) cellOf_inj (EP (F := F)) defs₀ 𝒱₀
    (K (F := F)).L (K (F := F)).lev (Rseg (fam d X) (fam d Wt) (fam d f)) d none (fun _ h => nomatch h) (fun _ => Prog.ret PUnit.unit) _)
  have hpost : (Rseg (fam d X) (fam d Wt) (fam d f)).post d
      = iprop((∃ W, ⌜(K (F := F)).WBelow (T d) W (8 * 1)⌝ ∗ owes (T d) (0 : CellTallies nD τ sig (HIx 1)) W)
          ∗ (oLoc d ↦{fullShare} X) ∗ (wLoc d ↦{fullShare} Wt) ∗ (rLoc d ↦{fullShare} regionOut X Wt)) := rfl
  have hpre : (Rseg (fam d X) (fam d Wt) (fam d f)).pre d
      = iprop((∃ W, ⌜(K (F := F)).WBelow (T d) W (8 * 1)⌝ ∗ owes (T d) (0 : CellTallies nD τ sig (HIx 1)) W)
          ∗ (oLoc d ↦{fullShare} X) ∗ (wLoc d ↦{fullShare} Wt) ∗ (rLoc d ↦{fullShare} f)) := rfl
  rw [hpost, hpre]
  isplitl [Hrest Hk]
  · iintro ⟨Hbd, Hpost⟩
    rw [wp_ret]
    imodintro
    icases Hpost with ⟨Ho, HX, HW, Hf⟩
    iapply Hk
    isplitl [Ho Hrest]
    · isplitl [Ho]; · iexact Ho
      iexact Hrest
    isplitl [Hbd]; · iexact Hbd
    isplitl [HX]; · iexact HX
    isplitl [HW]; · iexact HW
    iexact Hf
  isplitl [Hbd]; · iexact Hbd
  isplitl [Ho HX HW Hf]
  · isplitl [Ho]; · iexact Ho
    isplitl [HX]; · iexact HX
    isplitl [HW]; · iexact HW
    iexact Hf
  isplitr
  · iapply (SparseCore.Cfg.ctx_levAts (K := K (F := F)) (EH := EH) (P := P m I) κ); iexact Hctx
  iexact HG

end Cert.KSideB

end
-- ==== Proof.KRunB.lean ====
/-
  The word-level kernel's run, the parts put together: the arrays' split among the workers, the TensorCore
  region and the launch; one worker's task enters as a hypothesis of its stated form.
-/
import proofs.«207835_g56727928045975_cont_9to1_m_1027_16_alg».proof.Proof.LaunchB
import proofs.«207835_g56727928045975_cont_9to1_m_1027_16_alg».proof.Proof.SplitsB
import proofs.«207835_g56727928045975_cont_9to1_m_1027_16_alg».proof.Proof.RegionB

noncomputable section

namespace Cert.KSideB

open Cert.Kernel Cert.Kernel.Gen
open Idealize.ShloMosaic
open Idealize.ShloMosaic.SparseCore.Cfg (HIx)
open Idealize.SL Idealize.SL.Sem

variable {F : FTy → Type} [FloatOps F] [∀ e, Nonempty (Elt F e)]
variable (m : (ℓ : Loc nD τ sig) → Buf (Elt F) ℓ) (ρ : Dev nD → PrngReg)

/-- Every weakly fair execution of the device's threads terminates with the arguments unchanged and the result at
    the kernel's function of them, given one worker's task. -/
theorem run (htile : TileBodyStmt m (Iof m)) :
    θ_run (Cert.Kernel.defs (F := F)) (Cert.Kernel.threads (F := F)) ⟨m, fun _ => 0, ρ⟩ (QC m) :=
  run_main m ρ (fun d => Gd (F := F) d) uP₀ fund_Gd htile (fun d fo => cores_split m (Iof m) d fo) (vecSplit m (Iof m))
    (fun κ d X Wt _ k Q => region_wp m (Iof m) κ d X Wt k Q)

end Cert.KSideB

end
-- ==== Proof.Spec.lean ====
/-
  The function both programs compute, index by index, over the extended reals.

  An index word selects a row of the table; a row of logits is the product of that row with the weight
  matrix; the result is the softmax of each row of logits: the exponentials of the logits less the row's
  maximum, divided by their sum. The kernel multiplies by the reciprocal of the sum where the reference
  divides by it; the two agree wherever the logits are real numbers, because the sum is then a real
  number that is not zero.
-/
import Idealize.ShloMosaic.PureOps.Ideal
import Idealize.ShloMosaic.Lib.ValueIdx

noncomputable section

open scoped BigOperators

namespace Cert.Spec

open Idealize.ShloMosaic Idealize.ShloMosaic.ValueIdx

/-- The index array, one word per example. -/
abbrev SI : Shape := ⟨2, ![16384, 1]⟩
/-- The table: 100000 rows of 128 numbers. -/
abbrev ST : Shape := ⟨2, ![100000, 128]⟩
/-- The weights, 128 by 64. -/
abbrev SW : Shape := ⟨2, ![128, 64]⟩
/-- The gathered rows. -/
abbrev SE : Shape := ⟨2, ![16384, 128]⟩
/-- The result: 64 numbers per example. -/
abbrev SO : Shape := ⟨2, ![16384, 64]⟩

/-- The row of the table example `i` selects (the word read as a natural number; the remainder only
    makes the function total: in range it changes nothing). -/
def rowOf (idx : SI.Idx → BitVec 32) (i : Fin 16384) : Fin 100000 :=
  ⟨(idx (ix2 i (0 : Fin 1))).toNat % 100000, Nat.mod_lt _ (by norm_num)⟩

/-- The gathered rows: row `i` is the table's row `rowOf idx i`. -/
def emb (idx : SI.Idx → BitVec 32) (tab : ST.Idx → EReal) : SE.Idx → EReal :=
  fun j => tab (ix2 (rowOf idx (j 0)) (j 1))

/-- The logits of example `i`: its gathered row times the weights. -/
def logit (idx : SI.Idx → BitVec 32) (tab : ST.Idx → EReal) (W : SW.Idx → EReal) (i : Fin 16384) (e : Fin 64) : EReal :=
  ∑ k : Fin 128, tab (ix2 (rowOf idx i) k) * W (ix2 k e)

/-- The largest of a row of 64 numbers, from the lattice's bottom. -/
def rowMax {n : Nat} (L : Fin n → Fin 64 → EReal) (r : Fin n) : EReal :=
  Finset.univ.fold max (⊥ : EReal) (fun e : Fin 64 => L r e)

/-- The exponential of an entry less its row's maximum. -/
def ex {n : Nat} (L : Fin n → Fin 64 → EReal) (r : Fin n) (e : Fin 64) : EReal :=
  Ideal.exp (L r e - rowMax L r)

/-- The sum of a row's exponentials. -/
def den {n : Nat} (L : Fin n → Fin 64 → EReal) (r : Fin n) : EReal :=
  ∑ e : Fin 64, ex L r e

/-- Softmax of each row, dividing by the sum (the reference's form). -/
def smaxR {n : Nat} (L : Fin n → Fin 64 → EReal) (r : Fin n) (e : Fin 64) : EReal :=
  Ideal.div (ex L r e) (den L r)

/-- Softmax of each row, multiplying by the reciprocal of the sum (the kernel's form). -/
def smaxK {n : Nat} (L : Fin n → Fin 64 → EReal) (r : Fin n) (e : Fin 64) : EReal :=
  ex L r e * Ideal.div (Ideal.ofBits .f32 0x3F800000#32) (den L r)

/-- The result, in the reference's form. -/
def soft (idx : SI.Idx → BitVec 32) (tab : ST.Idx → EReal) (W : SW.Idx → EReal) : SO.Idx → EReal :=
  fun j => smaxR (logit idx tab W) (j 0) (j 1)

/-- The result, in the kernel's form. -/
def softK (idx : SI.Idx → BitVec 32) (tab : ST.Idx → EReal) (W : SW.Idx → EReal) : SO.Idx → EReal :=
  fun j => smaxK (logit idx tab W) (j 0) (j 1)

end Cert.Spec

end
-- ==== Proof.LibDot11.lean ====
/-
  A matrix product contracted over the COLUMNS of both operands, read at an index as a sum over the contracted extent:
  for the dimension numbers "left operand contracted on its columns, right operand on its columns, no batch axes" — the
  product l · rᵀ of an [M, K] and an [N, K] array — the kernel's product into a zero accumulator at (p, q) is the sum
  over kk : Fin K of l(p, kk) · r(q, kk). Generic in the three extents.
-/
import Idealize.ShloMosaic.Lib.ValueIdx
import Idealize.ShloMosaic.PureOps.Ideal.Laws

namespace Cert.Lib.Dot11

open Idealize.ShloMosaic Idealize.ShloMosaic.ValueIdx

variable {M K N : Nat} (d : DotDims ⟨2, ![M, K]⟩ ⟨2, ![N, K]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its rows. -/
theorem rhs_row (hln : d.lhsNonContracting = [0]) (hrn : d.rhsNonContracting = [0]) (hlb : d.lhsBatch = []) (hrb : d.rhsBatch = [])
    (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand along
    the row numbered by the output's column. -/
theorem dot_sum (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 (j 1) kk) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 (j 1) kk := funext fun a => Fin.ext (by
    match a with
    | ⟨0, _⟩ => exact rhs_row d hln hrn hlb hrb j _
    | ⟨1, _⟩ => exact (d.rhsIdx_val_of_single hrc j _).trans hk)
  rw [el, er]; rfl

/-- The kernel's product into a zero accumulator, contracted over the columns of both operands. -/
theorem matmul_zero_at (hlc : d.lhsContracting = [1]) (hrc : d.rhsContracting = [1]) (hln : d.lhsNonContracting = [0])
    (hrn : d.rhsNonContracting = [0]) (hlb : d.lhsBatch = []) (hrb : d.rhsBatch = []) {φ₁ φ₂ : FTy} (prec : Option ContractPrecision)
    (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ kk : Fin K, l (ix2 p kk) * r (ix2 q kk) :=
  (Ideal.matmul_constant_zero_apply d prec l r (ix2 p q)).trans (dot_sum d hlc hrc hln hrn hlb hrb l r (ix2 p q))

end Cert.Lib.Dot11
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.BodyValue.lean ====
/-
  The arithmetic of the block program at an index. The block of gathered rows x (8192 by 128) is multiplied by the
  transposed weights w (64 by 128) along the columns of both, giving a row of 64 logits per gathered row; the product is
  laid with the 64 logits down the rows, and each column is replaced by its softmax: the exponentials of the column's
  entries less the column's maximum, times the reciprocal of their sum. Read at (e, r) this is the softmax, in the
  reciprocal form, of the r-th row of logits at its e-th entry.
-/
import proofs.«207835_g56727928045975_cont_9to1_m_1027_16_alg».proof.Proof.Gen.KernelIdeal.Skeleton
import proofs.«207835_g56727928045975_cont_9to1_m_1027_16_alg».proof.Proof.Spec
import proofs.«207835_g56727928045975_cont_9to1_m_1027_16_alg».proof.Proof.LibDot11
import proofs.«207835_g56727928045975_cont_9to1_m_1027_16_alg».proof.Proof.LibRows
import Idealize.ShloMosaic.Lib.ValueLayout

noncomputable section

open scoped BigOperators

namespace Cert.BodyValue

open Idealize.ShloMosaic Idealize.ShloMosaic.ValueIdx Cert.KernelIdeal Cert.KernelIdeal.Facts₀

/-- The logits of one block: gathered row `r` times row `e` of the transposed weights. -/
def blockLogit (x : Cert.KernelIdeal.S8192x128.Idx → EReal) (w : Cert.KernelIdeal.S64x128.Idx → EReal) (r : Fin 8192) (e : Fin 64) : EReal :=
  ∑ k : Fin 128, x (Idealize.ShloMosaic.ValueIdx.ix2 r k) * w (Idealize.ShloMosaic.ValueIdx.ix2 e k)

/-- The accumulator of the maximum is the lattice's bottom. -/
theorem ofBits_f32_neg_inf : Ideal.ofBits .f32 0xFF800000#32 = (⊥ : EReal) := by
  simp [Ideal.ofBits, Ideal.ieee]

/-- The product, with the logits of a gathered row laid down a column. -/
def logitsT (x : FVec Ideal S8192x128 .f32) (w : FVec Ideal S64x128 .f32) : FVec Ideal S64x8192 .f32 :=
  transpose S64x8192 [1, 0]
    (matmul dot_S8192x128_S64x128_S8192x64_1_1_0_0_n_n none (shapeCast S8192x128 x shapeCasts_S8192x128_S8192x128)
      (shapeCast S64x128 w shapeCasts_S64x128_S64x128) (constant S8192x64 .f32 0x00000000#32))
    transposes_S8192x64_p1_0_S64x8192

/-- Each column's maximum. -/
def colMax (x : FVec Ideal S8192x128 .f32) (w : FVec Ideal S64x128 .f32) : FVec Ideal S8192 .f32 :=
  multiReduction .maximumf [0] S8192 (logitsT x w) 0xFF800000#32 reduces_S64x8192_S8192 (.inl rfl) rfl

/-- The exponentials of the entries less their column's maximum. -/
def expT (x : FVec Ideal S8192x128 .f32) (w : FVec Ideal S64x128 .f32) : FVec Ideal S64x8192 .f32 :=
  exp (subf (logitsT x w)
    (broadcastTo S64x8192 (shapeCast S1x8192 (colMax x w) shapeCasts_S8192_S1x8192) broadcasts_S1x8192_S64x8192))

/-- Each column's sum of exponentials. -/
def colSum (x : FVec Ideal S8192x128 .f32) (w : FVec Ideal S64x128 .f32) : FVec Ideal S8192 .f32 :=
  multiReduction .add [0] S8192 (expT x w) 0x00000000#32 reduces_S64x8192_S8192 (.inl rfl) rfl

/-- The stored value is the exponentials times the reciprocals of their columns' sums. -/
theorem pay_eq (x : Vec Ideal S8192x128 .f32) (w : Vec Ideal S64x128 .f32) :
    Gen.k1_pay1 (F := Ideal) x w
      = mulf (expT x w)
          (broadcastTo S64x8192
            (divf (broadcast S1x8192 (FloatOps.ofBits (F := Ideal) .f32 0x3F800000#32))
              (shapeCast S1x8192 (colSum x w) shapeCasts_S8192_S1x8192))
            broadcasts_S1x8192_S64x8192) := rfl

/-- The product at an index is the logit. -/
theorem logitsT_apply (x : FVec Ideal S8192x128 .f32) (w : FVec Ideal S64x128 .f32) (e : Fin 64) (r : Fin 8192) :
    logitsT x w (ix2 e r) = blockLogit x w r e := by
  unfold logitsT
  refine (transpose_ix2_apply _ transposes_S8192x64_p1_0_S64x8192 e r).trans ?_
  rw [shapeCast_self, shapeCast_self]
  exact Cert.Lib.Dot11.matmul_zero_at dot_S8192x128_S64x128_S8192x64_1_1_0_0_n_n rfl rfl rfl rfl rfl rfl none x w r e

/-- A column's maximum is the row of logits' maximum. -/
theorem colMax_apply (x : FVec Ideal S8192x128 .f32) (w : FVec Ideal S64x128 .f32) (r : Fin 8192) :
    colMax x w (ix1 r) = Cert.Spec.rowMax (blockLogit x w) r := by
  unfold colMax
  refine (Ideal.multiReduction_maximumf_single (logitsT x w) 0xFF800000#32 reduces_S64x8192_S8192 (.inl rfl) rfl (ix1 r)).trans ?_
  show Finset.univ.fold max (Ideal.ofBits .f32 0xFF800000#32) _ = _
  rw [ofBits_f32_neg_inf]
  unfold Cert.Spec.rowMax
  refine congrArg (fun f => (Finset.univ : Finset (Fin 64)).fold max (⊥ : EReal) f) (funext fun k => ?_)
  have hk : reduces_S64x8192_S8192.lift (ix1 r) k = ix2 k r := funext fun a => Fin.ext (by
    match a with
    | ⟨0, _⟩ => rfl
    | ⟨1, _⟩ => rfl)
  show logitsT x w (reduces_S64x8192_S8192.lift (ix1 r) k) = _
  rw [hk]; exact logitsT_apply x w k r

/-- An exponential at an index. -/
theorem expT_apply (x : FVec Ideal S8192x128 .f32) (w : FVec Ideal S64x128 .f32) (e : Fin 64) (r : Fin 8192) :
    expT x w (ix2 e r) = Cert.Spec.ex (blockLogit x w) r e := by
  unfold expT Cert.Spec.ex
  show Ideal.exp (logitsT x w (ix2 e r) - broadcastTo S64x8192 (shapeCast S1x8192 (colMax x w) shapeCasts_S8192_S1x8192)
    broadcasts_S1x8192_S64x8192 (ix2 e r)) = _
  rw [Cert.Lib.Rows.broadcastTo_row_apply, Cert.Lib.Rows.shapeCast_row_apply, colMax_apply, logitsT_apply]

/-- A column's sum of exponentials is the row's. -/
theorem colSum_apply (x : FVec Ideal S8192x128 .f32) (w : FVec Ideal S64x128 .f32) (r : Fin 8192) :
    colSum x w (ix1 r) = Cert.Spec.den (blockLogit x w) r := by
  unfold colSum
  refine (Ideal.multiReduction_add_single (expT x w) 0x00000000#32 reduces_S64x8192_S8192 (.inl rfl) rfl (ix1 r)).trans ?_
  unfold Cert.Spec.den
  refine Finset.sum_congr rfl fun k _ => ?_
  have hk : reduces_S64x8192_S8192.lift (ix1 r) k = ix2 k r := funext fun a => Fin.ext (by
    match a with
    | ⟨0, _⟩ => rfl
    | ⟨1, _⟩ => rfl)
  rw [hk]; exact expT_apply x w k r

/-- THE STORED VALUE AT AN INDEX: the softmax, in the reciprocal form, of the row of logits. -/
theorem pay_apply (x : Vec Ideal Cert.KernelIdeal.S8192x128 .f32) (w : Vec Ideal Cert.KernelIdeal.S64x128 .f32) (e : Fin 64) (r : Fin 8192) :
    Cert.KernelIdeal.Gen.k1_pay1 (F := Ideal) x w (Idealize.ShloMosaic.ValueIdx.ix2 e r) = Cert.Spec.smaxK (blockLogit x w) r e := by
  rw [pay_eq]
  unfold Cert.Spec.smaxK
  show expT x w (ix2 e r) * broadcastTo S64x8192
      (divf (broadcast S1x8192 (FloatOps.ofBits (F := Ideal) .f32 0x3F800000#32))
        (shapeCast S1x8192 (colSum x w) shapeCasts_S8192_S1x8192)) broadcasts_S1x8192_S64x8192 (ix2 e r) = _
  rw [Cert.Lib.Rows.broadcastTo_row_apply, expT_apply]
  show _ * Ideal.div (Ideal.ofBits .f32 0x3F800000#32)
      (shapeCast S1x8192 (colSum x w) shapeCasts_S8192_S1x8192 (ix2 0 r)) = _
  rw [Cert.Lib.Rows.shapeCast_row_apply, colSum_apply]

end Cert.BodyValue

end
-- ==== Proof.KValue.lean ====
/-
  The idealized kernel's result, read at an index, is the specification in its reciprocal form.

  Entry (i, e) of the result is entry (e, i) of the TensorCore region's result array, which is entry (e, i % 8192) of
  the block program on block i / 8192 of the gathered rows and the transposed weights: the softmax, in the reciprocal
  form, of row i % 8192 of that block's logits at its e-th entry. Row r of block t of the gathered rows is gathered row
  t * 8192 + r, gathered row i is the table's row named by the word at (i / 128, i % 128) of the re-laid index array,
  which is word 128 (i / 128) + i % 128 = i of the index array; and the transposed weights at (e, k) are the weights
  at (k, e). So the block's logits in row i % 8192 are the specification's logits of example i, and a softmax depends on
  its row of logits only.
-/
import proofs.«207835_g56727928045975_cont_9to1_m_1027_16_alg».proof.Proof.KDefs
import proofs.«207835_g56727928045975_cont_9to1_m_1027_16_alg».proof.Proof.BodyValue
import proofs.«207835_g56727928045975_cont_9to1_m_1027_16_alg».proof.Proof.Spec

noncomputable section

open scoped BigOperators

namespace Cert.KSide

open Cert.KernelIdeal Cert.KernelIdeal.Gen
open Idealize.ShloMosaic Idealize.ShloMosaic.ValueIdx

/-! ## The softmax of a row depends on that row only -/

/-- Two families of logits that agree on a pair of rows have the same maximum there. -/
theorem rowMax_congr {n m : Nat} (L : Fin n → Fin 64 → EReal) (L' : Fin m → Fin 64 → EReal) (r : Fin n) (r' : Fin m)
    (h : ∀ e : Fin 64, L r e = L' r' e) : Cert.Spec.rowMax L r = Cert.Spec.rowMax L' r' := by
  unfold Cert.Spec.rowMax
  exact congrArg (fun f => (Finset.univ : Finset (Fin 64)).fold max (⊥ : EReal) f) (funext h)

/-- … the same exponentials … -/
theorem ex_congr {n m : Nat} (L : Fin n → Fin 64 → EReal) (L' : Fin m → Fin 64 → EReal) (r : Fin n) (r' : Fin m)
    (h : ∀ e : Fin 64, L r e = L' r' e) (e : Fin 64) : Cert.Spec.ex L r e = Cert.Spec.ex L' r' e := by
  unfold Cert.Spec.ex
  rw [h e, rowMax_congr L L' r r' h]

/-- … the same sum of exponentials … -/
theorem den_congr {n m : Nat} (L : Fin n → Fin 64 → EReal) (L' : Fin m → Fin 64 → EReal) (r : Fin n) (r' : Fin m)
    (h : ∀ e : Fin 64, L r e = L' r' e) : Cert.Spec.den L r = Cert.Spec.den L' r' := by
  unfold Cert.Spec.den
  exact Finset.sum_congr rfl fun e _ => ex_congr L L' r r' h e

/-- … and the same softmax. -/
theorem smaxK_congr {n m : Nat} (L : Fin n → Fin 64 → EReal) (L' : Fin m → Fin 64 → EReal) (r : Fin n) (r' : Fin m)
    (h : ∀ e : Fin 64, L r e = L' r' e) (e : Fin 64) : Cert.Spec.smaxK L r e = Cert.Spec.smaxK L' r' e := by
  unfold Cert.Spec.smaxK
  rw [ex_congr L L' r r' h e, den_congr L L' r r' h]

/-! ## The layout operations at an index -/

/-- The re-laid index array at (p, q) is word 128 p + q of the index array. -/
theorem idx2_apply (a0 : IVec S16384x1 32) (p q : Fin 128) :
    idx2 a0 (ix2 p q) = a0 (ix2 (⟨128 * p.val + q.val, by omega⟩ : Fin 16384) (0 : Fin 1)) := by
  unfold idx2
  refine (shapeCast_apply _ Facts₀.shapeCasts_S16384_S128x128 (ix2 p q)
    (ix1 (⟨128 * p.val + q.val, by omega⟩ : Fin 16384)) ?_).trans ?_
  · rw [Shape.rowMajor_val_two, Shape.rowMajor_val_one]
    show 128 * p.val + q.val = p.val * 128 + q.val
    omega
  · refine shapeCast_apply _ Facts₀.shapeCasts_S16384x1_S16384 _ _ ?_
    rw [Shape.rowMajor_val_two, Shape.rowMajor_val_one]
    show (128 * p.val + q.val) * 1 + 0 = 128 * p.val + q.val
    omega

/-- The transposed weights at (e, k) are the weights at (k, e). -/
theorem wT_apply (a2 : FVec Ideal S128x64 .f32) (e : Fin 64) (k : Fin 128) :
    wT (F := Ideal) a2 (ix2 e k) = a2 (ix2 k e) := by
  unfold wT
  exact transpose_ix2_apply a2 Facts₀.transposes_S128x64_S64x128_1_0 e k

/-- The precondition on the index array holds of the re-laid array. -/
theorem idx2_lt (a0 : IVec S16384x1 32)
    (hidx : ∀ i : Fin 16384, (a0 (Idealize.ShloMosaic.ValueIdx.ix2 i (0 : Fin 1))).toNat < 100000) :
    ∀ j : S128x128.Idx, (idx2 a0 j).toNat < 100000 := by
  intro j
  obtain ⟨p, q, rfl⟩ : ∃ (p q : Fin 128), j = ix2 p q := ⟨j 0, j 1, eq_ix2 j⟩
  rw [idx2_apply]
  exact hidx _

/-- Gathered row i is the table's row the specification selects for example i. -/
theorem embF_apply (a0 : IVec S16384x1 32) (a1 : FVec Ideal S100000x128 .f32) (i : Fin 16384) (k : Fin 128) :
    embF (idx2 a0) a1 (ix2 i k) = a1 (ix2 (Cert.Spec.rowOf a0 i) k) := by
  unfold embF Cert.Spec.rowOf
  show a1 (ix2 _ k) = a1 (ix2 _ k)
  refine congrArg (fun z => a1 (ix2 z k)) (Fin.ext ?_)
  show (idx2 a0 (ix2 (⟨i.val / 128, _⟩ : Fin 128) (⟨i.val % 128, _⟩ : Fin 128))).toNat % 100000 = (a0 (ix2 i (0 : Fin 1))).toNat % 100000
  rw [idx2_apply]
  have hi : (⟨128 * (i.val / 128) + i.val % 128, by omega⟩ : Fin 16384) = i := Fin.ext (by show 128 * (i.val / 128) + i.val % 128 = i.val; omega)
  rw [hi]

/-- The logits of block i / 8192 in row i % 8192 are the logits of example i. -/
theorem blockLogit_eq (a0 : IVec S16384x1 32) (a1 : FVec Ideal S100000x128 .f32) (a2 : FVec Ideal S128x64 .f32)
    (i : Fin 16384) (e : Fin 64) :
    Cert.BodyValue.blockLogit (blockOf (F := Ideal) (embF (idx2 a0) a1) (⟨i.val / 8192, by omega⟩ : Fin 2)) (wT (F := Ideal) a2)
        (⟨i.val % 8192, Nat.mod_lt _ (by norm_num)⟩ : Fin 8192) e
      = Cert.Spec.logit a0 a1 a2 i e := by
  unfold Cert.BodyValue.blockLogit Cert.Spec.logit
  refine Finset.sum_congr rfl fun k _ => ?_
  rw [wT_apply]
  refine congrArg (fun z => z * a2 (ix2 k e)) ?_
  show embF (idx2 a0) a1 (ix2 (⟨i.val / 8192 * 8192 + i.val % 8192, _⟩ : Fin 16384) k) = _
  have hi : (⟨i.val / 8192 * 8192 + i.val % 8192, by omega⟩ : Fin 16384) = i := Fin.ext (by show i.val / 8192 * 8192 + i.val % 8192 = i.val; omega)
  rw [hi, embF_apply]

/-! ## The result -/

/-- The kernel's result is the specification in its reciprocal form. -/
theorem kerOut_eq (a0 : IVec Cert.KernelIdeal.S16384x1 32) (a1 : FVec Ideal Cert.KernelIdeal.S100000x128 .f32)
    (a2 : FVec Ideal Cert.KernelIdeal.S128x64 .f32)
    (hidx : ∀ i : Fin 16384, (a0 (Idealize.ShloMosaic.ValueIdx.ix2 i (0 : Fin 1))).toNat < 100000) :
    kerOut (F := Ideal) a0 a1 a2 = Cert.Spec.softK a0 a1 a2 := by
  funext j
  obtain ⟨i, e, rfl⟩ : ∃ (i : Fin 16384) (e : Fin 64), j = ix2 i e := ⟨j 0, j 1, eq_ix2 j⟩
  unfold kerOut
  refine (transpose_ix2_apply _ Facts₀.transposes_S64x16384_S16384x64_1_0 i e).trans ?_
  unfold regionOut
  show k1_pay1 (F := Ideal) (blockOf (F := Ideal) (embF (idx2 a0) a1) (⟨i.val / 8192, _⟩ : Fin 2)) (wT (F := Ideal) a2)
      (ix2 e (⟨i.val % 8192, _⟩ : Fin 8192)) = Cert.Spec.smaxK (Cert.Spec.logit a0 a1 a2) i e
  rw [Cert.BodyValue.pay_apply]
  exact smaxK_congr _ _ _ _ (fun e' => blockLogit_eq a0 a1 a2 i e') e

end Cert.KSide

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.RefRun.lean ====
/-
  The reference program's run, read back.

  The reference is a host program with no kernel: a reshape of the index array, a row lookup in the table
  (written through two outlined functions: negative indices wrapped, a range test, a gather, and a select
  between the gathered row and a not-a-number constant), a matrix product with the weights and a softmax of
  each row. Its operations are listed here in order, the two functions' bodies inline at their call sites over
  the calls' buffers; the program is that list run in sequence, so every weakly fair execution terminates with
  the result buffer at the operations' composed term of the three arguments, and the arguments unchanged.

  The composed term is stated in stages: the wrapped index column, the range mask, the looked-up rows, the
  logits, and the softmax of a matrix of logits.
-/
import proofs.«207835_g56727928045975_cont_9to1_m_1027_16_alg».proof.Proof.Gen.ReferenceIdeal
import proofs.«207835_g56727928045975_cont_9to1_m_1027_16_alg».proof.Proof.LibStages
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem
  Idealize.ShloMosaic.StableHlo

/-! ## The composed term, in stages -/

/-- The index words as one vector of 16384. -/
def idxFlat (a0 : IVec S16384x1 32) : IVec S16384 32 :=
  shapeCast S16384 a0 shapeCasts_S16384x1_S16384

/-- A negative index has 100000 added. -/
def idxWrapped (a0 : IVec S16384x1 32) : IVec S16384 32 :=
  select (cmpi .slt (idxFlat a0) (broadcastInDim S16384 ![] bcast_S_S16384 (constantI S_ 32 0#32)))
    (addi (idxFlat a0) (broadcastInDim S16384 ![] bcast_S_S16384 (constantI S_ 32 100000#32)))
    (idxFlat a0)

/-- The wrapped indices as a column. -/
def idxCol (a0 : IVec S16384x1 32) : IVec S16384x1 32 :=
  broadcastInDim S16384x1 ![0] bcast_S16384_S16384x1_0 (idxWrapped a0)

/-- Per example: the wrapped index lies between 0 and 99999. -/
def inRange (a0 : IVec S16384x1 32) : IVec S16384 1 :=
  Host.reduce IntOp.andi
    (andi (cmpi .sge (idxCol a0) (broadcastInDim S16384x1 ![] bcast_S_S16384x1 (constantI S_ 32 0#32)))
      (cmpi .sle (idxCol a0)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The looked-up rows: the table's row at the wrapped index where it is in range, not-a-number elsewhere. -/
def taken (a0 : IVec S16384x1 32) (a1 : FVec Ideal S100000x128 .f32) : FVec Ideal S16384x128 .f32 :=
  select (broadcastInDim S16384x128 ![0] bcast_S16384_S16384x128_0 (inRange a0))
    (Host.gather gather_S100000x128_S16384x1_S16384x128_1_0_n_n_0_1_1128 a1 (idxCol a0))
    (broadcastInDim S16384x128 ![] bcast_S_S16384x128 (constant S_ .f32 0x7FC00000#32))

/-- The logits: the looked-up rows times the weights. -/
def logits (a0 : IVec S16384x1 32) (a1 : FVec Ideal S100000x128 .f32) (a2 : FVec Ideal S128x64 .f32) :
    FVec Ideal S16384x64 .f32 :=
  Host.dotGeneral dot_S16384x128_S128x64_S16384x64_1_0_0_1_n_n none (taken a0 a1) a2

/-- Each row's maximum (folded from minus infinity, then once more against minus infinity). -/
def rowMaxV (L : FVec Ideal S16384x64 .f32) : FVec Ideal S16384 .f32 :=
  maximumf (broadcastInDim S16384 ![] bcast_S_S16384 (constant S_ .f32 0xFF800000#32))
    (Host.reduce FloatOps.maximumf L (constant S_ .f32 0xFF800000#32) reducesTo_S16384x64_S16384_d1 h_S_)

/-- A vector with one entry per row spread over the row's 64 columns. -/
def spread (v : FVec Ideal S16384 .f32) : FVec Ideal S16384x64 .f32 :=
  broadcastInDim S16384x64 ![0, 1] bcast_S16384x1_S16384x64_0_1
    (broadcastInDim S16384x1 ![0] bcast_S16384_S16384x1_0 v)

/-- The exponentials of the entries less their row's maximum. -/
def exps (L : FVec Ideal S16384x64 .f32) : FVec Ideal S16384x64 .f32 :=
  Host.exp (subf L (spread (rowMaxV L)))

/-- Each row's sum, from zero. -/
def sums (E : FVec Ideal S16384x64 .f32) : FVec Ideal S16384 .f32 :=
  Host.reduceAdd E (constant S_ .f32 0x00000000#32) reducesTo_S16384x64_S16384_d1 h_S_

/-- The softmax of each row. -/
def softOf (L : FVec Ideal S16384x64 .f32) : FVec Ideal S16384x64 .f32 :=
  Host.divf (exps L) (spread (sums (exps L)))

/-- The reference's result as a function of its three arguments. -/
def refTerm (a0 : IVec Cert.ReferenceIdeal.S16384x1 32) (a1 : FVec Ideal Cert.ReferenceIdeal.S100000x128 .f32)
    (a2 : FVec Ideal Cert.ReferenceIdeal.S128x64 .f32) : FVec Ideal Cert.ReferenceIdeal.S16384x64 .f32 :=
  softOf (logits a0 a1 a2)

/-! ## The operations -/

variable {F : FTy → Type} [FloatOps F]

/-- The program's 39 operations in order: the reshape, the lookup's 23 (the inner select among them), and the
    product and softmax's 15. -/
abbrev ops : List (HloOp τ sig (Elt F)) :=
  [ reshape main_arg0 main_v0 rfl shapeCasts_S16384x1_S16384,
    TRef.nullary main_call0.c (constantI S_ 32 0#32),
    TRef.unary main_call0.c main_call0.v0 (broadcastInDim S16384 ![] bcast_S_S16384),
    TRef.binary (.of main_v0) main_call0.v0 main_call0.v1 (cmpi .slt),
    TRef.nullary main_call0.c_0 (constantI S_ 32 100000#32),
    TRef.unary main_call0.c_0 main_call0.v2 (broadcastInDim S16384 ![] bcast_S_S16384),
    TRef.binary (.of main_v0) main_call0.v2 main_call0.v3 addi,
    TRef.ternary main_call0.v1 main_call0.v3 (.of main_v0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    binary main_v1 main_arg2 main_v2 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    nullary main_cst (constant S_ .f32 0xFF800000#32),
    binary main_v2 main_cst main_v3 ((fun x v => Host.reduce FloatOps.maximumf x v reducesTo_S16384x64_S16384_d1 h_S_) : (⟨S16384x64, .f32⟩ : BufTy).Contents (Elt F) → (⟨S_, .f32⟩ : BufTy).Contents (Elt F) → (⟨S16384, .f32⟩ : BufTy).Contents (Elt F)),
    nullary main_cst_0 (constant S_ .f32 0xFF800000#32),
    unary main_cst_0 main_v4 (broadcastInDim S16384 ![] bcast_S_S16384 : (⟨S_, .f32⟩ : BufTy).Contents (Elt F) → (⟨S16384, .f32⟩ : BufTy).Contents (Elt F)),
    binary main_v4 main_v3 main_v5 (maximumf : (⟨S16384, .f32⟩ : BufTy).Contents (Elt F) → (⟨S16384, .f32⟩ : BufTy).Contents (Elt F) → (⟨S16384, .f32⟩ : BufTy).Contents (Elt F)),
    unary main_v5 main_v6 (broadcastInDim S16384x1 ![0] bcast_S16384_S16384x1_0 : (⟨S16384, .f32⟩ : BufTy).Contents (Elt F) → (⟨S16384x1, .f32⟩ : BufTy).Contents (Elt F)),
    unary main_v6 main_v7 (broadcastInDim S16384x64 ![0, 1] bcast_S16384x1_S16384x64_0_1 : (⟨S16384x1, .f32⟩ : BufTy).Contents (Elt F) → (⟨S16384x64, .f32⟩ : BufTy).Contents (Elt F)),
    binary main_v2 main_v7 main_v8 (subf : (⟨S16384x64, .f32⟩ : BufTy).Contents (Elt F) → (⟨S16384x64, .f32⟩ : BufTy).Contents (Elt F) → (⟨S16384x64, .f32⟩ : BufTy).Contents (Elt F)),
    unary main_v8 main_v9 (Host.exp : (⟨S16384x64, .f32⟩ : BufTy).Contents (Elt F) → (⟨S16384x64, .f32⟩ : BufTy).Contents (Elt F)),
    nullary main_cst_1 (constant S_ .f32 0x00000000#32),
    binary main_v9 main_cst_1 main_v10 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v10 main_v11 (broadcastInDim S16384x1 ![0] bcast_S16384_S16384x1_0 : (⟨S16384, .f32⟩ : BufTy).Contents (Elt F) → (⟨S16384x1, .f32⟩ : BufTy).Contents (Elt F)),
    unary main_v11 main_v12 (broadcastInDim S16384x64 ![0, 1] bcast_S16384x1_S16384x64_0_1 : (⟨S16384x1, .f32⟩ : BufTy).Contents (Elt F) → (⟨S16384x64, .f32⟩ : BufTy).Contents (Elt F)),
    binary main_v9 main_v12 main_v13 (Host.divf : (⟨S16384x64, .f32⟩ : BufTy).Contents (Elt F) → (⟨S16384x64, .f32⟩ : BufTy).Contents (Elt F) → (⟨S16384x64, .f32⟩ : BufTy).Contents (Elt F)) ]

set_option maxRecDepth 1024 in
/-- The program is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub ..⟩

/-! ## The fold read back -/

attribute [local irreducible] Host.reduce Host.gather Host.reduceAdd Host.exp Host.divf in
set_option maxRecDepth 8192 in
set_option maxHeartbeats 1000000 in
/-- The fold of the operations at the result buffer is the composed term of the three arguments: each operation's
    result read at its own buffer, the rest kept; the typed references' casts are the identity at literal references. -/
theorem out_eq (V : Valuation τ sig (Elt Ideal)) :
    after (ops (F := Ideal)) V (main_v13 : DevRef τ sig)
      = refTerm (V (main_arg0 : DevRef τ sig)) (V (main_arg1 : DevRef τ sig)) (V (main_arg2 : DevRef τ sig)) := by
  after_results_simp
  rfl

set_option maxRecDepth 8192 in
theorem arg0_eq (V : Valuation τ sig (Elt Ideal)) :
    after (ops (F := Ideal)) V (main_arg0 : DevRef τ sig) = V (main_arg0 : DevRef τ sig) := by
  after_results_simp

set_option maxRecDepth 8192 in
theorem arg1_eq (V : Valuation τ sig (Elt Ideal)) :
    after (ops (F := Ideal)) V (main_arg1 : DevRef τ sig) = V (main_arg1 : DevRef τ sig) := by
  after_results_simp

set_option maxRecDepth 8192 in
theorem arg2_eq (V : Valuation τ sig (Elt Ideal)) :
    after (ops (F := Ideal)) V (main_arg2 : DevRef τ sig) = V (main_arg2 : DevRef τ sig) := by
  after_results_simp

/-! ## The run -/

/-- From any memory with zero counters: every weakly fair execution of the reference terminates with the result
    buffer at the composed term of the arguments' launch contents, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v13)
            = refTerm (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c => ⟨(h c main_v13).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m g)

end Cert.RefSide

end
-- ==== Proof.LibScatterGather.lean ====
/-
  A gather of ROWS and a scatter of ROWS, read at an index.

  `stablehlo.gather` of a rank-2 operand [H, W] at start indices [N, 1] with the row axis collapsed and named by the
  start index and the column axis kept whole (offset_dims [1], collapsed_slice_dims [0], start_index_map [0],
  index_vector_dim 1, slice sizes [1, W]) gives [N, W]: result element (e, q) is the operand at (row, q), the row being
  start index e read as a signed integer and clamped into the axis.

  `stablehlo.scatter` of updates [N, W] into an operand [H, W] at scatter indices [N, 1] (update_window_dims [1],
  inserted_window_dims [0], scatter_dims_to_operand_dims [0], index_vector_dim 1): update element (e, q) lands at
  (row, q), the row being scatter index e read as a signed integer and NOT clamped; an update whose row is outside the
  operand is dropped. With an addition as the body, at the extended reals, element (r, c) of the result is the
  operand's plus the sum over the e whose scatter index is r of update (e, c).

  Generic in the extents; the records' conditions `wf` are decided on literal shapes.
-/
import Idealize.ShloMosaic.PureOps
import Idealize.ShloMosaic.Lib.ValueIdx

noncomputable section

open scoped BigOperators

namespace Cert.LibScatterGather

open Idealize.ShloMosaic Idealize.ShloMosaic.ValueIdx

variable {α : Type}

/-! ## The row gather -/

/-- The dimension numbers of a row gather from `[H, W]` at start indices `[N, 1]` into `[N, W]`. -/
abbrev rowGatherDims (H W N : Nat)
    (wf : GatherDims.WF ⟨2, ![H, W]⟩ ⟨2, ![N, 1]⟩ ⟨2, ![N, W]⟩ [1] [0] [] [0] [] 1 ![1, W]) :
    GatherDims ⟨2, ![H, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

section Gather
variable {H W N w : Nat}
  (wf : GatherDims.WF ⟨2, ![H, W]⟩ ⟨2, ![N, 1]⟩ ⟨2, ![N, W]⟩ [1] [0] [] [0] [] 1 ![1, W])
  (idx : IVec ⟨2, ![N, 1]⟩ w) (e : Fin N) (q : Fin W)

/-- The operand row a result element reads: its start index, signed, clamped. -/
theorem gather_row : ((rowGatherDims H W N wf).operandIdx (ix2 e q) idx (0 : Fin 2)).val
    = min (idx (ix2 e (0 : Fin 1))).toInt.toNat (H - 1) := by
  show (rowGatherDims H W N wf).start (ix2 e q) idx 0 + (rowGatherDims H W N wf).batchCoord (ix2 e q) 0
      + (rowGatherDims H W N wf).offCoord (ix2 e q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims H W N wf).startIndexMap from List.mem_cons_self)]
  have hsi : (rowGatherDims H W N wf).siIdx (ix2 e q) ⟨List.idxOf (0 : Fin 2) (rowGatherDims H W N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- On the kept column axis a result element reads its own column. -/
theorem gather_col : ((rowGatherDims H W N wf).operandIdx (ix2 e q) idx (1 : Fin 2)).val = q.val := by
  show (rowGatherDims H W N wf).start (ix2 e q) idx 1 + (rowGatherDims H W N wf).batchCoord (ix2 e q) 1
      + (rowGatherDims H W N wf).offCoord (ix2 e q) 1 = _
  rw [GatherDims.batchCoord_eq_zero _ _ _ List.not_mem_nil]
  have hnot : (1 : Fin 2) ∉ (rowGatherDims H W N wf).startIndexMap :=
    (by decide : (1 : Fin 2) ∉ ([0] : List (Fin 2)))
  have hk : (1 : Fin 2) ∈ (rowGatherDims H W N wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(e, q)`: the operand at (row, q), the row being start index `e` read signed and clamped
    into the axis. -/
theorem gather_rows_apply (hH : 0 < H) (x : (⟨2, ![H, W]⟩ : Shape).Idx → α) :
    Host.gather (rowGatherDims H W N wf) x idx (ix2 e q)
      = x (ix2 ⟨min (idx (ix2 e (0 : Fin 1))).toInt.toNat (H - 1), by omega⟩ q) := by
  unfold Host.gather
  refine congrArg x (funext fun a => Fin.ext ?_)
  match a with
  | ⟨0, _⟩ => exact gather_row wf idx e q
  | ⟨1, _⟩ => exact gather_col wf idx e q

end Gather

/-! ## The row scatter -/

/-- The dimension numbers of a row scatter of updates `[N, W]` into `[H, W]` at scatter indices `[N, 1]`. -/
abbrev rowScatterDims (H W N : Nat)
    (wf : ScatterDims.WF ⟨2, ![H, W]⟩ ⟨2, ![N, 1]⟩ ⟨2, ![N, W]⟩ [1] [0] [0] 1) :
    ScatterDims ⟨2, ![H, W]⟩ ⟨2, ![N, 1]⟩ ⟨2, ![N, W]⟩ where
  updateWindowDims := [1]
  insertedWindowDims := [0]
  scatterDimsToOperandDims := [0]
  indexVectorDim := 1
  wf := wf

section Scatter
variable {H W N w : Nat}
  (wf : ScatterDims.WF ⟨2, ![H, W]⟩ ⟨2, ![N, 1]⟩ ⟨2, ![N, W]⟩ [1] [0] [0] 1)
  (idx : IVec ⟨2, ![N, 1]⟩ w) (e : Fin N) (q : Fin W)

/-- The window's start on the row axis: scatter index `e`, read signed. -/
theorem scatter_start0 : (rowScatterDims H W N wf).start (ix2 e q) idx (0 : Fin 2) = (idx (ix2 e (0 : Fin 1))).toInt := by
  unfold ScatterDims.start
  rw [dif_pos (show (0 : Fin 2) ∈ (rowScatterDims H W N wf).scatterDimsToOperandDims from List.mem_cons_self)]
  have hsi : (rowScatterDims H W N wf).siIdx (ix2 e q) ⟨List.idxOf (0 : Fin 2) (rowScatterDims H W N wf).scatterDimsToOperandDims,
      List.idxOf_lt_length_iff.2 List.mem_cons_self⟩ = ix2 e (0 : Fin 1) := by
    funext b; refine Fin.ext ?_
    match b with
    | ⟨0, _⟩ => rfl
    | ⟨1, _⟩ => rfl
  rw [hsi]

/-- The window's start on the column axis is 0: the map does not name it. -/
theorem scatter_start1 : (rowScatterDims H W N wf).start (ix2 e q) idx (1 : Fin 2) = 0 := by
  unfold ScatterDims.start
  rw [dif_neg (by decide : (1 : Fin 2) ∉ ([0] : List (Fin 2)))]

/-- The window coordinate on the row axis is 0: the axis is inserted. -/
theorem scatter_window0 : (rowScatterDims H W N wf).window (ix2 e q) (0 : Fin 2) = 0 := by
  unfold ScatterDims.window
  rw [dif_neg (by simp [Shape.kept, List.mem_filter, List.mem_finRange] : (0 : Fin 2) ∉ (⟨2, ![H, W]⟩ : Shape).kept ([0] : List (Fin 2)))]

/-- The window coordinate on the column axis is the update's column. -/
theorem scatter_window1 : (rowScatterDims H W N wf).window (ix2 e q) (1 : Fin 2) = q.val := by
  unfold ScatterDims.window
  rw [dif_pos (by simp [Shape.kept, List.mem_filter, List.mem_finRange] : (1 : Fin 2) ∈ (⟨2, ![H, W]⟩ : Shape).kept ([0] : List (Fin 2)))]
  rfl

/-- THE ROW SCATTER'S LANDING INDEX: update `(e, q)` lands at `(r, c)` exactly when scatter index `e`, read signed,
    is `r`, and `q = c`. -/
theorem scatter_rows_resultIdx_eq (r : Fin H) (c : Fin W) :
    (rowScatterDims H W N wf).resultIdx? (ix2 e q) idx = some (ix2 r c)
      ↔ (idx (ix2 e (0 : Fin 1))).toInt = (r.val : Int) ∧ q = c := by
  have h0 := scatter_start0 wf idx e q
  have h1 := scatter_start1 wf idx e q
  have w0 := scatter_window0 wf e q
  have w1 := scatter_window1 wf e q
  unfold ScatterDims.resultIdx?
  constructor
  · intro h
    split at h
    · rename_i hall
      have heq := Option.some.inj h
      have e0 := congrArg (fun f => (f (0 : Fin 2)).val) heq
      have e1 := congrArg (fun f => (f (1 : Fin 2)).val) heq
      simp only at e0 e1
      have hb0 := (hall 0).1
      rw [h0, w0] at e0 hb0
      rw [h1, w1] at e1
      refine ⟨?_, Fin.ext ?_⟩
      · have : ((idx (ix2 e (0 : Fin 1))).toInt + ((0 : Nat) : Int)).toNat = r.val := e0
        omega
      · have : ((0 : Int) + (q.val : Int)).toNat = c.val := e1
        omega
    · exact absurd h (by simp)
  · rintro ⟨hr, rfl⟩
    have hall : ∀ a : Fin 2, 0 ≤ (rowScatterDims H W N wf).start (ix2 e q) idx a + ((rowScatterDims H W N wf).window (ix2 e q) a : Int)
        ∧ (rowScatterDims H W N wf).start (ix2 e q) idx a + ((rowScatterDims H W N wf).window (ix2 e q) a : Int)
          < ((⟨2, ![H, W]⟩ : Shape).size a : Int) := by
      intro a
      match a with
      | ⟨0, _⟩ =>
        show 0 ≤ (rowScatterDims H W N wf).start (ix2 e q) idx 0 + (((rowScatterDims H W N wf).window (ix2 e q) 0 : Nat) : Int)
          ∧ (rowScatterDims H W N wf).start (ix2 e q) idx 0 + (((rowScatterDims H W N wf).window (ix2 e q) 0 : Nat) : Int) < (H : Int)
        rw [h0, w0, hr]; have := r.isLt; omega
      | ⟨1, _⟩ =>
        show 0 ≤ (rowScatterDims H W N wf).start (ix2 e q) idx 1 + (((rowScatterDims H W N wf).window (ix2 e q) 1 : Nat) : Int)
          ∧ (rowScatterDims H W N wf).start (ix2 e q) idx 1 + (((rowScatterDims H W N wf).window (ix2 e q) 1 : Nat) : Int) < (W : Int)
        rw [h1, w1]; have := q.isLt; omega
    rw [dif_pos hall]
    refine congrArg some (funext fun a => Fin.ext ?_)
    match a with
    | ⟨0, _⟩ =>
      show ((rowScatterDims H W N wf).start (ix2 e q) idx 0 + (((rowScatterDims H W N wf).window (ix2 e q) 0 : Nat) : Int)).toNat = r.val
      rw [h0, w0, hr]; omega
    | ⟨1, _⟩ =>
      show ((rowScatterDims H W N wf).start (ix2 e q) idx 1 + (((rowScatterDims H W N wf).window (ix2 e q) 1 : Nat) : Int)).toNat = q.val
      rw [h1, w1]; omega

end Scatter

/-- THE ACCUMULATING ROW SCATTER READ AT `(r, c)`, at the extended reals: the operand's element plus the sum, over
    the update rows `e` whose scatter index read signed is `r`, of update `(e, c)`. -/
theorem scatterAdd_rows_apply {H W N w : Nat}
    (wf : ScatterDims.WF ⟨2, ![H, W]⟩ ⟨2, ![N, 1]⟩ ⟨2, ![N, W]⟩ [1] [0] [0] 1)
    (x : (⟨2, ![H, W]⟩ : Shape).Idx → EReal) (idx : IVec ⟨2, ![N, 1]⟩ w)
    (upd : (⟨2, ![N, W]⟩ : Shape).Idx → EReal) (r : Fin H) (c : Fin W) :
    Ideal.hostScatterAdd (rowScatterDims H W N wf) x idx upd (ix2 r c)
      = x (ix2 r c) + ∑ e ∈ Finset.univ.filter (fun e : Fin N => (idx (ix2 e (0 : Fin 1))).toInt = (r.val : Int)),
          upd (ix2 e c) := by
  unfold Ideal.hostScatterAdd
  refine congrArg (x (ix2 r c) + ·) ?_
  rw [Finset.sum_filter, sum_idx2, Finset.sum_filter]
  refine Finset.sum_congr rfl fun e _ => ?_
  by_cases he : (idx (ix2 e (0 : Fin 1))).toInt = (r.val : Int)
  · rw [if_pos he]
    rw [Finset.sum_eq_single c]
    · rw [if_pos ((scatter_rows_resultIdx_eq wf idx e c r c).mpr ⟨he, rfl⟩)]
    · intro q _ hq
      rw [if_neg (fun h => hq ((scatter_rows_resultIdx_eq wf idx e q r c).mp h).2)]
    · intro h; exact absurd (Finset.mem_univ c) h
  · rw [if_neg he]
    refine Finset.sum_eq_zero fun q _ => ?_
    rw [if_neg (fun h => he ((scatter_rows_resultIdx_eq wf idx e q r c).mp h).1)]

end Cert.LibScatterGather

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«207835_g56727928045975_cont_9to1_m_1027_16_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.RefValue.lean ====
/-
  The reference's composed term is the specification's function, index by index.

  Under the precondition that every index word, read as a natural number, is below the table's height: the word's
  signed reading is its natural one, so the wrap of negative indices is not taken, the range test passes, the
  select takes the gathered row and the gather's clamp does nothing; the looked-up row is the table's row at the
  word. The matrix product read at an index is the sum over the contracted extent; the row maximum is the fold of
  the lattice maximum from the bottom (the second maximum against the bottom changes nothing); the row sum is the
  sum from zero; the two broadcasts spread a per-row number over the row.
-/
import proofs.«207835_g56727928045975_cont_9to1_m_1027_16_alg».proof.Proof.RefRun
import proofs.«207835_g56727928045975_cont_9to1_m_1027_16_alg».proof.Proof.Spec
import proofs.«207835_g56727928045975_cont_9to1_m_1027_16_alg».proof.Proof.LibScatterGather
import proofs.«207835_g56727928045975_cont_9to1_m_1027_16_alg».proof.Proof.LibDot2
import proofs.«207835_g56727928045975_cont_9to1_m_1027_16_alg».proof.Proof.LibRows
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefSide

open Cert.ReferenceIdeal Cert.ReferenceIdeal.Gen Idealize.ShloMosaic Idealize.ShloMosaic.ValueIdx

/-! ## An index word below the table's height -/

section Word
variable {w : BitVec 32} (hw : w.toNat < 100000)
include hw

/-- The signed reading of a small word is its natural one. -/
theorem word_toInt : w.toInt = (w.toNat : Int) := by
  rw [BitVec.toInt_eq_toNat_cond]
  split <;> omega

theorem word_not_neg : IntOp.cmpi .slt w 0#32 = 0#1 := by
  have h := word_toInt hw
  have h0 : (0#32 : BitVec 32).toInt = 0 := by decide
  have hb : w.slt 0#32 = false := by
    show decide (w.toInt < (0#32 : BitVec 32).toInt) = false
    rw [h, h0]
    exact decide_eq_false (by omega)
  show BitVec.ofBool (w.slt 0#32) = 0#1
  rw [hb]
  rfl

theorem word_ge : IntOp.cmpi .sge w 0#32 = 1#1 := by
  have h := word_toInt hw
  have h0 : (0#32 : BitVec 32).toInt = 0 := by decide
  have hb : (0#32 : BitVec 32).sle w = true := by
    show decide ((0#32 : BitVec 32).toInt ≤ w.toInt) = true
    rw [h, h0]
    exact decide_eq_true (by omega)
  show BitVec.ofBool ((0#32 : BitVec 32).sle w) = 1#1
  rw [hb]
  rfl

theorem word_le : IntOp.cmpi .sle w 99999#32 = 1#1 := by
  have h := word_toInt hw
  have h0 : (99999#32 : BitVec 32).toInt = 99999 := by decide
  have hb : w.sle 99999#32 = true := by
    show decide (w.toInt ≤ (99999#32 : BitVec 32).toInt) = true
    rw [h, h0]
    exact decide_eq_true (by omega)
  show BitVec.ofBool (w.sle 99999#32) = 1#1
  rw [hb]
  rfl

/-- The gather's clamp does nothing, and the remainder changes nothing. -/
theorem word_row : min w.toInt.toNat (100000 - 1) = w.toNat % 100000 := by
  rw [word_toInt hw, Int.toNat_natCast, Nat.mod_eq_of_lt hw]
  omega

end Word

/-! ## The constants -/

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

/-- A fold of the conjunction over ones, from one, is one. -/
theorem fold_and_one {ι : Type} [DecidableEq ι] (s : Finset ι) (g : ι → BitVec 1) (hg : ∀ k, g k = 1#1) :
    s.fold IntOp.andi 1#1 g = 1#1 := by
  induction s using Finset.induction_on with
  | empty => rfl
  | insert a s ha ih => rw [Finset.fold_insert ha, hg, ih]; rfl

/-! ## The index column -/

variable (a0 : IVec S16384x1 32)

theorem idxFlat_apply (i : Fin 16384) : idxFlat a0 (ix1 i) = a0 (ix2 i (0 : Fin 1)) := by
  unfold idxFlat
  refine shapeCast_apply a0 _ (ix1 i) (ix2 i (0 : Fin 1)) ?_
  rw [Shape.rowMajor_val_two, Shape.rowMajor_val_one]
  show i.val * 1 + 0 = i.val
  omega

section Index
variable (hidx : ∀ i : Fin 16384, (a0 (ix2 i (0 : Fin 1))).toNat < 100000)
include hidx

theorem idxWrapped_apply (i : Fin 16384) : idxWrapped a0 (ix1 i) = a0 (ix2 i (0 : Fin 1)) := by
  unfold idxWrapped
  show Scalar.select (IntOp.cmpi .slt (idxFlat a0 (ix1 i)) 0#32) _ (idxFlat a0 (ix1 i)) = _
  rw [idxFlat_apply, word_not_neg (hidx i), select_zero]

theorem idxCol_apply (i : Fin 16384) (u : Fin 1) : idxCol a0 (ix2 i u) = a0 (ix2 i (0 : Fin 1)) := by
  unfold idxCol
  rw [broadcastInDim_apply ![0] bcast_S16384_S16384x1_0 _ (ix2 i u) (ix1 i) (fun a => by
    match a with
    | ⟨0, _⟩ => exact (show i.val = if (16384 : Nat) = 1 then 0 else i.val from rfl))]
  exact idxWrapped_apply a0 hidx i

/-- The range test passes at every element of the column. -/
theorem range_elem (j : S16384x1.Idx) :
    (andi (cmpi .sge (idxCol a0) (broadcastInDim S16384x1 ![] bcast_S_S16384x1 (constantI S_ 32 0#32)))
      (cmpi .sle (idxCol a0)
        (broadcastInDim S16384x1 ![0, 1] bcast_S1x1_S16384x1_0_1
          (broadcastInDim S1x1 ![1] bcast_S1_S1x1_1 (constantI S1 32 99999#32))))) j = 1#1 := by
  obtain ⟨i, u, rfl⟩ : ∃ (i : Fin 16384) (u : Fin 1), j = ix2 i u := ⟨j 0, j 1, eq_ix2 j⟩
  show IntOp.andi (IntOp.cmpi .sge (idxCol a0 (ix2 i u)) 0#32) (IntOp.cmpi .sle (idxCol a0 (ix2 i u)) 99999#32) = 1#1
  rw [idxCol_apply a0 hidx, word_ge (hidx _), word_le (hidx _)]
  rfl

theorem inRange_apply (i : Fin 16384) : inRange a0 (ix1 i) = 1#1 := by
  unfold inRange
  rw [Host.reduce_eq_fold_single IntOp.andi _ _ reducesTo_S16384x1_S16384_d1
    (by decide : S16384x1.Reduces [1] S16384) h_S_ (ix1 i)]
  exact fold_and_one _ _ (fun k => range_elem a0 hidx _)

/-- The looked-up row is the table's row at the word. -/
theorem taken_apply (a1 : FVec Ideal S100000x128 .f32) (i : Fin 16384) (k : Fin 128) :
    taken a0 a1 (ix2 i k) = a1 (ix2 (Cert.Spec.rowOf a0 i) k) := by
  unfold taken
  rw [select_apply, broadcastInDim_apply ![0] bcast_S16384_S16384x128_0 _ (ix2 i k) (ix1 i) (fun a => by
    match a with
    | ⟨0, _⟩ => exact (show i.val = if (16384 : Nat) = 1 then 0 else i.val from rfl)), inRange_apply a0 hidx i, select_one]
  have hg : gather_S100000x128_S16384x1_S16384x128_1_0_n_n_0_1_1128
      = Cert.LibScatterGather.rowGatherDims 100000 128 16384 gather_S100000x128_S16384x1_S16384x128_1_0_n_n_0_1_1128_wf := rfl
  rw [hg, Cert.LibScatterGather.gather_rows_apply _ (idxCol a0) i k (by decide) a1]
  refine congrArg a1 (congrArg (fun r => ix2 r k) (Fin.ext ?_))
  show min (idxCol a0 (ix2 i (0 : Fin 1))).toInt.toNat (100000 - 1) = (a0 (ix2 i (0 : Fin 1))).toNat % 100000
  rw [idxCol_apply a0 hidx]
  exact word_row (hidx i)

/-- The logits are the specification's. -/
theorem logits_apply (a1 : FVec Ideal S100000x128 .f32) (a2 : FVec Ideal S128x64 .f32) (i : Fin 16384) (e : Fin 64) :
    logits a0 a1 a2 (ix2 i e) = Cert.Spec.logit a0 a1 a2 i e := by
  unfold logits Cert.Spec.logit
  rw [show Host.dotGeneral dot_S16384x128_S128x64_S16384x64_1_0_0_1_n_n none (taken a0 a1) a2 (ix2 i e)
      = ∑ kk : Fin 128, taken a0 a1 (ix2 i kk) * a2 (ix2 kk e) from
    Cert.Lib.DotSum.dotGeneral_at dot_S16384x128_S128x64_S16384x64_1_0_0_1_n_n rfl rfl rfl rfl rfl rfl none .single
      (taken a0 a1) a2 i e]
  exact Finset.sum_congr rfl (fun kk _ => by rw [taken_apply a0 hidx])

end Index

/-! ## The softmax of a matrix of logits -/

variable (L : FVec Ideal S16384x64 .f32)

/-- Dropping the column axis of the logits' shape leaves the rows. -/
theorem reduces_row : S16384x64.Reduces [1] S16384 := by decide

/-- The index over row `i` with column `k` inserted. -/
theorem lift_row (h : S16384x64.Reduces [1] S16384) (i : Fin 16384) (k : Fin 64) : h.lift (ix1 i) k = ix2 i k := by
  funext c
  match c with
  | ⟨0, _⟩ => rfl
  | ⟨1, _⟩ => rfl

theorem spread_apply (v : FVec Ideal S16384 .f32) (i : Fin 16384) (e : Fin 64) : spread v (ix2 i e) = v (ix1 i) := by
  unfold spread
  rw [broadcastInDim_apply ![0, 1] bcast_S16384x1_S16384x64_0_1 _ (ix2 i e) (ix2 i (0 : Fin 1)) (fun a => by
    match a with
    | ⟨0, _⟩ => exact (show i.val = if (16384 : Nat) = 1 then 0 else i.val from rfl)
    | ⟨1, _⟩ => exact (if_pos rfl).symm)]
  exact broadcastInDim_apply ![0] bcast_S16384_S16384x1_0 v (ix2 i (0 : Fin 1)) (ix1 i) (fun a => by
    match a with
    | ⟨0, _⟩ => exact (show i.val = if (16384 : Nat) = 1 then 0 else i.val from rfl))

attribute [local irreducible] Host.reduce in
theorem rowMaxV_apply (i : Fin 16384) : rowMaxV L (ix1 i) = Cert.Spec.rowMax (fun r e => L (ix2 r e)) i := by
  unfold rowMaxV Cert.Spec.rowMax
  rw [maximumf_apply, Cert.Lib.Rows.scalar_apply, constant_apply, ofBits_neg_inf, max_bot_left,
    Host.reduce_eq_fold_single FloatOps.maximumf L _ reducesTo_S16384x64_S16384_d1
      reduces_row h_S_ (ix1 i), constant_apply, ofBits_neg_inf]
  show (Finset.univ : Finset (Fin 64)).fold max (⊥ : EReal) (fun k => L (reduces_row.lift (ix1 i) k)) = _
  exact Finset.fold_congr (fun k _ => congrArg L (lift_row reduces_row i k))

theorem exps_apply (i : Fin 16384) (e : Fin 64) :
    exps L (ix2 i e) = Cert.Spec.ex (fun r e => L (ix2 r e)) i e := by
  unfold exps Cert.Spec.ex
  show Ideal.exp (L (ix2 i e) - spread (rowMaxV L) (ix2 i e)) = _
  rw [spread_apply, rowMaxV_apply]

theorem sums_apply (E : FVec Ideal S16384x64 .f32) (i : Fin 16384) : sums E (ix1 i) = ∑ k : Fin 64, E (ix2 i k) := by
  unfold sums
  show Ideal.hostReduceAdd reducesTo_S16384x64_S16384_d1 E (Ideal.ofBits .f32 0x00000000#32) (ix1 i) = _
  rw [Ideal.hostReduceAdd_single reducesTo_S16384x64_S16384_d1 reduces_row E _ (ix1 i),
    ofBits_zero, zero_add]
  exact Finset.sum_congr rfl (fun k _ => congrArg E (lift_row reduces_row i k))

/-- The host's quotient read at an index. -/
theorem hostDivf_apply (x y : FVec Ideal S16384x64 .f32) (j : S16384x64.Idx) :
    Host.divf x y j = Ideal.div (x j) (y j) := rfl

theorem softOf_apply (i : Fin 16384) (e : Fin 64) :
    softOf L (ix2 i e) = Cert.Spec.smaxR (fun r e => L (ix2 r e)) i e := by
  unfold softOf Cert.Spec.smaxR Cert.Spec.den
  rw [hostDivf_apply, spread_apply, sums_apply, exps_apply]
  exact congrArg _ (Finset.sum_congr rfl (fun k _ => exps_apply L i k))

/-! ## The reference's term is the specification -/

theorem refTerm_eq (a0 : IVec Cert.ReferenceIdeal.S16384x1 32) (a1 : FVec Ideal Cert.ReferenceIdeal.S100000x128 .f32)
    (a2 : FVec Ideal Cert.ReferenceIdeal.S128x64 .f32)
    (hidx : ∀ i : Fin 16384, (a0 (Idealize.ShloMosaic.ValueIdx.ix2 i (0 : Fin 1))).toNat < 100000) :
    refTerm a0 a1 a2 = Cert.Spec.soft a0 a1 a2 := by
  funext j
  obtain ⟨i, e, rfl⟩ : ∃ (i : Fin 16384) (e : Fin 64), j = ix2 i e := ⟨j 0, j 1, eq_ix2 j⟩
  unfold refTerm Cert.Spec.soft
  rw [softOf_apply]
  show Cert.Spec.smaxR (fun r e => logits a0 a1 a2 (ix2 r e)) i e = Cert.Spec.smaxR (Cert.Spec.logit a0 a1 a2) i e
  rw [show (fun r e => logits a0 a1 a2 (ix2 r e)) = Cert.Spec.logit a0 a1 a2 from
    funext fun r => funext fun e => logits_apply a0 hidx a1 a2 r e]

end Cert.RefSide

end
-- ==== Proof.LibAllReal.lean ====
/-
  Real-valued arrays over the extended reals.

  At the ideal float instance a float is an extended real. An array is REAL when every entry is (the
  coercion of) a real number: no entry is `⊤` or `⊥`. The algebra a value proof uses — distributivity,
  cancellation, the exchange of finite sums — holds for reals and fails at the infinities, so a value proof
  carries this predicate along the program. This file proves that the host operations keep it:

  * pointwise sum, difference, product, maximum, minimum, negation; a selection between two real arrays;
    the splat of a bit pattern that denotes a real (with the patterns of 0, 1, 169343 and the single-precision
    neighbour of 10⁻⁵, which is positive);
  * every re-indexing (broadcasts, reshape, slice, transpose, gather), whose entries are entries of the operand;
  * a finite sum of reals; hence the exact scatter-add, the exact sum-reduction, the exact matrix product;
  * the quotient by an array of nonzero reals and the reciprocal square root of an array of positive reals;
    and `where (d > 0) (rsqrt d) w`, which is real for every real `d`: the reciprocal square root is read
    only where `d` is positive.
-/
import Idealize.ShloMosaic.PureOps
import Idealize.ShloMosaic.PureOps.Ideal
import Idealize.ShloMosaic.PureOps.Ideal.Laws
import Idealize.ShloMosaic.Lib.ReduceAll

noncomputable section

namespace Cert.Lib.AllReal

open Idealize.ShloMosaic

/-! ## The predicates -/

/-- An extended real that is (the coercion of) a real number. -/
def IsReal (x : EReal) : Prop := ∃ r : ℝ, x = (r : EReal)

/-- An array over the extended reals every entry of which is a real number. -/
def AllReal {s : Shape} (v : s.Idx → EReal) : Prop := ∀ i, ∃ r : ℝ, v i = (r : EReal)

/-- An array is real exactly when each entry is. -/
theorem allReal_iff {s : Shape} (v : s.Idx → EReal) : AllReal v ↔ ∀ i, IsReal (v i) := Iff.rfl

/-- The entry of a real array at an index, as a real number. -/
theorem AllReal.isReal {s : Shape} {v : s.Idx → EReal} (h : AllReal v) (i : s.Idx) : IsReal (v i) := h i

/-- A real number is neither infinity. -/
theorem IsReal.ne_top {x : EReal} (h : IsReal x) : x ≠ ⊤ := by
  obtain ⟨r, rfl⟩ := h; exact EReal.coe_ne_top r

/-- A real number is neither infinity. -/
theorem IsReal.ne_bot {x : EReal} (h : IsReal x) : x ≠ ⊥ := by
  obtain ⟨r, rfl⟩ := h; exact EReal.coe_ne_bot r

/-- An extended real that is neither infinity is a real number. -/
theorem isReal_of_ne {x : EReal} (hb : x ≠ ⊥) (ht : x ≠ ⊤) : IsReal x := by
  induction x using EReal.rec with
  | bot => exact absurd rfl hb
  | coe r => exact ⟨r, rfl⟩
  | top => exact absurd rfl ht

/-- An extended real of absolute value below `⊤` is a real number. -/
theorem isReal_of_abs_lt_top {x : EReal} (h : max x (-x) < ⊤) : IsReal x := by
  induction x using EReal.rec with
  | bot => exact absurd h (by simp)
  | coe r => exact ⟨r, rfl⟩
  | top => exact absurd h (by simp)

/-! ## Scalars -/

/-- A coerced real is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The greater of two reals is real: it is one of them. -/
theorem IsReal.max {x y : EReal} (hx : IsReal x) (hy : IsReal y) : IsReal (max x y) := by
  rcases le_total x y with h | h
  · rw [max_eq_right h]; exact hy
  · rw [max_eq_left h]; exact hx

/-- The lesser of two reals is real: it is one of them. -/
theorem IsReal.min {x y : EReal} (hx : IsReal x) (hy : IsReal y) : IsReal (min x y) := by
  rcases le_total x y with h | h
  · rw [min_eq_left h]; exact hx
  · rw [min_eq_right h]; exact hy

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- The exact quotient of a real by a nonzero real is real: the product with the reciprocal. -/
theorem IsReal.div {x : EReal} (hx : IsReal x) {b : ℝ} (hb : b ≠ 0) : IsReal (Ideal.div x (b : EReal)) := by
  rw [Ideal.div_coe hb]; exact hx.mul (isReal_coe _)

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is real. -/
theorem isReal_rsqrt {r : ℝ} (hr : 0 < r) : IsReal (Ideal.rsqrt (r : EReal)) :=
  ⟨_, rsqrt_coe_of_pos hr⟩

/-! ## Bit patterns that denote reals -/

/-- The single-precision pattern of `0.0` is the real 0. -/
theorem ofBits_f32_zero : Ideal.ofBits .f32 0x00000000#32 = ((0 : ℝ) : EReal) := by
  simp [Ideal.ofBits, Ideal.ieee]

/-- The single-precision pattern of `1.0` is the real 1. -/
theorem ofBits_f32_one : Ideal.ofBits .f32 0x3F800000#32 = ((1 : ℝ) : EReal) := by
  simp [Ideal.ofBits, Ideal.ieee]
  rw [← EReal.coe_mul]; norm_num

/-- The single-precision pattern of `169343.0` is the real 169343. -/
theorem ofBits_f32_169343 : Ideal.ofBits .f32 0x48255FC0#32 = ((169343 : ℝ) : EReal) := by
  simp [Ideal.ofBits, Ideal.ieee]
  rw [← EReal.coe_mul]; norm_num

/-- The single-precision neighbour of `10⁻⁵` is the real `10995116 · 2⁻⁴⁰`. -/
theorem ofBits_f32_eps : Ideal.ofBits .f32 0x3727C5AC#32 = ((10995116 * (2 ^ 40)⁻¹ : ℝ) : EReal) := by
  simp [Ideal.ofBits, Ideal.ieee]

/-- The single-precision neighbour of `10⁻⁵` is a positive real. -/
theorem ofBits_f32_eps_pos : ∃ r : ℝ, 0 < r ∧ Ideal.ofBits .f32 0x3727C5AC#32 = (r : EReal) :=
  ⟨_, by positivity, ofBits_f32_eps⟩

/-- The real `169343` is not zero. -/
theorem ofBits_f32_169343_ne_zero : ∃ b : ℝ, b ≠ 0 ∧ Ideal.ofBits .f32 0x48255FC0#32 = (b : EReal) :=
  ⟨_, by norm_num, ofBits_f32_169343⟩

/-! ## Pointwise operations -/

section Pointwise
variable {s : Shape} {φ : FTy}

/-- The pointwise sum of two real arrays is real. -/
theorem allReal_addf (x y : FVec Ideal s φ) (hx : AllReal x) (hy : AllReal y) : AllReal (addf x y) :=
  fun i => IsReal.add (hx i) (hy i)

/-- The pointwise difference of two real arrays is real. -/
theorem allReal_subf (x y : FVec Ideal s φ) (hx : AllReal x) (hy : AllReal y) : AllReal (subf x y) :=
  fun i => IsReal.sub (hx i) (hy i)

/-- The pointwise product of two real arrays is real. -/
theorem allReal_mulf (x y : FVec Ideal s φ) (hx : AllReal x) (hy : AllReal y) : AllReal (mulf x y) :=
  fun i => IsReal.mul (hx i) (hy i)

/-- The pointwise maximum of two real arrays is real. -/
theorem allReal_maximumf (x y : FVec Ideal s φ) (hx : AllReal x) (hy : AllReal y) : AllReal (maximumf x y) :=
  fun i => IsReal.max (hx i) (hy i)

/-- The pointwise minimum of two real arrays is real. -/
theorem allReal_minimumf (x y : FVec Ideal s φ) (hx : AllReal x) (hy : AllReal y) : AllReal (minimumf x y) :=
  fun i => IsReal.min (hx i) (hy i)

/-- The pointwise negative of a real array is real. -/
theorem allReal_negf (x : FVec Ideal s φ) (hx : AllReal x) : AllReal (negf x) :=
  fun i => IsReal.neg (hx i)

/-- A selection between two arrays is real when each branch is real where it is taken. -/
theorem allReal_select_of (c : IVec s 1) (a b : s.Idx → EReal) (ha : ∀ i, c i = 1 → IsReal (a i))
    (hb : ∀ i, c i ≠ 1 → IsReal (b i)) : AllReal (select c a b) := by
  intro i
  show IsReal (if c i = 1 then a i else b i)
  split
  · exact ha i ‹_›
  · exact hb i ‹_›

/-- A selection between two real arrays is real. -/
theorem allReal_select (c : IVec s 1) (a b : s.Idx → EReal) (ha : AllReal a) (hb : AllReal b) :
    AllReal (select c a b) :=
  allReal_select_of c a b (fun i _ => ha i) (fun i _ => hb i)

/-- The splat of a bit pattern that denotes a real is a real array. -/
theorem allReal_constant (bits : BitVec φ.bits) (h : IsReal (Ideal.ofBits φ bits)) :
    AllReal (constant (F := Ideal) s φ bits) :=
  fun _ => h

/-- The splat of `0.0` is a real array. -/
theorem allReal_constant_zero : AllReal (constant (F := Ideal) s .f32 0x00000000#32) :=
  allReal_constant _ ⟨_, ofBits_f32_zero⟩

/-- The splat of `1.0` is a real array. -/
theorem allReal_constant_one : AllReal (constant (F := Ideal) s .f32 0x3F800000#32) :=
  allReal_constant _ ⟨_, ofBits_f32_one⟩

/-- The splat of `169343.0` is a real array. -/
theorem allReal_constant_169343 : AllReal (constant (F := Ideal) s .f32 0x48255FC0#32) :=
  allReal_constant _ ⟨_, ofBits_f32_169343⟩

/-- The splat of the single-precision neighbour of `10⁻⁵` is a real array. -/
theorem allReal_constant_eps : AllReal (constant (F := Ideal) s .f32 0x3727C5AC#32) :=
  allReal_constant _ ⟨_, ofBits_f32_eps⟩

end Pointwise

/-! ## Re-indexings: every entry of the result is an entry of the operand -/

section Layout
variable {s t : Shape}

/-- An array read through any map of indices is real when the array is. -/
theorem allReal_comp (x : s.Idx → EReal) (f : t.Idx → s.Idx) (hx : AllReal x) : AllReal (fun j => x (f j)) :=
  fun j => hx (f j)

/-- The splat of a real scalar is a real array. -/
theorem allReal_broadcast (x : EReal) (hx : IsReal x) : AllReal (broadcast t x) := fun _ => hx

/-- A broadcast along named axes of a real array is real. -/
theorem allReal_broadcastInDim (dims : Fin s.rank → Fin t.rank) (h : s.BroadcastsInDim t dims) (x : s.Idx → EReal)
    (hx : AllReal x) : AllReal (broadcastInDim t dims h x) :=
  fun j => hx _

/-- A broadcast along leading axes of a real array is real. -/
theorem allReal_broadcastTo (x : s.Idx → EReal) (h : s.Broadcasts t) (hx : AllReal x) :
    AllReal (broadcastTo t x h) :=
  fun j => hx _

/-- A reshape of a real array is real. -/
theorem allReal_shapeCast (x : s.Idx → EReal) (h : s.ShapeCasts t) (hx : AllReal x) : AllReal (shapeCast t x h) :=
  fun j => hx _

/-- A slice of a real array is real. -/
theorem allReal_extractStridedSlice (off : Fin s.rank → Nat) (x : s.Idx → EReal) (h : s.Slices off t)
    (hx : AllReal x) : AllReal (extractStridedSlice t off x h) :=
  fun j => hx _

/-- A transpose of a real array is real. -/
theorem allReal_transpose (perm : List (Fin s.rank)) (x : s.Idx → EReal) (h : s.Transposes perm t)
    (hx : AllReal x) : AllReal (transpose t perm x h) :=
  fun j => hx _

/-- A gather from a real array is real, whatever the start indices: each result entry is the operand's entry at
    the (clamped) operand index. -/
theorem allReal_gather {si : Shape} {w : Nat} (d : GatherDims s si t) (x : s.Idx → EReal) (idx : IVec si w)
    (hx : AllReal x) : AllReal (Host.gather d x idx) :=
  fun j => hx _

end Layout

/-! ## Finite sums: scatter-add, sum-reduction, matrix product -/

section Sums

/-- The exact scatter-add into a real array of a real array of updates is real, whatever the indices: each entry
    is the operand's plus the finite sum of the updates that land on it. -/
theorem allReal_scatterAdd {s si u : Shape} {φ : FTy} {w : Nat} (d : ScatterDims s si u) (x : FVec Ideal s φ)
    (idx : IVec si w) (upd : FVec Ideal u φ) (hx : AllReal x) (hu : AllReal upd) :
    AllReal (Host.scatterAdd d x idx upd) := by
  intro i
  show IsReal (x i + ∑ j ∈ Finset.univ.filter (fun j => d.resultIdx? j idx = some i), upd j)
  exact IsReal.add (hx i) (isReal_sum _ _ fun j _ => hu j)

/-- The exact sum-reduction of a real array from a real initial value is real: each entry is the initial value
    plus the finite sum of the entries that reduce to it. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show IsReal (init (Shape.Idx.first hu) + ∑ i ∈ Finset.univ.filter (fun i => h.drop i = j), x i)
  exact IsReal.add (hi _) (isReal_sum _ _ fun i _ => hx i)

/-- The exact matrix product of two real arrays is real: each entry is a finite sum of products. -/
theorem allReal_dotGeneral {sl sr so : Shape} {φ₁ φ₂ : FTy} (d : DotDims sl sr so) (prec : Option ContractPrecision)
    (l : FVec Ideal sl φ₁) (r : FVec Ideal sr φ₂) (hl : AllReal l) (hr : AllReal r) :
    AllReal (Host.dotGeneral d prec l r) := by
  intro j
  show IsReal (FloatOps.dotGeneral d prec .single l r j)
  rw [Ideal.dotGeneral_apply]
  exact isReal_sum _ _ fun k _ => IsReal.mul (hl _) (hr _)

/-- The exact matrix product accumulated into a real array is real. -/
theorem allReal_matmul {sl sr so : Shape} {φ₁ φ₂ : FTy} (d : DotDims sl sr so) (prec : Option ContractPrecision)
    (l : FVec Ideal sl φ₁) (r : FVec Ideal sr φ₂) (acc : FVec Ideal so .f32) (hl : AllReal l) (hr : AllReal r)
    (ha : AllReal acc) : AllReal (FloatOps.matmul d prec l r acc) := by
  intro j
  rw [Ideal.matmul_apply]
  exact IsReal.add (ha j) (isReal_sum _ _ fun k _ => IsReal.mul (hl _) (hr _))

end Sums

/-! ## Quotient and reciprocal square root -/

section Corners
variable {s : Shape} {φ : FTy}

/-- The exact quotient of a real array by an array of nonzero reals is real. -/
theorem allReal_divf (x y : FVec Ideal s φ) (hx : AllReal x) (hy : ∀ i, ∃ b : ℝ, b ≠ 0 ∧ y i = (b : EReal)) :
    AllReal (Host.divf x y) := by
  intro i
  obtain ⟨b, hb, e⟩ := hy i
  show IsReal (Ideal.div (x i) (y i))
  rw [e]; exact IsReal.div (hx i) hb

/-- The reciprocal square root of an array of positive reals is real. -/
theorem allReal_rsqrt (x : FVec Ideal s φ) (hx : ∀ i, ∃ r : ℝ, 0 < r ∧ x i = (r : EReal)) :
    AllReal (Host.rsqrt x) := by
  intro i
  obtain ⟨r, hr, e⟩ := hx i
  show IsReal (Ideal.rsqrt (x i))
  rw [e]; exact isReal_rsqrt hr

/-- `where (d > z) (rsqrt d) w` is real for every real array `d`, when `z` is nowhere negative and `w` is real:
    the reciprocal square root is read only where `d` exceeds `z`, hence is positive; elsewhere the entry is `w`'s. -/
theorem allReal_select_ogt_rsqrt (d z w : FVec Ideal s φ) (hd : AllReal d) (hz : ∀ i, 0 ≤ z i) (hw : AllReal w) :
    AllReal (select (cmpf .ogt d z) (Host.rsqrt d) w) := by
  refine allReal_select_of _ _ _ (fun i hc => ?_) (fun i _ => hw i)
  obtain ⟨r, e⟩ := hd i
  have hlt : z i < d i := by
    have hc' : BitVec.ofBool (decide (z i < d i)) = 1#1 := hc
    by_contra hn
    rw [decide_eq_false hn] at hc'
    exact absurd hc' (by decide)
  have hr : 0 < r := by
    have : (0 : EReal) < (r : EReal) := e ▸ lt_of_le_of_lt (hz i) hlt
    exact_mod_cast this
  show IsReal (Ideal.rsqrt (d i))
  rw [e]; exact isReal_rsqrt hr

end Corners

/-! ## Real entries as real numbers; signs -/

section Values
variable {s t : Shape} {φ : FTy}

/-- A real extended real is the coercion of its real part. -/
theorem IsReal.coe_toReal {x : EReal} (h : IsReal x) : ((x.toReal : ℝ) : EReal) = x := by
  obtain ⟨r, rfl⟩ := h; rfl

/-- Each entry of a real array is the coercion of its real part: `fun i => (v i).toReal` is the array as reals. -/
theorem AllReal.coe_toReal {v : s.Idx → EReal} (h : AllReal v) (i : s.Idx) : (((v i).toReal : ℝ) : EReal) = v i :=
  IsReal.coe_toReal (h i)

/-- An array given entrywise by coerced reals is real. -/
theorem allReal_of_eq_coe {v : s.Idx → EReal} (f : s.Idx → ℝ) (h : ∀ i, v i = (f i : EReal)) : AllReal v :=
  fun i => ⟨f i, h i⟩

/-- An array equal to a real array is real. -/
theorem AllReal.congr {v v' : s.Idx → EReal} (h : AllReal v) (e : ∀ i, v' i = v i) : AllReal v' :=
  fun i => (e i).symm ▸ h i

/-- An array every entry of which is a positive real number. -/
def AllPos (v : s.Idx → EReal) : Prop := ∀ i, ∃ r : ℝ, 0 < r ∧ v i = (r : EReal)

/-- An array every entry of which is a nonnegative real number. -/
def AllNonneg (v : s.Idx → EReal) : Prop := ∀ i, ∃ r : ℝ, 0 ≤ r ∧ v i = (r : EReal)

/-- An array every entry of which is a nonzero real number. -/
def AllNonzero (v : s.Idx → EReal) : Prop := ∀ i, ∃ r : ℝ, r ≠ 0 ∧ v i = (r : EReal)

/-- Positive reals are reals. -/
theorem AllPos.allReal {v : s.Idx → EReal} (h : AllPos v) : AllReal v :=
  fun i => let ⟨r, _, e⟩ := h i; ⟨r, e⟩

/-- Nonnegative reals are reals. -/
theorem AllNonneg.allReal {v : s.Idx → EReal} (h : AllNonneg v) : AllReal v :=
  fun i => let ⟨r, _, e⟩ := h i; ⟨r, e⟩

/-- Positive reals are not zero. -/
theorem AllPos.allNonzero {v : s.Idx → EReal} (h : AllPos v) : AllNonzero v :=
  fun i => let ⟨r, hr, e⟩ := h i; ⟨r, hr.ne', e⟩

/-- Positive reals are nonnegative. -/
theorem AllPos.allNonneg {v : s.Idx → EReal} (h : AllPos v) : AllNonneg v :=
  fun i => let ⟨r, hr, e⟩ := h i; ⟨r, hr.le, e⟩

/-- A real array that is nowhere negative is an array of nonnegative reals. -/
theorem AllReal.allNonneg {v : s.Idx → EReal} (h : AllReal v) (h0 : ∀ i, 0 ≤ v i) : AllNonneg v := by
  intro i
  obtain ⟨r, e⟩ := h i
  refine ⟨r, ?_, e⟩
  have : (0 : EReal) ≤ (r : EReal) := e ▸ h0 i
  exact_mod_cast this

/-- A real array that is everywhere positive is an array of positive reals. -/
theorem AllReal.allPos {v : s.Idx → EReal} (h : AllReal v) (h0 : ∀ i, 0 < v i) : AllPos v := by
  intro i
  obtain ⟨r, e⟩ := h i
  refine ⟨r, ?_, e⟩
  have : (0 : EReal) < (r : EReal) := e ▸ h0 i
  exact_mod_cast this

/-- A nonnegative array plus a positive array is positive. -/
theorem allPos_addf (x y : FVec Ideal s φ) (hx : AllNonneg x) (hy : AllPos y) : AllPos (addf x y) := by
  intro i
  obtain ⟨a, ha, ea⟩ := hx i
  obtain ⟨b, hb, eb⟩ := hy i
  refine ⟨a + b, by positivity, ?_⟩
  show x i + y i = _
  rw [ea, eb, EReal.coe_add]

/-- The sum of two nonnegative arrays is nonnegative. -/
theorem allNonneg_addf (x y : FVec Ideal s φ) (hx : AllNonneg x) (hy : AllNonneg y) : AllNonneg (addf x y) := by
  intro i
  obtain ⟨a, ha, ea⟩ := hx i
  obtain ⟨b, hb, eb⟩ := hy i
  refine ⟨a + b, by positivity, ?_⟩
  show x i + y i = _
  rw [ea, eb, EReal.coe_add]

/-- The product of two nonnegative arrays is nonnegative. -/
theorem allNonneg_mulf (x y : FVec Ideal s φ) (hx : AllNonneg x) (hy : AllNonneg y) : AllNonneg (mulf x y) := by
  intro i
  obtain ⟨a, ha, ea⟩ := hx i
  obtain ⟨b, hb, eb⟩ := hy i
  refine ⟨a * b, by positivity, ?_⟩
  show x i * y i = _
  rw [ea, eb, EReal.coe_mul]

/-- The splat of a bit pattern that denotes a positive real is a positive array. -/
theorem allPos_constant (bits : BitVec φ.bits) (h : ∃ r : ℝ, 0 < r ∧ Ideal.ofBits φ bits = (r : EReal)) :
    AllPos (constant (F := Ideal) s φ bits) :=
  fun _ => h

/-- The splat of the single-precision neighbour of `10⁻⁵` is a positive array. -/
theorem allPos_constant_eps : AllPos (constant (F := Ideal) s .f32 0x3727C5AC#32) :=
  allPos_constant _ ofBits_f32_eps_pos

/-- The splat of `169343.0` is a positive array. -/
theorem allPos_constant_169343 : AllPos (constant (F := Ideal) s .f32 0x48255FC0#32) :=
  allPos_constant _ ⟨_, by norm_num, ofBits_f32_169343⟩

/-- The splat of `1.0` is a positive array. -/
theorem allPos_constant_one : AllPos (constant (F := Ideal) s .f32 0x3F800000#32) :=
  allPos_constant _ ⟨_, by norm_num, ofBits_f32_one⟩

/-- The splat of `0.0` is a nonnegative array. -/
theorem allNonneg_constant_zero : AllNonneg (constant (F := Ideal) s .f32 0x00000000#32) :=
  fun _ => ⟨0, le_refl _, ofBits_f32_zero⟩

/-- A positive array read through any map of indices is positive. -/
theorem allPos_comp (x : s.Idx → EReal) (f : t.Idx → s.Idx) (hx : AllPos x) : AllPos (fun j => x (f j)) :=
  fun j => hx (f j)

/-- A broadcast along named axes of a positive array is positive. -/
theorem allPos_broadcastInDim (dims : Fin s.rank → Fin t.rank) (h : s.BroadcastsInDim t dims) (x : s.Idx → EReal)
    (hx : AllPos x) : AllPos (broadcastInDim t dims h x) :=
  fun j => hx _

/-- A broadcast along named axes of a nonnegative array is nonnegative. -/
theorem allNonneg_broadcastInDim (dims : Fin s.rank → Fin t.rank) (h : s.BroadcastsInDim t dims) (x : s.Idx → EReal)
    (hx : AllNonneg x) : AllNonneg (broadcastInDim t dims h x) :=
  fun j => hx _

/-- A broadcast along named axes of a nonzero array is nonzero. -/
theorem allNonzero_broadcastInDim (dims : Fin s.rank → Fin t.rank) (h : s.BroadcastsInDim t dims) (x : s.Idx → EReal)
    (hx : AllNonzero x) : AllNonzero (broadcastInDim t dims h x) :=
  fun j => hx _

/-- The exact quotient of a real array by a nonzero array is real. -/
theorem allReal_divf_of_allNonzero (x y : FVec Ideal s φ) (hx : AllReal x) (hy : AllNonzero y) :
    AllReal (Host.divf x y) :=
  allReal_divf x y hx hy

/-- The reciprocal square root of a positive array is a positive array. -/
theorem allPos_rsqrt (x : FVec Ideal s φ) (hx : AllPos x) : AllPos (Host.rsqrt x) := by
  intro i
  obtain ⟨r, hr, e⟩ := hx i
  refine ⟨(Real.sqrt r)⁻¹, inv_pos.mpr (Real.sqrt_pos.mpr hr), ?_⟩
  show Ideal.rsqrt (x i) = _
  rw [e]; exact rsqrt_coe_of_pos hr

/-- The exact scatter-add of nonnegative updates into a nonnegative array is nonnegative. -/
theorem allNonneg_scatterAdd {si u : Shape} {w : Nat} (d : ScatterDims s si u) (x : FVec Ideal s φ)
    (idx : IVec si w) (upd : FVec Ideal u φ) (hx : AllNonneg x) (hu : AllNonneg upd) :
    AllNonneg (Host.scatterAdd d x idx upd) := by
  refine (allReal_scatterAdd d x idx upd hx.allReal hu.allReal).allNonneg fun i => ?_
  show 0 ≤ x i + ∑ j ∈ Finset.univ.filter (fun j => d.resultIdx? j idx = some i), upd j
  refine add_nonneg ?_ (Finset.sum_nonneg fun j _ => ?_)
  · obtain ⟨a, ha, ea⟩ := hx i; rw [ea]; exact_mod_cast ha
  · obtain ⟨b, hb, eb⟩ := hu j; rw [eb]; exact_mod_cast hb

/-- The in-kernel exact sum-reduction of a real array is real: each entry is a finite sum of entries. -/
theorem allReal_idealReduceAdd {axes : List (Fin s.rank)} (h : s.Reduces axes t) (x : s.Idx → EReal)
    (hx : AllReal x) : AllReal (Ideal.reduceAdd h x) :=
  fun j => isReal_sum _ _ fun i _ => hx i

end Values

/-! ## From a printed finiteness test to a real array -/

section Finite

/-- The single-precision pattern of `+inf` is `⊤`. -/
theorem ofBits_f32_inf : Ideal.ofBits .f32 0x7F800000#32 = ⊤ := by
  simp [Ideal.ofBits, Ideal.ieee]

/-- An entry whose absolute value is below some bound is a real number: a bound is at most `⊤`, and the
    absolute value of either infinity is `⊤`. -/
theorem isReal_of_cmpf_olt_absf {φ : FTy} (a b : Ideal φ) (h : FloatOps.cmpf .olt (FloatOps.hostAbsf a) b = 1#1) :
    IsReal a := by
  have hlt : max a (-a) < b := by
    have hc : BitVec.ofBool (decide (max a (-a) < b)) = 1#1 := h
    by_contra hn
    rw [decide_eq_false hn] at hc
    exact absurd hc (by decide)
  exact isReal_of_abs_lt_top (lt_of_lt_of_le hlt le_top)

/-- `all (|x| < y)`, an `and`-reduction over every axis of the pointwise test, came out true: then `x` is a
    real array (whatever the bound `y` is: the positive infinity in a finiteness test). -/
theorem allReal_of_reduce_andi_abs_lt {s t u : Shape} {φ : FTy} {axes : List (Fin s.rank)} [Subsingleton t.Idx]
    (x y : FVec Ideal s φ) (init : u.Idx → BitVec 1) (h : s.ReducesTo axes t) (hu : 0 < u.numel) (j : t.Idx)
    (e : Host.reduce IntOp.andi (cmpf .olt (Host.absf x) y) init h hu j = 1#1) : AllReal x :=
  fun i => isReal_of_cmpf_olt_absf (x i) (y i) (Host.reduce_andi_all _ init h hu j e i)

end Finite

end Cert.Lib.AllReal

end
-- ==== Proof.PreFacts.lean ====
/-
  What the precondition gives: every index word, read as a natural number, is below 100000, and every entry
  of the table and of the weights is a real number.

  The precondition is the conjunction of three tests, each an `and`-reduction over every axis of a pointwise
  comparison; it is true, so every comparison is. An absolute value below `+inf` is a real number; a word
  that is at least 0 and at most 99999 read signed is at most 99999 read unsigned.
-/
import proofs.«207835_g56727928045975_cont_9to1_m_1027_16_alg».proof.Proof.Gen.Pre_input_domain
import proofs.«207835_g56727928045975_cont_9to1_m_1027_16_alg».proof.Proof.LibAllReal
import Idealize.ShloMosaic.Lib.ReduceAll
import Idealize.ShloMosaic.Lib.ValueIdx

noncomputable section

namespace Cert.PreFacts

open Idealize.ShloMosaic Cert.Lib.AllReal

/-- The shape of a scalar has one index. -/
instance subsingleton_scalar_idx : Subsingleton Cert.Pre_input_domain.S_.Idx := ⟨fun a b => funext fun d => d.elim0⟩

/-- A word at least 0 and at most 99999, read signed, is below 100000 read unsigned. -/
theorem toNat_lt_of_signed_bounds (x : BitVec 32) (h0 : (0#32 : BitVec 32).toInt ≤ x.toInt)
    (h1 : x.toInt ≤ (99999#32 : BitVec 32).toInt) : x.toNat < 100000 := by
  have e0 : (0#32 : BitVec 32).toInt = 0 := by decide
  have e1 : (99999#32 : BitVec 32).toInt = 99999 := by decide
  rw [e0] at h0
  rw [e1] at h1
  have hx : 2 * x.toNat < 2 ^ 32 := BitVec.toInt_pos_iff.1 h0
  rw [BitVec.toInt_eq_toNat_of_lt hx] at h1
  omega

theorem idx_lt {F : FTy → Type} [FloatOps F] (a0 : IVec Cert.Pre_input_domain.S16384x1 32)
    (a1 : FVec F Cert.Pre_input_domain.S100000x128 .f32) (a2 : FVec F Cert.Pre_input_domain.S128x64 .f32)
    (h : Cert.Pre_input_domain.fn (F := F) a0 a1 a2 = fun _ => 1#1) :
    ∀ i : Cert.Pre_input_domain.S16384x1.Idx, (a0 i).toNat < 100000 := by
  intro i
  have h0 := congrFun h ValueIdx.ix0
  dsimp only [Cert.Pre_input_domain.fn] at h0
  obtain ⟨-, h14⟩ := IntOp.andi_eq_one.1 h0
  have hi := Host.reduce_andi_all _ _ _ _ _ h14 i
  obtain ⟨hge, hle⟩ := IntOp.andi_eq_one.1 hi
  exact toNat_lt_of_signed_bounds (a0 i) (IntOp.cmpi_sge.1 hge) (IntOp.cmpi_sle.1 hle)

theorem tab_real (a0 : IVec Cert.Pre_input_domain.S16384x1 32) (a1 : FVec Ideal Cert.Pre_input_domain.S100000x128 .f32)
    (a2 : FVec Ideal Cert.Pre_input_domain.S128x64 .f32)
    (h : Cert.Pre_input_domain.fn (F := Ideal) a0 a1 a2 = fun _ => 1#1) : ∀ i, ∃ x : ℝ, a1 i = (x : EReal) := by
  have h0 := congrFun h ValueIdx.ix0
  dsimp only [Cert.Pre_input_domain.fn] at h0
  obtain ⟨h8, -⟩ := IntOp.andi_eq_one.1 h0
  obtain ⟨h3, -⟩ := IntOp.andi_eq_one.1 h8
  exact allReal_of_reduce_andi_abs_lt _ _ _ _ _ _ h3

theorem w_real (a0 : IVec Cert.Pre_input_domain.S16384x1 32) (a1 : FVec Ideal Cert.Pre_input_domain.S100000x128 .f32)
    (a2 : FVec Ideal Cert.Pre_input_domain.S128x64 .f32)
    (h : Cert.Pre_input_domain.fn (F := Ideal) a0 a1 a2 = fun _ => 1#1) : ∀ i, ∃ x : ℝ, a2 i = (x : EReal) := by
  have h0 := congrFun h ValueIdx.ix0
  dsimp only [Cert.Pre_input_domain.fn] at h0
  obtain ⟨h8, -⟩ := IntOp.andi_eq_one.1 h0
  obtain ⟨-, h7⟩ := IntOp.andi_eq_one.1 h8
  exact allReal_of_reduce_andi_abs_lt _ _ _ _ _ _ h7

end Cert.PreFacts

end
-- ==== Proof.SoftmaxAlgebra.lean ====
/-
  The one algebraic law of the softmax: where every logit is a real number, multiplying an exponential by
  the reciprocal of the row's sum is dividing it by that sum.

  The row maximum of real logits is one of them, hence real; each exponent is then real and its exponential
  a positive real; the sum of 64 positive reals is a positive real, in particular not zero; and the exact
  quotient by a nonzero real is the product with its reciprocal.
-/
import proofs.«207835_g56727928045975_cont_9to1_m_1027_16_alg».proof.Proof.Spec
import proofs.«207835_g56727928045975_cont_9to1_m_1027_16_alg».proof.Proof.LibAllReal

noncomputable section

open scoped BigOperators

namespace Cert.Spec

open Idealize.ShloMosaic Idealize.ShloMosaic.ValueIdx Cert.Lib.AllReal

/-- A fold of `max` from `⊥` over a nonempty finite family of reals is real: it is one of them. -/
theorem isReal_fold_max {ι : Type*} (s : Finset ι) (hs : s.Nonempty) (f : ι → EReal) (h : ∀ k ∈ s, IsReal (f k)) :
    IsReal (s.fold max (⊥ : EReal) f) := by
  classical
  induction s using Finset.induction_on with
  | empty => exact absurd hs (by simp)
  | insert a s ha ih =>
    rw [Finset.fold_insert ha]
    rcases s.eq_empty_or_nonempty with rfl | hne
    · rw [Finset.fold_empty, max_bot_right]
      exact h a (Finset.mem_insert_self a _)
    · exact (h a (Finset.mem_insert_self a s)).max (ih hne fun k hk => h k (Finset.mem_insert_of_mem hk))

/-- A finite sum of positive reals is a nonnegative real. -/
theorem sum_nonneg_real {ι : Type*} (s : Finset ι) (f : ι → EReal) (h : ∀ k ∈ s, ∃ x : ℝ, 0 < x ∧ f k = (x : EReal)) :
    ∃ x : ℝ, 0 ≤ x ∧ ∑ k ∈ s, f k = (x : EReal) := by
  classical
  induction s using Finset.induction_on with
  | empty => exact ⟨0, le_refl _, by rw [Finset.sum_empty]; rfl⟩
  | insert a s ha ih =>
    obtain ⟨x, hx, hxe⟩ := h a (Finset.mem_insert_self a s)
    obtain ⟨y, hy, hye⟩ := ih fun k hk => h k (Finset.mem_insert_of_mem hk)
    exact ⟨x + y, add_nonneg hx.le hy, by rw [Finset.sum_insert ha, hxe, hye, EReal.coe_add]⟩

/-- The maximum of a row of real numbers is real. -/
theorem rowMax_real {n : Nat} (L : Fin n → Fin 64 → EReal) (hL : ∀ r e, IsReal (L r e)) (r : Fin n) :
    IsReal (rowMax L r) := by
  unfold rowMax
  exact isReal_fold_max Finset.univ ⟨0, Finset.mem_univ _⟩ _ (fun k _ => hL r k)

/-- Over real logits every exponential is a positive real. -/
theorem ex_pos {n : Nat} (L : Fin n → Fin 64 → EReal) (hL : ∀ r e, IsReal (L r e)) (r : Fin n) (e : Fin 64) :
    ∃ x : ℝ, 0 < x ∧ ex L r e = (x : EReal) := by
  obtain ⟨y, hy⟩ := (hL r e).sub (rowMax_real L hL r)
  refine ⟨Real.exp y, Real.exp_pos y, ?_⟩
  unfold ex
  rw [hy]
  rfl

/-- Over real logits the sum of a row's exponentials is a positive real. -/
theorem den_pos {n : Nat} (L : Fin n → Fin 64 → EReal) (hL : ∀ r e, IsReal (L r e)) (r : Fin n) :
    ∃ s : ℝ, 0 < s ∧ den L r = (s : EReal) := by
  unfold den
  rw [Fin.sum_univ_succ]
  obtain ⟨x, hx, hxe⟩ := ex_pos L hL r 0
  obtain ⟨y, hy, hye⟩ := sum_nonneg_real Finset.univ (fun e : Fin 63 => ex L r e.succ) (fun k _ => ex_pos L hL r k.succ)
  exact ⟨x + y, add_pos_of_pos_of_nonneg hx hy, by rw [hxe, hye, EReal.coe_add]⟩

/-- Over real logits the two forms of the softmax agree: the sum is a nonzero real `s`, so both are the
    exponential times the real `1 / s`. -/
theorem smaxK_eq_smaxR {n : Nat} (L : Fin n → Fin 64 → EReal) (hL : ∀ r e, ∃ x : ℝ, L r e = (x : EReal)) (r : Fin n)
    (e : Fin 64) : smaxK L r e = smaxR L r e := by
  obtain ⟨s, hs, hse⟩ := den_pos L hL r
  unfold smaxK smaxR
  rw [hse, Ideal.div_coe hs.ne', Ideal.div_coe hs.ne', ofBits_f32_one, EReal.coe_one, one_mul]

/-- Every logit is real when the table and the weights are: a finite sum of products of reals. -/
theorem logit_real (idx : SI.Idx → BitVec 32) (tab : ST.Idx → EReal) (W : SW.Idx → EReal)
    (htab : ∀ i, ∃ x : ℝ, tab i = (x : EReal)) (hW : ∀ i, ∃ x : ℝ, W i = (x : EReal)) (i : Fin 16384) (e : Fin 64) :
    ∃ x : ℝ, logit idx tab W i e = (x : EReal) := by
  unfold logit
  exact isReal_sum _ _ (fun k _ => IsReal.mul (htab _) (hW _))

/-- Over a real table and real weights the kernel's form of the result is the reference's. -/
theorem softK_eq_soft (idx : SI.Idx → BitVec 32) (tab : ST.Idx → EReal) (W : SW.Idx → EReal)
    (htab : ∀ i, ∃ x : ℝ, tab i = (x : EReal)) (hW : ∀ i, ∃ x : ℝ, W i = (x : EReal)) :
    softK idx tab W = soft idx tab W := by
  funext j
  exact smaxK_eq_smaxR (logit idx tab W) (fun r e => logit_real idx tab W htab hW r e) (j 0) (j 1)

end Cert.Spec

end
-- ==== Proof.Final.lean ====
/-
  The five claims from the parts. Both kernels' frames are their runs with the result's value dropped; the
  reference's frame is its run likewise; the idealized kernel and the reference end with equal results because
  each ends at the softmax of the gathered rows' logits: the kernel multiplies the exponentials by the reciprocal
  of their sum where the reference divides by the sum, and with finite inputs the sum is a positive real number.
  One worker's task enters as a hypothesis of its stated form, at each instance.
-/
import proofs.«207835_g56727928045975_cont_9to1_m_1027_16_alg».proof.Proof.KRun
import proofs.«207835_g56727928045975_cont_9to1_m_1027_16_alg».proof.Proof.KRunB
import proofs.«207835_g56727928045975_cont_9to1_m_1027_16_alg».proof.Proof.KValue
import proofs.«207835_g56727928045975_cont_9to1_m_1027_16_alg».proof.Proof.RefValue
import proofs.«207835_g56727928045975_cont_9to1_m_1027_16_alg».proof.Proof.PreFacts
import proofs.«207835_g56727928045975_cont_9to1_m_1027_16_alg».proof.Proof.SoftmaxAlgebra
import proofs.«207835_g56727928045975_cont_9to1_m_1027_16_alg».proof.Proof.Gen.Kernel
import proofs.«207835_g56727928045975_cont_9to1_m_1027_16_alg».proof.Proof.Gen.KernelIdeal
import proofs.«207835_g56727928045975_cont_9to1_m_1027_16_alg».proof.Proof.Gen.ReferenceIdeal
import proofs.«207835_g56727928045975_cont_9to1_m_1027_16_alg».proof.Proof.Gen.Pre_input_domain

noncomputable section

namespace Cert.Proof.Final

open Idealize.ShloMosaic Idealize.SL.Sem Idealize.ShloMosaic.ValueIdx

/-- The index words the idealized kernel reads are in range, from the precondition. -/
theorem hin_ideal (m : (ℓ : Loc Cert.KernelIdeal.nD Cert.KernelIdeal.τ Cert.KernelIdeal.sig) → Buf (Elt Ideal) ℓ) (hpre : Cert.Pre_KernelIdeal m) :
    ∀ (d : Dev Cert.KernelIdeal.nD) (j : Cert.KernelIdeal.S128x128.Idx), (Cert.KSide.Iof m d j).toNat < 100000 :=
  fun d j => Cert.KSide.idx2_lt _ (fun i => Cert.PreFacts.idx_lt _ _ _ (hpre d) (ix2 i (0 : Fin 1))) j

/-- The same for the word-level kernel. -/
theorem hin_bits (m : (ℓ : Loc Cert.Kernel.nD Cert.Kernel.τ Cert.Kernel.sig) → Buf (Elt Bits) ℓ) (hpre : Cert.Pre_Kernel m) :
    ∀ (d : Dev Cert.Kernel.nD) (j : Cert.Kernel.S128x128.Idx), (Cert.KSideB.Iof m d j).toNat < 100000 :=
  fun d j => Cert.KSide.idx2_lt _ (fun i => Cert.PreFacts.idx_lt _ _ _ (hpre d) (ix2 i (0 : Fin 1))) j

/-- One worker's task, at the idealized kernel and at the word-level kernel, under in-range index words. -/
def TileIdeal : Prop :=
  ∀ (m : (ℓ : Loc Cert.KernelIdeal.nD Cert.KernelIdeal.τ Cert.KernelIdeal.sig) → Buf (Elt Ideal) ℓ),
    (∀ (d : Dev Cert.KernelIdeal.nD) (j : Cert.KernelIdeal.S128x128.Idx), (Cert.KSide.Iof m d j).toNat < 100000) →
    Cert.KSide.TileBodyStmt m (Cert.KSide.Iof m)
def TileBits : Prop :=
  ∀ (m : (ℓ : Loc Cert.Kernel.nD Cert.Kernel.τ Cert.Kernel.sig) → Buf (Elt Bits) ℓ),
    (∀ (d : Dev Cert.Kernel.nD) (j : Cert.Kernel.S128x128.Idx), (Cert.KSideB.Iof m d j).toNat < 100000) →
    Cert.KSideB.TileBodyStmt m (Cert.KSideB.Iof m)

theorem frame_k (ht : TileBits) : Cert.frame_Kernel := fun m g hpre =>
  (θ_run Cert.Kernel.defs _ _).mono (fun _ h c => ⟨(h c).2.1, (h c).2.2.1, (h c).2.2.2⟩)
    (Cert.KSideB.run (F := Bits) m g (ht m (hin_bits m hpre)))

theorem frame_ki (ht : TileIdeal) : Cert.frame_KernelIdeal := fun m g hpre =>
  (θ_run Cert.KernelIdeal.defs _ _).mono (fun _ h c => ⟨(h c).2.1, (h c).2.2.1, (h c).2.2.2⟩)
    (Cert.KSide.run (F := Ideal) m g (ht m (hin_ideal m hpre)))

theorem frame_ri : Cert.frame_ReferenceIdeal := fun m g _ =>
  (θ_run Cert.ReferenceIdeal.defs _ _).mono (fun _ h c => (h c).2) (Cert.RefSide.run m g)

theorem algebraic (ht : TileIdeal) : Cert.algebraic_KernelIdeal_ReferenceIdeal := by
  intro m g m' g' hpre hagree
  have hidx : ∀ (c : Dev Cert.KernelIdeal.nD) (i : Fin 16384),
      (m ((c.tc : Thread Cert.KernelIdeal.nD Cert.KernelIdeal.τ).loc Cert.KernelIdeal.main_arg0) (ix2 i (0 : Fin 1))).toNat < 100000 :=
    fun c i => Cert.PreFacts.idx_lt _ _ _ (hpre c) (ix2 i (0 : Fin 1))
  refine ⟨fun c => Cert.Spec.soft (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2.1, (h c).2.2.1, (h c).2.2.2⟩)
      (Cert.KSide.run (F := Ideal) m g (ht m (hin_ideal m hpre)))
    exact (Cert.KSide.kerOut_eq _ _ _ (hidx c)).trans
      (Cert.Spec.softK_eq_soft _ _ _ (Cert.PreFacts.tab_real _ _ _ (hpre c)) (Cert.PreFacts.w_real _ _ _ (hpre c)))
  · refine (θ_run Cert.ReferenceIdeal.defs _ _).mono (fun _ h c => ⟨(h c).1.trans ?_, (h c).2⟩) (Cert.RefSide.run m' g')
    rw [(hagree c).1, (hagree c).2.1, (hagree c).2.2]
    exact Cert.RefSide.refTerm_eq _ _ _ (hidx c)

end Cert.Proof.Final

end
-- ==== Proof.TileBodyLemmas.lean ====
/-
  One worker's resources, cut as its task uses them, and the value its output pieces end with.

  The worker's index scratch (4 × 128 words) is its four rows, each the offset list of one gather; its gathered-rows
  scratch (512 × 128) is its four 128-row pieces, each the target of one gather and the source of one copy to the
  output; its read share of the table is one read token per gather semaphore and a rest. Once the worker's four rows
  of the index array have landed in the index scratch, word `k` of row `r` there is the index array's word at row
  `8 s + 4 c + r`, column `k`; the gather issued with that row leaves the table's row of that number at row `k` of
  piece `r`, and the copy of piece `r` leaves it at output row `1024 s + 512 c + 128 r + k`, whose quotient by 128 is
  `8 s + 4 c + r` and whose remainder is `k`: the gathered rows, as one function of the index array and the table.
-/
import proofs.«207835_g56727928045975_cont_9to1_m_1027_16_alg».proof.Proof.Setup

noncomputable section

namespace Cert.KSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Tactic

variable {F : FTy → Type}

local notation "𝕄" => MT nD τ sig (HIx 1) (Elt F) ℕ UU ℕ

section Tile

variable (d : Dev nD) (L : grid0.Coords)

abbrev gcell (d : Dev nD) (L : grid0.Coords) (sm : DmaSem sig) : GSem nD τ sig := (V d (cV L) (jV L), .dma sm)

theorem ownSems0_V :
    (ownSems0 (V d (cV L) (jV L)) : sProp 𝕄)
      = iprop(semVal (gcell d L cc0_scratch2.sem) 0 ∗ semVal (gcell d L cc0_scratch3.sem) 0 ∗ semVal (gcell d L cc0_scratch4.sem) 0
          ∗ semVal (gcell d L cc0_scratch5.sem) 0 ∗ semVal (gcell d L cc0_scratch6.sem) 0 ∗ semVal (gcell d L cc0_scoped0.sem) 0
          ∗ bigSep (((((((ownCells (V d (cV L) (jV L))).erase (gcell d L cc0_scratch2.sem)).erase (gcell d L cc0_scratch3.sem)).erase (gcell d L cc0_scratch4.sem)).erase
              (gcell d L cc0_scratch5.sem)).erase (gcell d L cc0_scratch6.sem)).erase (gcell d L cc0_scoped0.sem))
              fun g => semVal g 0) := by
  unfold SparseCore.Cfg.ownSems0
  have hm : ∀ sm : DmaSem sig, gcell d L sm ∈ ownCells (V d (cV L) (jV L)) := fun sm =>
    (mem_ownCells (g := gcell d L sm)).mpr ⟨rfl, by show (SemLoc.dma sm : SemLoc sig).isScoped .scVector = true; revert sm; decide⟩
  have hne : ∀ a b : DmaSem sig, a ≠ b → gcell d L a ≠ gcell d L b := fun a b h e => h (by simpa [gcell] using e)
  rw [SparseCore.bigSep_erase' (hm cc0_scratch2.sem),
    SparseCore.bigSep_erase' (Finset.mem_erase.mpr ⟨hne _ _ (by decide), hm cc0_scratch3.sem⟩),
    SparseCore.bigSep_erase' (Finset.mem_erase.mpr ⟨hne _ _ (by decide), Finset.mem_erase.mpr ⟨hne _ _ (by decide), hm cc0_scratch4.sem⟩⟩),
    SparseCore.bigSep_erase' (Finset.mem_erase.mpr ⟨hne _ _ (by decide), Finset.mem_erase.mpr ⟨hne _ _ (by decide), Finset.mem_erase.mpr ⟨hne _ _ (by decide), hm cc0_scratch5.sem⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scratch6.sem⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), hm cc0_scoped0.sem⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The worker's own memory, cut as the program cuts it -/

abbrev thrV (d : Dev nD) (L : grid0.Coords) : Thread nD τ := V d (cV L) (jV L)

abbrev rP0 : Memref sig .scVector .vmem S128x128 .f32 := (sR : Memref sig .scVector .vmem S512x128 .f32).slice (Rect.unit (s := S512x128) ![0, 0] S128x128.size inb_S512x128_S128x128_0_0) (fun _ => rfl)
abbrev rP1 : Memref sig .scVector .vmem S128x128 .f32 := (sR : Memref sig .scVector .vmem S512x128 .f32).slice (Rect.unit (s := S512x128) ![128, 0] S128x128.size inb_S512x128_S128x128_128_0) (fun _ => rfl)
abbrev rP2 : Memref sig .scVector .vmem S128x128 .f32 := (sR : Memref sig .scVector .vmem S512x128 .f32).slice (Rect.unit (s := S512x128) ![256, 0] S128x128.size inb_S512x128_S128x128_256_0) (fun _ => rfl)
abbrev rP3 : Memref sig .scVector .vmem S128x128 .f32 := (sR : Memref sig .scVector .vmem S512x128 .f32).slice (Rect.unit (s := S512x128) ![384, 0] S128x128.size inb_S512x128_S128x128_384_0) (fun _ => rfl)

abbrev lR0 : Memref sig .scVector .vmem S128 .i32 := ((sI : Memref sig .scVector .vmem S4x128 .i32).slice (Rect.unit (s := S4x128) ![0, 0] S1x128.size inb_S4x128_S1x128_0_0) (fun _ => rfl)).squeeze S128 squeezes_S1x128_S128
abbrev lR1 : Memref sig .scVector .vmem S128 .i32 := ((sI : Memref sig .scVector .vmem S4x128 .i32).slice (Rect.unit (s := S4x128) ![1, 0] S1x128.size inb_S4x128_S1x128_1_0) (fun _ => rfl)).squeeze S128 squeezes_S1x128_S128
abbrev lR2 : Memref sig .scVector .vmem S128 .i32 := ((sI : Memref sig .scVector .vmem S4x128 .i32).slice (Rect.unit (s := S4x128) ![2, 0] S1x128.size inb_S4x128_S1x128_2_0) (fun _ => rfl)).squeeze S128 squeezes_S1x128_S128
abbrev lR3 : Memref sig .scVector .vmem S128 .i32 := ((sI : Memref sig .scVector .vmem S4x128 .i32).slice (Rect.unit (s := S4x128) ![3, 0] S1x128.size inb_S4x128_S1x128_3_0) (fun _ => rfl)).squeeze S128 squeezes_S1x128_S128

/-- A whole buffer is four pairwise disjoint element sets that cover it. -/
theorem pointsTo_four {ℓ : Loc nD τ sig} {q : PosShare TreeShare} {f : Buf (Elt F) ℓ} {A0 A1 A2 A3 : Finset (Idx ℓ)}
    (h0 : Disjoint A0 (A1 ∪ (A2 ∪ A3))) (h1 : Disjoint A1 (A2 ∪ A3)) (h2 : Disjoint A2 A3) (hU : A0 ∪ (A1 ∪ (A2 ∪ A3)) = Finset.univ) :
    (ℓ ↦{q} f : sProp 𝕄) ⊣⊢ iprop((ℓ ↦[A0]{q} f) ∗ (ℓ ↦[A1]{q} f) ∗ (ℓ ↦[A2]{q} f) ∗ (ℓ ↦[A3]{q} f)) := by
  have e0 : (ℓ ↦[A0 ∪ (A1 ∪ (A2 ∪ A3))]{q} f : sProp 𝕄) = iprop((ℓ ↦[A0]{q} f) ∗ ℓ ↦[A1 ∪ (A2 ∪ A3)]{q} f) :=
    BI.equiv_iff.mp ⟨(pointsTo_union h0).1, (pointsTo_union h0).2⟩
  have e1 : (ℓ ↦[A1 ∪ (A2 ∪ A3)]{q} f : sProp 𝕄) = iprop((ℓ ↦[A1]{q} f) ∗ ℓ ↦[A2 ∪ A3]{q} f) :=
    BI.equiv_iff.mp ⟨(pointsTo_union h1).1, (pointsTo_union h1).2⟩
  have e2 : (ℓ ↦[A2 ∪ A3]{q} f : sProp 𝕄) = iprop((ℓ ↦[A2]{q} f) ∗ ℓ ↦[A3]{q} f) :=
    BI.equiv_iff.mp ⟨(pointsTo_union h2).1, (pointsTo_union h2).2⟩
  rw [← hU, e0, e1, e2]

theorem cover_R :
    ((Rect.unit (s := S512x128) ![0, 0] S128x128.size inb_S512x128_S128x128_0_0).set ∪ ((Rect.unit (s := S512x128) ![128, 0] S128x128.size inb_S512x128_S128x128_128_0).set
      ∪ ((Rect.unit (s := S512x128) ![256, 0] S128x128.size inb_S512x128_S128x128_256_0).set ∪ (Rect.unit (s := S512x128) ![384, 0] S128x128.size inb_S512x128_S128x128_384_0).set)))
      = (Finset.univ : Finset S512x128.Idx) := by
  refine Finset.eq_univ_iff_forall.mpr fun i => ?_
  have h0 : (i 0).val < 512 := (i 0).isLt
  have h1 : (i 1).val < 128 := (i 1).isLt
  simp only [Finset.mem_union, Rect.mem_set_unit, Fin.forall_fin_two]
  have e0 : S128x128.size 0 = 128 := rfl
  have e1 : S128x128.size 1 = 128 := rfl
  simp only [Matrix.cons_val_zero, Matrix.cons_val_one, e0, e1]
  omega

theorem cover_I :
    ((Rect.unit (s := S4x128) ![0, 0] S1x128.size inb_S4x128_S1x128_0_0).set ∪ ((Rect.unit (s := S4x128) ![1, 0] S1x128.size inb_S4x128_S1x128_1_0).set
      ∪ ((Rect.unit (s := S4x128) ![2, 0] S1x128.size inb_S4x128_S1x128_2_0).set ∪ (Rect.unit (s := S4x128) ![3, 0] S1x128.size inb_S4x128_S1x128_3_0).set)))
      = (Finset.univ : Finset S4x128.Idx) := by
  refine Finset.eq_univ_iff_forall.mpr fun i => ?_
  have h0 : (i 0).val < 4 := (i 0).isLt
  have h1 : (i 1).val < 128 := (i 1).isLt
  simp only [Finset.mem_union, Rect.mem_set_unit, Fin.forall_fin_two]
  have e0 : S1x128.size 0 = 1 := rfl
  have e1 : S1x128.size 1 = 128 := rfl
  simp only [Matrix.cons_val_zero, Matrix.cons_val_one, e0, e1]
  omega

theorem set_rP0 : (rP0 : Memref sig .scVector .vmem S128x128 .f32).view.set = (Rect.unit (s := S512x128) ![0, 0] S128x128.size inb_S512x128_S128x128_0_0).set :=
  View.set_slice_whole (cc0_scratch1 : Ref sig .scVector) _
theorem set_rP1 : (rP1 : Memref sig .scVector .vmem S128x128 .f32).view.set = (Rect.unit (s := S512x128) ![128, 0] S128x128.size inb_S512x128_S128x128_128_0).set :=
  View.set_slice_whole (cc0_scratch1 : Ref sig .scVector) _
theorem set_rP2 : (rP2 : Memref sig .scVector .vmem S128x128 .f32).view.set = (Rect.unit (s := S512x128) ![256, 0] S128x128.size inb_S512x128_S128x128_256_0).set :=
  View.set_slice_whole (cc0_scratch1 : Ref sig .scVector) _
theorem set_rP3 : (rP3 : Memref sig .scVector .vmem S128x128 .f32).view.set = (Rect.unit (s := S512x128) ![384, 0] S128x128.size inb_S512x128_S128x128_384_0).set :=
  View.set_slice_whole (cc0_scratch1 : Ref sig .scVector) _

theorem set_lR0 : (lR0 : Memref sig .scVector .vmem S128 .i32).view.set = (Rect.unit (s := S4x128) ![0, 0] S1x128.size inb_S4x128_S1x128_0_0).set :=
  (View.set_reshape _ _).trans (View.set_slice_whole (cc0_scratch0 : Ref sig .scVector) _)
theorem set_lR1 : (lR1 : Memref sig .scVector .vmem S128 .i32).view.set = (Rect.unit (s := S4x128) ![1, 0] S1x128.size inb_S4x128_S1x128_1_0).set :=
  (View.set_reshape _ _).trans (View.set_slice_whole (cc0_scratch0 : Ref sig .scVector) _)
theorem set_lR2 : (lR2 : Memref sig .scVector .vmem S128 .i32).view.set = (Rect.unit (s := S4x128) ![2, 0] S1x128.size inb_S4x128_S1x128_2_0).set :=
  (View.set_reshape _ _).trans (View.set_slice_whole (cc0_scratch0 : Ref sig .scVector) _)
theorem set_lR3 : (lR3 : Memref sig .scVector .vmem S128 .i32).view.set = (Rect.unit (s := S4x128) ![3, 0] S1x128.size inb_S4x128_S1x128_3_0).set :=
  (View.set_reshape _ _).trans (View.set_slice_whole (cc0_scratch0 : Ref sig .scVector) _)

/-- The gathered-rows scratch is its four 128-row pieces. -/
theorem sR_pieces (d : Dev nD) (L : grid0.Coords) (f : Buf (Elt F) ((thrV d L).loc cc0_scratch1)) :
    ((thrV d L).loc cc0_scratch1 ↦{fullShare} f : sProp 𝕄)
      ⊣⊢ iprop(((rP0 : Memref sig .scVector .vmem S128x128 .f32).view.loc (thrV d L) ↦[(rP0 : Memref sig .scVector .vmem S128x128 .f32).view.set]{fullShare} f)
          ∗ ((rP1 : Memref sig .scVector .vmem S128x128 .f32).view.loc (thrV d L) ↦[(rP1 : Memref sig .scVector .vmem S128x128 .f32).view.set]{fullShare} f)
          ∗ ((rP2 : Memref sig .scVector .vmem S128x128 .f32).view.loc (thrV d L) ↦[(rP2 : Memref sig .scVector .vmem S128x128 .f32).view.set]{fullShare} f)
          ∗ ((rP3 : Memref sig .scVector .vmem S128x128 .f32).view.loc (thrV d L) ↦[(rP3 : Memref sig .scVector .vmem S128x128 .f32).view.set]{fullShare} f)) := by
  rw [set_rP0, set_rP1, set_rP2, set_rP3]
  refine pointsTo_four ?_ ?_ ?_ ?_
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)
  · exact cover_R

/-- The index scratch is its four rows. -/
theorem sI_rows (d : Dev nD) (L : grid0.Coords) (f : Buf (Elt F) ((thrV d L).loc cc0_scratch0)) :
    ((thrV d L).loc cc0_scratch0 ↦{fullShare} f : sProp 𝕄)
      ⊣⊢ iprop(((lR0 : Memref sig .scVector .vmem S128 .i32).view.loc (thrV d L) ↦[(lR0 : Memref sig .scVector .vmem S128 .i32).view.set]{fullShare} f)
          ∗ ((lR1 : Memref sig .scVector .vmem S128 .i32).view.loc (thrV d L) ↦[(lR1 : Memref sig .scVector .vmem S128 .i32).view.set]{fullShare} f)
          ∗ ((lR2 : Memref sig .scVector .vmem S128 .i32).view.loc (thrV d L) ↦[(lR2 : Memref sig .scVector .vmem S128 .i32).view.set]{fullShare} f)
          ∗ ((lR3 : Memref sig .scVector .vmem S128 .i32).view.loc (thrV d L) ↦[(lR3 : Memref sig .scVector .vmem S128 .i32).view.set]{fullShare} f)) := by
  rw [set_lR0, set_lR1, set_lR2, set_lR3]
  refine pointsTo_four ?_ ?_ ?_ ?_
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)
  · exact cover_I

/-- The worker's read share of the table, one read token per gather semaphore and the rest. -/
theorem tab_toks (d : Dev nD) (L : grid0.Coords) (f : Buf (Elt F) (tLoc d)) :
    (tLoc d ↦{qT (cL L) (sL L)} f : sProp 𝕄)
      ⊣⊢ iprop(((tV : Memref sig .scVector .hbm S100000x128 .f32).view.loc (thrV d L) ↦{shareDrop (qT (cL L) (sL L)) 4} f)
          ∗ ((tV : Memref sig .scVector .hbm S100000x128 .f32).view.loc (thrV d L) ↦{shareTok (qT (cL L) (sL L)) 4 0} f)
          ∗ ((tV : Memref sig .scVector .hbm S100000x128 .f32).view.loc (thrV d L) ↦{shareTok (qT (cL L) (sL L)) 4 1} f)
          ∗ ((tV : Memref sig .scVector .hbm S100000x128 .f32).view.loc (thrV d L) ↦{shareTok (qT (cL L) (sL L)) 4 2} f)
          ∗ ((tV : Memref sig .scVector .hbm S100000x128 .f32).view.loc (thrV d L) ↦{shareTok (qT (cL L) (sL L)) 4 3} f)) := by
  have h := Transfers.pointsTo_toks (Lvl := ℕ) (ℓ := tLoc d) (S := Finset.univ) (f := f) (nD := nD) (τ := τ) (sig := sig) (Ix := HIx 1) (Val := Elt F) (Name := ℕ) (U := UU) (qT (cL L) (sL L)) 4
  rw [show (Finset.univ : Finset (Fin 4)) = {0, 1, 2, 3} by decide, SparseCore.bigSep_insert' (by decide), SparseCore.bigSep_insert' (by decide),
    SparseCore.bigSep_insert' (by decide), bigSep_singleton] at h
  exact h

/-- Four pairwise disjoint element sets that cover a buffer, each held at contents of its own, are the buffer held whole. -/
theorem pointsTo_four_join {ℓ : Loc nD τ sig} {q : PosShare TreeShare} {f0 f1 f2 f3 : Buf (Elt F) ℓ} {A0 A1 A2 A3 : Finset (Idx ℓ)}
    (h0 : Disjoint A0 (A1 ∪ (A2 ∪ A3))) (h1 : Disjoint A1 (A2 ∪ A3)) (h2 : Disjoint A2 A3) (hU : A0 ∪ (A1 ∪ (A2 ∪ A3)) = Finset.univ) :
    iprop((ℓ ↦[A0]{q} f0) ∗ (ℓ ↦[A1]{q} f1) ∗ (ℓ ↦[A2]{q} f2) ∗ (ℓ ↦[A3]{q} f3)) ⊢ (iprop(∃ f, ℓ ↦{q} f) : sProp 𝕄) := by
  iintro ⟨H0, H1, H2, H3⟩
  ihave H23 := (pointsTo_join h2) $$ [H2 H3]
  · isplitl [H2] <;> iassumption
  ihave H123 := (pointsTo_join h1) $$ [H1 H23]
  · isplitl [H1] <;> iassumption
  ihave H := (pointsTo_join h0) $$ [H0 H123]
  · isplitl [H0] <;> iassumption
  rw [hU]
  iexists _; iexact H

/-- The gathered-rows scratch back whole from its four pieces, whatever each holds. -/
theorem sR_join (d : Dev nD) (L : grid0.Coords) (f0 f1 f2 f3 : Buf (Elt F) ((thrV d L).loc cc0_scratch1)) :
    iprop(((rP0 : Memref sig .scVector .vmem S128x128 .f32).view.loc (thrV d L) ↦[(rP0 : Memref sig .scVector .vmem S128x128 .f32).view.set]{fullShare} f0)
          ∗ ((rP1 : Memref sig .scVector .vmem S128x128 .f32).view.loc (thrV d L) ↦[(rP1 : Memref sig .scVector .vmem S128x128 .f32).view.set]{fullShare} f1)
          ∗ ((rP2 : Memref sig .scVector .vmem S128x128 .f32).view.loc (thrV d L) ↦[(rP2 : Memref sig .scVector .vmem S128x128 .f32).view.set]{fullShare} f2)
          ∗ ((rP3 : Memref sig .scVector .vmem S128x128 .f32).view.loc (thrV d L) ↦[(rP3 : Memref sig .scVector .vmem S128x128 .f32).view.set]{fullShare} f3))
      ⊢ (iprop(∃ f, (thrV d L).loc cc0_scratch1 ↦{fullShare} f) : sProp 𝕄) := by
  rw [set_rP0, set_rP1, set_rP2, set_rP3]
  refine pointsTo_four_join ?_ ?_ ?_ cover_R
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)

/-- A buffer written whole through a view reads the payload back. -/
theorem read_writes_whole {sig : RefSig} {κ : Kind} {sp : Space} {s : Shape} {e : EltTy} {Val : EltTy → Type} (v : View sig κ sp s e) (f : v.ty.Contents Val)
    (w : s.Idx → Val e) (y : s.Idx) : v.read Val (v.writes Val f [⟨Rect.whole s, w⟩]) y = w y := by
  have h := View.read_writes_cons_emb v f (Rect.whole s) w [] y
  rwa [Rect.emb_whole_apply] at h

/-- A rank-one index from its row-major position is that position. -/
theorem rowMajor_symm_rank1 {n : ℕ} (k : Fin (⟨1, ![n]⟩ : Shape).numel) : (((⟨1, ![n]⟩ : Shape).rowMajor.symm k) 0).val = k.val := by
  obtain ⟨x, rfl⟩ := (⟨1, ![n]⟩ : Shape).rowMajor.surjective k
  rw [Equiv.symm_apply_apply]
  show _ = ((Shape.rowMajorPi _ x : Fin _) : ℕ)
  rw [Shape.rowMajorPi_succ_val]
  simp [Shape.rowMajorPi, Shape.rankPi]

/-- A buffer written whole through a view holds the payload at the view's places. -/
theorem writes_whole_emb {sig : RefSig} {κ : Kind} {sp : Space} {s : Shape} {e : EltTy} {Val : EltTy → Type} (v : View sig κ sp s e) (f : v.ty.Contents Val)
    (w : s.Idx → Val e) (y : s.Idx) : v.writes Val f [⟨Rect.whole s, w⟩] (v.emb y) = cast (congrArg Val v.elt_eq.symm) (w y) := by
  rw [← View.write_univ_eq_writes_whole v f [] w]
  exact View.write_emb_of_mem _ _ (Finset.mem_univ y)

section LW
variable [FloatOps F] (I : (d : Dev nD) → Buf (Elt F) (iLoc d))

/-- Word `k` of row `r` of the worker's index scratch, holding the worker's rows of the index array, is the index array's word at row
    `8 s + 4 c + r`, column `k`. -/
theorem list_word (d : Dev nD) (L : grid0.Coords) (r : ℕ) (inbL : ∀ a, (![r, 0] : Fin 2 → ℕ) a + S1x128.size a ≤ S4x128.size a) (x : S128.Idx)
    (hb : 8 * (L 1).val + 4 * (L 0).val + r < 128) :
    View.read (Elt F) (((sI : Memref sig .scVector .vmem S4x128 .i32).slice (Rect.unit (s := S4x128) ![r, 0] S1x128.size inbL) (fun _ => rfl)).squeeze S128 squeezes_S1x128_S128).view
        (View.read (Elt F) (idxM L).view (I d)) x
      = I d (ix2 (⟨8 * (L 1).val + 4 * (L 0).val + r, hb⟩ : Fin 128) (⟨(x 0).val, (x 0).isLt⟩ : Fin 128)) := by
  show I d ((idxM L).view.emb ((((sI : Memref sig .scVector .vmem S4x128 .i32).slice (Rect.unit (s := S4x128) ![r, 0] S1x128.size inbL) (fun _ => rfl)).squeeze S128 squeezes_S1x128_S128).view.emb x)) = _
  refine congrArg (I d) ?_
  have hre : Shape.reshapeEquiv (s := S1x128) (s' := S128) squeezes_S1x128_S128.numel_eq x = Fin.cons ⟨0, Nat.one_pos⟩ x := Shape.reshapeEquiv_cons_one _ x
  funext b; apply Fin.ext
  match b with
  | ⟨0, _⟩ =>
    show k0_off1 L 0 + 1 * (![r, 0] 0 + 1 * ((Shape.reshapeEquiv (s := S1x128) (s' := S128) squeezes_S1x128_S128.numel_eq x) 0).val) = 8 * (L 1).val + 4 * (L 0).val + r
    rw [hre, k0_off1_eq]
    show (8 * (L 1).val + 4 * (L 0).val) + 1 * (r + 1 * 0) = _
    omega
  | ⟨1, _⟩ =>
    show k0_off1 L 1 + 1 * (![r, 0] 1 + 1 * ((Shape.reshapeEquiv (s := S1x128) (s' := S128) squeezes_S1x128_S128.numel_eq x) 1).val) = (x 0).val
    rw [hre, k0_off1_eq]
    show 0 + 1 * (0 + 1 * (x 0).val) = _
    omega
end LW

section Value

variable [FloatOps F] (m : (ℓ : Loc nD τ sig) → Buf (Elt F) ℓ) (I : (d : Dev nD) → Buf (Elt F) (iLoc d))

/-- What an output piece holds once its copy has landed — the gathered-rows piece's contents, themselves the gather's
    payload over the row of the index scratch it was issued with — is the gathered rows there: row `k` of piece `r` is the
    table's row named by word `k` of row `r` of the worker's rows of the index array, and the piece's row `k` is output row
    `1024 s + 512 c + 128 r + k`, whose quotient by 128 is that row of the index array and whose remainder is `k`. -/
theorem out_value (d : Dev nD) (L : grid0.Coords) (r : ℕ)
    (offO : Fin 2 → ℕ) (inbO : ∀ a, offO a + S128x128.size a ≤ S16384x128.size a) (hO : offO = ![1024 * (L 1).val + 512 * (L 0).val + 128 * r, 0])
    (offR : Fin 2 → ℕ) (inbR : ∀ a, offR a + S128x128.size a ≤ S512x128.size a)
    (offL : Fin 2 → ℕ) (inbL : ∀ a, offL a + S1x128.size a ≤ S4x128.size a) (hL : offL = ![r, 0])
    (inbT : ∀ a, (![0, 0] : Fin 2 → ℕ) a + S100000x128.size a ≤ S100000x128.size a)
    (hn : S128.numel = S128x128.size gathers_S100000x128_S128x128.axis')
    (fR : Buf (Elt F) ((thrV d L).loc cc0_scratch1))
    (hinr : ∀ x, ((((sI : Memref sig .scVector .vmem S4x128 .i32).slice (Rect.unit (s := S4x128) offL S1x128.size inbL) (fun _ => rfl)).squeeze S128 squeezes_S1x128_S128).view.read (Elt F)
      ((idxM L).view.read (Elt F) (I d)) x).toNat < S100000x128.size gathers_S100000x128_S128x128.axis) :
    ∀ i ∈ ((oV : Memref sig .scVector .hbm S16384x128 .f32).slice (Rect.unit (s := S16384x128) offO S128x128.size inbO) (fun _ => rfl)).view.set,
      ((oV : Memref sig .scVector .hbm S16384x128 .f32).slice (Rect.unit (s := S16384x128) offO S128x128.size inbO) (fun _ => rfl)).view.writes (Elt F) (m (oLoc d))
        [⟨Rect.whole S128x128, ReadAs.same.apply
          (((sR : Memref sig .scVector .vmem S512x128 .f32).slice (Rect.unit (s := S512x128) offR S128x128.size inbR) (fun _ => rfl)).view.read (Elt F)
            (((sR : Memref sig .scVector .vmem S512x128 .f32).slice (Rect.unit (s := S512x128) offR S128x128.size inbR) (fun _ => rfl)).view.writes (Elt F) fR
              [⟨Rect.whole S128x128, SparseCore.gatherPayload gathers_S100000x128_S128x128
                (((tV : Memref sig .scVector .hbm S100000x128 .f32).slice (Rect.unit (s := S100000x128) ![0, 0] S100000x128.size inbT) (fun _ => rfl)).view.read (Elt F) (m (tLoc d)))
                (SparseCore.rows ((((sI : Memref sig .scVector .vmem S4x128 .i32).slice (Rect.unit (s := S4x128) offL S1x128.size inbL) (fun _ => rfl)).squeeze S128 squeezes_S1x128_S128).view.read (Elt F)
                  ((idxM L).view.read (Elt F) (I d))) hn hinr)⟩]))⟩] i
        = gathered m I d i := by
  intro i hi
  obtain ⟨y, -, rfl⟩ := Finset.mem_map.mp hi
  subst hO hL
  refine (writes_whole_emb _ _ _ _).trans ?_
  generalize hj : ((oV : Memref sig .scVector .hbm S16384x128 .f32).slice (Rect.unit (s := S16384x128) ![1024 * (L 1).val + 512 * (L 0).val + 128 * r, 0] S128x128.size inbO) (fun _ => rfl)).view.emb y = j
  have hj0 : (j 0).val = 1024 * (L 1).val + 512 * (L 0).val + 128 * r + (y 0).val := by
    rw [← hj]; show (1024 * (L 1).val + 512 * (L 0).val + 128 * r) + 1 * (y 0).val = _; omega
  have hj1 : (j 1).val = (y 1).val := by
    rw [← hj]; show 0 + 1 * (y 1).val = _; omega
  clear hj hi
  refine (congrArg (cast _) (read_writes_whole _ _ _ _)).trans ?_
  unfold SparseCore.gatherPayload
  rw [View.read_apply]
  simp only [cast_cast, cast_eq]
  unfold gathered embF
  refine congrArg (m (tLoc d)) ?_
  have hy0 : (y 0).val < 128 := (y 0).isLt
  have hy1 : (y 1).val < 128 := (y 1).isLt
  have hs : (L 1).val < 16 := (L 1).isLt
  have hc : (L 0).val < 2 := (L 0).isLt
  have hr : r < 4 := by have := inbL 0; simp only [Matrix.cons_val_zero] at this; have e : S1x128.size 0 = 1 := rfl; have e' : S4x128.size 0 = 4 := rfl; omega
  have hb : 8 * (L 1).val + 4 * (L 0).val + r < 128 := by omega
  -- the word the list holds at the row's place
  have hx : ((S128.rowMajor.symm ((y 0).cast hn.symm)) 0).val = (y 0).val := rowMajor_symm_rank1 _
  have hbound := hinr (S128.rowMajor.symm ((y 0).cast hn.symm))
  rw [list_word I d L r inbL _ hb] at hbound
  have key : ∀ (A A' B B' : Fin 128), A.val = A'.val → B.val = B'.val → (I d (ix2 A B)).toNat = (I d (ix2 A' B')).toNat :=
    fun A A' B B' h1 h2 => by rw [Fin.ext h1, Fin.ext h2]
  generalize hrws : SparseCore.rows _ hn hinr = rws
  funext a
  apply Fin.ext
  match a with
  | ⟨0, _⟩ =>
    have e0 := Shape.Gathers.idx_axis gathers_S100000x128_S128x128 rws y
    show 0 + 1 * (gathers_S100000x128_S128x128.idx rws y gathers_S100000x128_S128x128.axis).val = _
    rw [e0, ← hrws]
    show 0 + 1 * BitVec.toNat (View.read (Elt F) (((sI : Memref sig .scVector .vmem S4x128 .i32).slice (Rect.unit (s := S4x128) ![r, 0] S1x128.size inbL) (fun _ => rfl)).squeeze S128 squeezes_S1x128_S128).view
      (View.read (Elt F) (idxM L).view (I d)) (S128.rowMajor.symm ((y 0).cast hn.symm))) = _
    rw [list_word I d L r inbL _ hb]
    refine (?_ : _ = (I d (ix2 (⟨8 * (L 1).val + 4 * (L 0).val + r, hb⟩ : Fin 128) (⟨((S128.rowMajor.symm ((y 0).cast hn.symm)) 0).val, Fin.isLt _⟩ : Fin 128))).toNat % 100000).trans
      (congrArg (· % 100000) (key _ _ _ _ ?_ ?_))
    · have hbound' : (I d (ix2 (⟨8 * (L 1).val + 4 * (L 0).val + r, hb⟩ : Fin 128) (⟨((S128.rowMajor.symm ((y 0).cast hn.symm)) 0).val, Fin.isLt _⟩ : Fin 128))).toNat < 100000 := hbound
      rw [Nat.mod_eq_of_lt hbound']; omega
    · show 8 * (L 1).val + 4 * (L 0).val + r = (j 0).val / 128
      omega
    · show ((S128.rowMajor.symm ((y 0).cast hn.symm)) 0).val = (j 0).val % 128
      omega
  | ⟨1, _⟩ =>
    have e1 := Shape.Gathers.idx_of_ne gathers_S100000x128_S128x128 rws y (1 : Fin 2) (by decide)
    show 0 + 1 * (gathers_S100000x128_S128x128.idx rws y (1 : Fin 2)).val = (j 1).val
    rw [e1, hj1]
    show 0 + 1 * (y 1).val = (y 1).val
    omega

end Value

section ValueInst

variable [FloatOps F] (m : (ℓ : Loc nD τ sig) → Buf (Elt F) ℓ) (I : (d : Dev nD) → Buf (Elt F) (iLoc d))

abbrev tM : Memref sig .scVector .hbm S100000x128 .f32 :=
  (tV : Memref sig .scVector .hbm S100000x128 .f32).slice (Rect.unit (s := S100000x128) ![0, 0] S100000x128.size inb_S100000x128_S100000x128_0_0) (fun _ => rfl)

theorem off2_0 (L : grid0.Coords) : k0_off2 L 0#32 = ![1024 * (L 1).val + 512 * (L 0).val + 128 * 0, 0] := k0_off2_eq L ⟨0, by decide⟩
theorem off2_1 (L : grid0.Coords) : k0_off2 L 128#32 = ![1024 * (L 1).val + 512 * (L 0).val + 128 * 1, 0] := k0_off2_eq L ⟨1, by decide⟩
theorem off2_2 (L : grid0.Coords) : k0_off2 L 256#32 = ![1024 * (L 1).val + 512 * (L 0).val + 128 * 2, 0] := k0_off2_eq L ⟨2, by decide⟩
theorem off2_3 (L : grid0.Coords) : k0_off2 L 384#32 = ![1024 * (L 1).val + 512 * (L 0).val + 128 * 3, 0] := k0_off2_eq L ⟨3, by decide⟩

theorem out_value0 (d : Dev nD) (L : grid0.Coords) (fR : Buf (Elt F) ((thrV d L).loc cc0_scratch1))
    (hn : S128.numel = S128x128.size gathers_S100000x128_S128x128.axis')
    (h : ∀ x, ((lR0 : Memref sig .scVector .vmem S128 .i32).view.read (Elt F) ((idxM L).view.read (Elt F) (I d)) x).toNat < S100000x128.size gathers_S100000x128_S128x128.axis) :
    ∀ i ∈ (outM0 L).view.set, (outM0 L).view.writes (Elt F) (m (oLoc d)) [⟨Rect.whole S128x128, ReadAs.same.apply
      ((rP0 : Memref sig .scVector .vmem S128x128 .f32).view.read (Elt F) ((rP0 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR0 : Memref sig .scVector .vmem S128 .i32).view.read (Elt F) ((idxM L).view.read (Elt F) (I d))) hn h)⟩]))⟩] i = gathered m I d i :=
  out_value m I d L 0 (k0_off2 L 0#32) (k0_off2_inb L 0) (off2_0 L) ![0, 0] inb_S512x128_S128x128_0_0 ![0, 0] inb_S4x128_S1x128_0_0 rfl inb_S100000x128_S100000x128_0_0 hn fR h
theorem out_value1 (d : Dev nD) (L : grid0.Coords) (fR : Buf (Elt F) ((thrV d L).loc cc0_scratch1))
    (hn : S128.numel = S128x128.size gathers_S100000x128_S128x128.axis')
    (h : ∀ x, ((lR1 : Memref sig .scVector .vmem S128 .i32).view.read (Elt F) ((idxM L).view.read (Elt F) (I d)) x).toNat < S100000x128.size gathers_S100000x128_S128x128.axis) :
    ∀ i ∈ (outM1 L).view.set, (outM1 L).view.writes (Elt F) (m (oLoc d)) [⟨Rect.whole S128x128, ReadAs.same.apply
      ((rP1 : Memref sig .scVector .vmem S128x128 .f32).view.read (Elt F) ((rP1 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR1 : Memref sig .scVector .vmem S128 .i32).view.read (Elt F) ((idxM L).view.read (Elt F) (I d))) hn h)⟩]))⟩] i = gathered m I d i :=
  out_value m I d L 1 (k0_off2 L 128#32) (k0_off2_inb L 1) (off2_1 L) ![128, 0] inb_S512x128_S128x128_128_0 ![1, 0] inb_S4x128_S1x128_1_0 rfl inb_S100000x128_S100000x128_0_0 hn fR h
theorem out_value2 (d : Dev nD) (L : grid0.Coords) (fR : Buf (Elt F) ((thrV d L).loc cc0_scratch1))
    (hn : S128.numel = S128x128.size gathers_S100000x128_S128x128.axis')
    (h : ∀ x, ((lR2 : Memref sig .scVector .vmem S128 .i32).view.read (Elt F) ((idxM L).view.read (Elt F) (I d)) x).toNat < S100000x128.size gathers_S100000x128_S128x128.axis) :
    ∀ i ∈ (outM2 L).view.set, (outM2 L).view.writes (Elt F) (m (oLoc d)) [⟨Rect.whole S128x128, ReadAs.same.apply
      ((rP2 : Memref sig .scVector .vmem S128x128 .f32).view.read (Elt F) ((rP2 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR2 : Memref sig .scVector .vmem S128 .i32).view.read (Elt F) ((idxM L).view.read (Elt F) (I d))) hn h)⟩]))⟩] i = gathered m I d i :=
  out_value m I d L 2 (k0_off2 L 256#32) (k0_off2_inb L 2) (off2_2 L) ![256, 0] inb_S512x128_S128x128_256_0 ![2, 0] inb_S4x128_S1x128_2_0 rfl inb_S100000x128_S100000x128_0_0 hn fR h
theorem out_value3 (d : Dev nD) (L : grid0.Coords) (fR : Buf (Elt F) ((thrV d L).loc cc0_scratch1))
    (hn : S128.numel = S128x128.size gathers_S100000x128_S128x128.axis')
    (h : ∀ x, ((lR3 : Memref sig .scVector .vmem S128 .i32).view.read (Elt F) ((idxM L).view.read (Elt F) (I d)) x).toNat < S100000x128.size gathers_S100000x128_S128x128.axis) :
    ∀ i ∈ (outM3 L).view.set, (outM3 L).view.writes (Elt F) (m (oLoc d)) [⟨Rect.whole S128x128, ReadAs.same.apply
      ((rP3 : Memref sig .scVector .vmem S128x128 .f32).view.read (Elt F) ((rP3 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR3 : Memref sig .scVector .vmem S128 .i32).view.read (Elt F) ((idxM L).view.read (Elt F) (I d))) hn h)⟩]))⟩] i = gathered m I d i :=
  out_value m I d L 3 (k0_off2 L 384#32) (k0_off2_inb L 3) (off2_3 L) ![384, 0] inb_S512x128_S128x128_384_0 ![3, 0] inb_S4x128_S1x128_3_0 rfl inb_S100000x128_S100000x128_0_0 hn fR h

end ValueInst

end Tile

end Cert.KSide

end
-- ==== Proof.TileBody.lean ====
/-
  The task of one worker, at a symbolic place: its four rows of the index array copied into its index scratch; four
  gathers of table rows, one per row of the scratch and each on a semaphore of its own, all started before any is waited
  for; each gather waited for in turn and its 128 gathered rows copied to the worker's piece of the output, the four
  copies on one semaphore; four waits for them. The worker hands back what it was handed, the output pieces holding the
  gathered rows.
-/
import proofs.«207835_g56727928045975_cont_9to1_m_1027_16_alg».proof.Proof.TileBodyLemmas

noncomputable section

namespace Cert.KSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Tactic

variable {F : FTy → Type}

local notation "𝕄" => MT nD τ sig (HIx 1) (Elt F) ℕ UU ℕ

section Tile

variable [FloatOps F] (m : (ℓ : Loc nD τ sig) → Buf (Elt F) ℓ) (I : (d : Dev nD) → Buf (Elt F) (iLoc d))

set_option maxRecDepth 65536 in
theorem tile_body (hF : (K (F := F)).Facts) (hin : ∀ (d : Dev nD) (j : S128x128.Idx), (I d j).toNat < 100000) (d : Dev nD) (L : grid0.Coords)
      (O : CellTallies nD τ sig (HIx 1)) (W : Waits sig (HIx 1)) (hO : ∀ g, O g none = 0) :
    iprop(levAts (K (F := F)).L (K (F := F)).lev ∗ emp ∗ tileRes m I d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scoped0)
          fun _ => iprop(tileRes m I d L (gathered m I d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hidx, Htab, Ho0, Ho1, Ho2, Ho3⟩, ⟨⟨%fI, HsI⟩, ⟨%fR, HsR⟩, Hbufs⟩, ⟨Hs2, Hs3, Hs4, Hs5, Hs6, Hs0, Hsems⟩, HO⟩
  ihave Hmw := ((K (F := F)).mayWaits_none (thr := V d (cV L) (jV L)) hO) $$ Hlv

  ihave Hidx := (show (iLoc d ↦[(idxM L).view.set]{fullShare} I d : sProp 𝕄) ⊢ ((idxM L).view.loc (V d (cV L) (jV L)) ↦[(idxM L).view.set]{fullShare} I d) from .rfl) $$ Hidx
  ihave HsI := (show ((V d (cV L) (jV L)).loc cc0_scratch0 ↦{fullShare} fI : sProp 𝕄) ⊢ ((sI : Memref sig .scVector .vmem S4x128 .i32).view.loc (V d (cV L) (jV L)) ↦{fullShare} fI) from .rfl) $$ HsI
  ihave Ho0 := (show (oLoc d ↦[(outM0 L).view.set]{fullShare} m (oLoc d) : sProp 𝕄) ⊢ ((outM0 L).view.loc (V d (cV L) (jV L)) ↦[(outM0 L).view.set]{fullShare} m (oLoc d)) from .rfl) $$ Ho0
  ihave Ho1 := (show (oLoc d ↦[(outM1 L).view.set]{fullShare} m (oLoc d) : sProp 𝕄) ⊢ ((outM1 L).view.loc (V d (cV L) (jV L)) ↦[(outM1 L).view.set]{fullShare} m (oLoc d)) from .rfl) $$ Ho1
  ihave Ho2 := (show (oLoc d ↦[(outM2 L).view.set]{fullShare} m (oLoc d) : sProp 𝕄) ⊢ ((outM2 L).view.loc (V d (cV L) (jV L)) ↦[(outM2 L).view.set]{fullShare} m (oLoc d)) from .rfl) $$ Ho2
  ihave Ho3 := (show (oLoc d ↦[(outM3 L).view.set]{fullShare} m (oLoc d) : sProp 𝕄) ⊢ ((outM3 L).view.loc (V d (cV L) (jV L)) ↦[(outM3 L).view.set]{fullShare} m (oLoc d)) from .rfl) $$ Ho3
  sl_exec
  have hw : (sI : Memref sig .scVector .vmem S4x128 .i32).view.write (Elt F) fI (tile_body.sl.dma0 I d L) Finset.univ = (idxM L).view.read (Elt F) (I d) :=
    (View.write_whole_univ (cc0_scratch0 : Ref sig .scVector) fI _).trans rfl
  rw [hw]
  ihave HsI := (sI_rows d L _).1 $$ HsI
  icases HsI with ⟨Hl0, Hl1, Hl2, Hl3⟩
  ihave HsR := (sR_pieces d L _).1 $$ HsR
  icases HsR with ⟨Hr0, Hr1, Hr2, Hr3⟩
  ihave Htab := (tab_toks d L _).1 $$ Htab
  icases Htab with ⟨HtD, Ht0, Ht1, Ht2, Ht3⟩
  have hin0 : ∀ x, ((lR0 : Memref sig .scVector .vmem S128 .i32).view.read (Elt F) ((idxM L).view.read (Elt F) (I d)) x).toNat < S100000x128.size gathers_S100000x128_S128x128.axis := fun x => hin d _
  have hin1 : ∀ x, ((lR1 : Memref sig .scVector .vmem S128 .i32).view.read (Elt F) ((idxM L).view.read (Elt F) (I d)) x).toNat < S100000x128.size gathers_S100000x128_S128x128.axis := fun x => hin d _
  have hin2 : ∀ x, ((lR2 : Memref sig .scVector .vmem S128 .i32).view.read (Elt F) ((idxM L).view.read (Elt F) (I d)) x).toNat < S100000x128.size gathers_S100000x128_S128x128.axis := fun x => hin d _
  have hin3 : ∀ x, ((lR3 : Memref sig .scVector .vmem S128 .i32).view.read (Elt F) ((idxM L).view.read (Elt F) (I d)) x).toNat < S100000x128.size gathers_S100000x128_S128x128.axis := fun x => hin d _
  have hB : Transfers.BatchOf (V d (cV L) (jV L)) (SemLoc.dma cc0_scratch6.sem) 4 := trivial
  sl_exec

  sl_step
  isplitl [Hidx HtD Ht0 Ht1 Ht2 Ht3 Ho0 Ho1 Ho2 Ho3]
  · isplitl [Hidx]; · iexact Hidx
    isplitl [HtD Ht0 Ht1 Ht2 Ht3]
    · iapply (tab_toks d L _).2
      isplitl [HtD]; · iexact HtD
      isplitl [Ht0]; · iexact Ht0
      isplitl [Ht1]; · iexact Ht1
      isplitl [Ht2]; · iexact Ht2
      iexact Ht3
    isplitl [Ho0]
    · ihave Ho0 := (Entails.of_eq (pointsTo_congr (q := fullShare) (out_value0 m I d L fR rfl hin0))) $$ Ho0
      iexact Ho0
    isplitl [Ho1]
    · ihave Ho1 := (Entails.of_eq (pointsTo_congr (q := fullShare) (out_value1 m I d L fR rfl hin1))) $$ Ho1
      iexact Ho1
    isplitl [Ho2]
    · ihave Ho2 := (Entails.of_eq (pointsTo_congr (q := fullShare) (out_value2 m I d L fR rfl hin2))) $$ Ho2
      iexact Ho2
    · ihave Ho3 := (Entails.of_eq (pointsTo_congr (q := fullShare) (out_value3 m I d L fR rfl hin3))) $$ Ho3
      iexact Ho3
  isplitl [Hl0 Hl1 Hl2 Hl3 Hr0 Hr1 Hr2 Hr3 Hbufs]
  · isplitl [Hl0 Hl1 Hl2 Hl3]
    · iexists _; iapply (sI_rows d L _).2
      isplitl [Hl0]; · iexact Hl0
      isplitl [Hl1]; · iexact Hl1
      isplitl [Hl2]; · iexact Hl2
      iexact Hl3
    isplitl [Hr0 Hr1 Hr2 Hr3]
    · iapply (sR_join d L _ _ _ _)
      isplitl [Hr0]; · iexact Hr0
      isplitl [Hr1]; · iexact Hr1
      isplitl [Hr2]; · iexact Hr2
      iexact Hr3
    iexact Hbufs
  isplitl [Hs2 Hs3 Hs4 Hs5 Hs6 Hs0 Hsems]
  · isplitl [Hs2]; · iexact Hs2
    isplitl [Hs3]; · iexact Hs3
    isplitl [Hs4]; · iexact Hs4
    isplitl [Hs5]; · iexact Hs5
    isplitl [Hs6]; · iexact Hs6
    isplitl [Hs0]; · iexact Hs0
    iexact Hsems
  iexists _; isplitr
  rotate_left
  · iexact HO
  · ipureintro; intro p hp
    repeat (rcases Finset.mem_insert.mp hp with rfl | hp; · exact .inr rfl)
    exact .inl hp

end Tile

end Cert.KSide

end
-- ==== Proof.TileBodyLemmasB.lean ====
/-
  One worker's resources, cut as its task uses them, and the value its output pieces end with.

  The worker's index scratch (4 × 128 words) is its four rows, each the offset list of one gather; its gathered-rows
  scratch (512 × 128) is its four 128-row pieces, each the target of one gather and the source of one copy to the
  output; its read share of the table is one read token per gather semaphore and a rest. Once the worker's four rows
  of the index array have landed in the index scratch, word `k` of row `r` there is the index array's word at row
  `8 s + 4 c + r`, column `k`; the gather issued with that row leaves the table's row of that number at row `k` of
  piece `r`, and the copy of piece `r` leaves it at output row `1024 s + 512 c + 128 r + k`, whose quotient by 128 is
  `8 s + 4 c + r` and whose remainder is `k`: the gathered rows, as one function of the index array and the table.
-/
import proofs.«207835_g56727928045975_cont_9to1_m_1027_16_alg».proof.Proof.SetupB

noncomputable section

namespace Cert.KSideB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Tactic

variable {F : FTy → Type}

local notation "𝕄" => MT nD τ sig (HIx 1) (Elt F) ℕ UU ℕ

section Tile

variable (d : Dev nD) (L : grid0.Coords)

abbrev gcell (d : Dev nD) (L : grid0.Coords) (sm : DmaSem sig) : GSem nD τ sig := (V d (cV L) (jV L), .dma sm)

theorem ownSems0_V :
    (ownSems0 (V d (cV L) (jV L)) : sProp 𝕄)
      = iprop(semVal (gcell d L cc0_scratch2.sem) 0 ∗ semVal (gcell d L cc0_scratch3.sem) 0 ∗ semVal (gcell d L cc0_scratch4.sem) 0
          ∗ semVal (gcell d L cc0_scratch5.sem) 0 ∗ semVal (gcell d L cc0_scratch6.sem) 0 ∗ semVal (gcell d L cc0_scoped0.sem) 0
          ∗ bigSep (((((((ownCells (V d (cV L) (jV L))).erase (gcell d L cc0_scratch2.sem)).erase (gcell d L cc0_scratch3.sem)).erase (gcell d L cc0_scratch4.sem)).erase
              (gcell d L cc0_scratch5.sem)).erase (gcell d L cc0_scratch6.sem)).erase (gcell d L cc0_scoped0.sem))
              fun g => semVal g 0) := by
  unfold SparseCore.Cfg.ownSems0
  have hm : ∀ sm : DmaSem sig, gcell d L sm ∈ ownCells (V d (cV L) (jV L)) := fun sm =>
    (mem_ownCells (g := gcell d L sm)).mpr ⟨rfl, by show (SemLoc.dma sm : SemLoc sig).isScoped .scVector = true; revert sm; decide⟩
  have hne : ∀ a b : DmaSem sig, a ≠ b → gcell d L a ≠ gcell d L b := fun a b h e => h (by simpa [gcell] using e)
  rw [SparseCore.bigSep_erase' (hm cc0_scratch2.sem),
    SparseCore.bigSep_erase' (Finset.mem_erase.mpr ⟨hne _ _ (by decide), hm cc0_scratch3.sem⟩),
    SparseCore.bigSep_erase' (Finset.mem_erase.mpr ⟨hne _ _ (by decide), Finset.mem_erase.mpr ⟨hne _ _ (by decide), hm cc0_scratch4.sem⟩⟩),
    SparseCore.bigSep_erase' (Finset.mem_erase.mpr ⟨hne _ _ (by decide), Finset.mem_erase.mpr ⟨hne _ _ (by decide), Finset.mem_erase.mpr ⟨hne _ _ (by decide), hm cc0_scratch5.sem⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scratch6.sem⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), hm cc0_scoped0.sem⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The worker's own memory, cut as the program cuts it -/

abbrev thrV (d : Dev nD) (L : grid0.Coords) : Thread nD τ := V d (cV L) (jV L)

abbrev rP0 : Memref sig .scVector .vmem S128x128 .f32 := (sR : Memref sig .scVector .vmem S512x128 .f32).slice (Rect.unit (s := S512x128) ![0, 0] S128x128.size inb_S512x128_S128x128_0_0) (fun _ => rfl)
abbrev rP1 : Memref sig .scVector .vmem S128x128 .f32 := (sR : Memref sig .scVector .vmem S512x128 .f32).slice (Rect.unit (s := S512x128) ![128, 0] S128x128.size inb_S512x128_S128x128_128_0) (fun _ => rfl)
abbrev rP2 : Memref sig .scVector .vmem S128x128 .f32 := (sR : Memref sig .scVector .vmem S512x128 .f32).slice (Rect.unit (s := S512x128) ![256, 0] S128x128.size inb_S512x128_S128x128_256_0) (fun _ => rfl)
abbrev rP3 : Memref sig .scVector .vmem S128x128 .f32 := (sR : Memref sig .scVector .vmem S512x128 .f32).slice (Rect.unit (s := S512x128) ![384, 0] S128x128.size inb_S512x128_S128x128_384_0) (fun _ => rfl)

abbrev lR0 : Memref sig .scVector .vmem S128 .i32 := ((sI : Memref sig .scVector .vmem S4x128 .i32).slice (Rect.unit (s := S4x128) ![0, 0] S1x128.size inb_S4x128_S1x128_0_0) (fun _ => rfl)).squeeze S128 squeezes_S1x128_S128
abbrev lR1 : Memref sig .scVector .vmem S128 .i32 := ((sI : Memref sig .scVector .vmem S4x128 .i32).slice (Rect.unit (s := S4x128) ![1, 0] S1x128.size inb_S4x128_S1x128_1_0) (fun _ => rfl)).squeeze S128 squeezes_S1x128_S128
abbrev lR2 : Memref sig .scVector .vmem S128 .i32 := ((sI : Memref sig .scVector .vmem S4x128 .i32).slice (Rect.unit (s := S4x128) ![2, 0] S1x128.size inb_S4x128_S1x128_2_0) (fun _ => rfl)).squeeze S128 squeezes_S1x128_S128
abbrev lR3 : Memref sig .scVector .vmem S128 .i32 := ((sI : Memref sig .scVector .vmem S4x128 .i32).slice (Rect.unit (s := S4x128) ![3, 0] S1x128.size inb_S4x128_S1x128_3_0) (fun _ => rfl)).squeeze S128 squeezes_S1x128_S128

/-- A whole buffer is four pairwise disjoint element sets that cover it. -/
theorem pointsTo_four {ℓ : Loc nD τ sig} {q : PosShare TreeShare} {f : Buf (Elt F) ℓ} {A0 A1 A2 A3 : Finset (Idx ℓ)}
    (h0 : Disjoint A0 (A1 ∪ (A2 ∪ A3))) (h1 : Disjoint A1 (A2 ∪ A3)) (h2 : Disjoint A2 A3) (hU : A0 ∪ (A1 ∪ (A2 ∪ A3)) = Finset.univ) :
    (ℓ ↦{q} f : sProp 𝕄) ⊣⊢ iprop((ℓ ↦[A0]{q} f) ∗ (ℓ ↦[A1]{q} f) ∗ (ℓ ↦[A2]{q} f) ∗ (ℓ ↦[A3]{q} f)) := by
  have e0 : (ℓ ↦[A0 ∪ (A1 ∪ (A2 ∪ A3))]{q} f : sProp 𝕄) = iprop((ℓ ↦[A0]{q} f) ∗ ℓ ↦[A1 ∪ (A2 ∪ A3)]{q} f) :=
    BI.equiv_iff.mp ⟨(pointsTo_union h0).1, (pointsTo_union h0).2⟩
  have e1 : (ℓ ↦[A1 ∪ (A2 ∪ A3)]{q} f : sProp 𝕄) = iprop((ℓ ↦[A1]{q} f) ∗ ℓ ↦[A2 ∪ A3]{q} f) :=
    BI.equiv_iff.mp ⟨(pointsTo_union h1).1, (pointsTo_union h1).2⟩
  have e2 : (ℓ ↦[A2 ∪ A3]{q} f : sProp 𝕄) = iprop((ℓ ↦[A2]{q} f) ∗ ℓ ↦[A3]{q} f) :=
    BI.equiv_iff.mp ⟨(pointsTo_union h2).1, (pointsTo_union h2).2⟩
  rw [← hU, e0, e1, e2]

theorem cover_R :
    ((Rect.unit (s := S512x128) ![0, 0] S128x128.size inb_S512x128_S128x128_0_0).set ∪ ((Rect.unit (s := S512x128) ![128, 0] S128x128.size inb_S512x128_S128x128_128_0).set
      ∪ ((Rect.unit (s := S512x128) ![256, 0] S128x128.size inb_S512x128_S128x128_256_0).set ∪ (Rect.unit (s := S512x128) ![384, 0] S128x128.size inb_S512x128_S128x128_384_0).set)))
      = (Finset.univ : Finset S512x128.Idx) := by
  refine Finset.eq_univ_iff_forall.mpr fun i => ?_
  have h0 : (i 0).val < 512 := (i 0).isLt
  have h1 : (i 1).val < 128 := (i 1).isLt
  simp only [Finset.mem_union, Rect.mem_set_unit, Fin.forall_fin_two]
  have e0 : S128x128.size 0 = 128 := rfl
  have e1 : S128x128.size 1 = 128 := rfl
  simp only [Matrix.cons_val_zero, Matrix.cons_val_one, e0, e1]
  omega

theorem cover_I :
    ((Rect.unit (s := S4x128) ![0, 0] S1x128.size inb_S4x128_S1x128_0_0).set ∪ ((Rect.unit (s := S4x128) ![1, 0] S1x128.size inb_S4x128_S1x128_1_0).set
      ∪ ((Rect.unit (s := S4x128) ![2, 0] S1x128.size inb_S4x128_S1x128_2_0).set ∪ (Rect.unit (s := S4x128) ![3, 0] S1x128.size inb_S4x128_S1x128_3_0).set)))
      = (Finset.univ : Finset S4x128.Idx) := by
  refine Finset.eq_univ_iff_forall.mpr fun i => ?_
  have h0 : (i 0).val < 4 := (i 0).isLt
  have h1 : (i 1).val < 128 := (i 1).isLt
  simp only [Finset.mem_union, Rect.mem_set_unit, Fin.forall_fin_two]
  have e0 : S1x128.size 0 = 1 := rfl
  have e1 : S1x128.size 1 = 128 := rfl
  simp only [Matrix.cons_val_zero, Matrix.cons_val_one, e0, e1]
  omega

theorem set_rP0 : (rP0 : Memref sig .scVector .vmem S128x128 .f32).view.set = (Rect.unit (s := S512x128) ![0, 0] S128x128.size inb_S512x128_S128x128_0_0).set :=
  View.set_slice_whole (cc0_scratch1 : Ref sig .scVector) _
theorem set_rP1 : (rP1 : Memref sig .scVector .vmem S128x128 .f32).view.set = (Rect.unit (s := S512x128) ![128, 0] S128x128.size inb_S512x128_S128x128_128_0).set :=
  View.set_slice_whole (cc0_scratch1 : Ref sig .scVector) _
theorem set_rP2 : (rP2 : Memref sig .scVector .vmem S128x128 .f32).view.set = (Rect.unit (s := S512x128) ![256, 0] S128x128.size inb_S512x128_S128x128_256_0).set :=
  View.set_slice_whole (cc0_scratch1 : Ref sig .scVector) _
theorem set_rP3 : (rP3 : Memref sig .scVector .vmem S128x128 .f32).view.set = (Rect.unit (s := S512x128) ![384, 0] S128x128.size inb_S512x128_S128x128_384_0).set :=
  View.set_slice_whole (cc0_scratch1 : Ref sig .scVector) _

theorem set_lR0 : (lR0 : Memref sig .scVector .vmem S128 .i32).view.set = (Rect.unit (s := S4x128) ![0, 0] S1x128.size inb_S4x128_S1x128_0_0).set :=
  (View.set_reshape _ _).trans (View.set_slice_whole (cc0_scratch0 : Ref sig .scVector) _)
theorem set_lR1 : (lR1 : Memref sig .scVector .vmem S128 .i32).view.set = (Rect.unit (s := S4x128) ![1, 0] S1x128.size inb_S4x128_S1x128_1_0).set :=
  (View.set_reshape _ _).trans (View.set_slice_whole (cc0_scratch0 : Ref sig .scVector) _)
theorem set_lR2 : (lR2 : Memref sig .scVector .vmem S128 .i32).view.set = (Rect.unit (s := S4x128) ![2, 0] S1x128.size inb_S4x128_S1x128_2_0).set :=
  (View.set_reshape _ _).trans (View.set_slice_whole (cc0_scratch0 : Ref sig .scVector) _)
theorem set_lR3 : (lR3 : Memref sig .scVector .vmem S128 .i32).view.set = (Rect.unit (s := S4x128) ![3, 0] S1x128.size inb_S4x128_S1x128_3_0).set :=
  (View.set_reshape _ _).trans (View.set_slice_whole (cc0_scratch0 : Ref sig .scVector) _)

/-- The gathered-rows scratch is its four 128-row pieces. -/
theorem sR_pieces (d : Dev nD) (L : grid0.Coords) (f : Buf (Elt F) ((thrV d L).loc cc0_scratch1)) :
    ((thrV d L).loc cc0_scratch1 ↦{fullShare} f : sProp 𝕄)
      ⊣⊢ iprop(((rP0 : Memref sig .scVector .vmem S128x128 .f32).view.loc (thrV d L) ↦[(rP0 : Memref sig .scVector .vmem S128x128 .f32).view.set]{fullShare} f)
          ∗ ((rP1 : Memref sig .scVector .vmem S128x128 .f32).view.loc (thrV d L) ↦[(rP1 : Memref sig .scVector .vmem S128x128 .f32).view.set]{fullShare} f)
          ∗ ((rP2 : Memref sig .scVector .vmem S128x128 .f32).view.loc (thrV d L) ↦[(rP2 : Memref sig .scVector .vmem S128x128 .f32).view.set]{fullShare} f)
          ∗ ((rP3 : Memref sig .scVector .vmem S128x128 .f32).view.loc (thrV d L) ↦[(rP3 : Memref sig .scVector .vmem S128x128 .f32).view.set]{fullShare} f)) := by
  rw [set_rP0, set_rP1, set_rP2, set_rP3]
  refine pointsTo_four ?_ ?_ ?_ ?_
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)
  · exact cover_R

/-- The index scratch is its four rows. -/
theorem sI_rows (d : Dev nD) (L : grid0.Coords) (f : Buf (Elt F) ((thrV d L).loc cc0_scratch0)) :
    ((thrV d L).loc cc0_scratch0 ↦{fullShare} f : sProp 𝕄)
      ⊣⊢ iprop(((lR0 : Memref sig .scVector .vmem S128 .i32).view.loc (thrV d L) ↦[(lR0 : Memref sig .scVector .vmem S128 .i32).view.set]{fullShare} f)
          ∗ ((lR1 : Memref sig .scVector .vmem S128 .i32).view.loc (thrV d L) ↦[(lR1 : Memref sig .scVector .vmem S128 .i32).view.set]{fullShare} f)
          ∗ ((lR2 : Memref sig .scVector .vmem S128 .i32).view.loc (thrV d L) ↦[(lR2 : Memref sig .scVector .vmem S128 .i32).view.set]{fullShare} f)
          ∗ ((lR3 : Memref sig .scVector .vmem S128 .i32).view.loc (thrV d L) ↦[(lR3 : Memref sig .scVector .vmem S128 .i32).view.set]{fullShare} f)) := by
  rw [set_lR0, set_lR1, set_lR2, set_lR3]
  refine pointsTo_four ?_ ?_ ?_ ?_
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)
  · exact cover_I

/-- The worker's read share of the table, one read token per gather semaphore and the rest. -/
theorem tab_toks (d : Dev nD) (L : grid0.Coords) (f : Buf (Elt F) (tLoc d)) :
    (tLoc d ↦{qT (cL L) (sL L)} f : sProp 𝕄)
      ⊣⊢ iprop(((tV : Memref sig .scVector .hbm S100000x128 .f32).view.loc (thrV d L) ↦{shareDrop (qT (cL L) (sL L)) 4} f)
          ∗ ((tV : Memref sig .scVector .hbm S100000x128 .f32).view.loc (thrV d L) ↦{shareTok (qT (cL L) (sL L)) 4 0} f)
          ∗ ((tV : Memref sig .scVector .hbm S100000x128 .f32).view.loc (thrV d L) ↦{shareTok (qT (cL L) (sL L)) 4 1} f)
          ∗ ((tV : Memref sig .scVector .hbm S100000x128 .f32).view.loc (thrV d L) ↦{shareTok (qT (cL L) (sL L)) 4 2} f)
          ∗ ((tV : Memref sig .scVector .hbm S100000x128 .f32).view.loc (thrV d L) ↦{shareTok (qT (cL L) (sL L)) 4 3} f)) := by
  have h := Transfers.pointsTo_toks (Lvl := ℕ) (ℓ := tLoc d) (S := Finset.univ) (f := f) (nD := nD) (τ := τ) (sig := sig) (Ix := HIx 1) (Val := Elt F) (Name := ℕ) (U := UU) (qT (cL L) (sL L)) 4
  rw [show (Finset.univ : Finset (Fin 4)) = {0, 1, 2, 3} by decide, SparseCore.bigSep_insert' (by decide), SparseCore.bigSep_insert' (by decide),
    SparseCore.bigSep_insert' (by decide), bigSep_singleton] at h
  exact h

/-- Four pairwise disjoint element sets that cover a buffer, each held at contents of its own, are the buffer held whole. -/
theorem pointsTo_four_join {ℓ : Loc nD τ sig} {q : PosShare TreeShare} {f0 f1 f2 f3 : Buf (Elt F) ℓ} {A0 A1 A2 A3 : Finset (Idx ℓ)}
    (h0 : Disjoint A0 (A1 ∪ (A2 ∪ A3))) (h1 : Disjoint A1 (A2 ∪ A3)) (h2 : Disjoint A2 A3) (hU : A0 ∪ (A1 ∪ (A2 ∪ A3)) = Finset.univ) :
    iprop((ℓ ↦[A0]{q} f0) ∗ (ℓ ↦[A1]{q} f1) ∗ (ℓ ↦[A2]{q} f2) ∗ (ℓ ↦[A3]{q} f3)) ⊢ (iprop(∃ f, ℓ ↦{q} f) : sProp 𝕄) := by
  iintro ⟨H0, H1, H2, H3⟩
  ihave H23 := (pointsTo_join h2) $$ [H2 H3]
  · isplitl [H2] <;> iassumption
  ihave H123 := (pointsTo_join h1) $$ [H1 H23]
  · isplitl [H1] <;> iassumption
  ihave H := (pointsTo_join h0) $$ [H0 H123]
  · isplitl [H0] <;> iassumption
  rw [hU]
  iexists _; iexact H

/-- The gathered-rows scratch back whole from its four pieces, whatever each holds. -/
theorem sR_join (d : Dev nD) (L : grid0.Coords) (f0 f1 f2 f3 : Buf (Elt F) ((thrV d L).loc cc0_scratch1)) :
    iprop(((rP0 : Memref sig .scVector .vmem S128x128 .f32).view.loc (thrV d L) ↦[(rP0 : Memref sig .scVector .vmem S128x128 .f32).view.set]{fullShare} f0)
          ∗ ((rP1 : Memref sig .scVector .vmem S128x128 .f32).view.loc (thrV d L) ↦[(rP1 : Memref sig .scVector .vmem S128x128 .f32).view.set]{fullShare} f1)
          ∗ ((rP2 : Memref sig .scVector .vmem S128x128 .f32).view.loc (thrV d L) ↦[(rP2 : Memref sig .scVector .vmem S128x128 .f32).view.set]{fullShare} f2)
          ∗ ((rP3 : Memref sig .scVector .vmem S128x128 .f32).view.loc (thrV d L) ↦[(rP3 : Memref sig .scVector .vmem S128x128 .f32).view.set]{fullShare} f3))
      ⊢ (iprop(∃ f, (thrV d L).loc cc0_scratch1 ↦{fullShare} f) : sProp 𝕄) := by
  rw [set_rP0, set_rP1, set_rP2, set_rP3]
  refine pointsTo_four_join ?_ ?_ ?_ cover_R
  · exact Finset.disjoint_union_right.mpr ⟨Rect.unit_disjoint 0 (by decide), Finset.disjoint_union_right.mpr ⟨Rect.unit_disjoint 0 (by decide), Rect.unit_disjoint 0 (by decide)⟩⟩
  · exact Finset.disjoint_union_right.mpr ⟨Rect.unit_disjoint 0 (by decide), Rect.unit_disjoint 0 (by decide)⟩
  · exact Rect.unit_disjoint 0 (by decide)

/-- A buffer written whole through a view reads the payload back. -/
theorem read_writes_whole {sig : RefSig} {κ : Kind} {sp : Space} {s : Shape} {e : EltTy} {Val : EltTy → Type} (v : View sig κ sp s e) (f : v.ty.Contents Val)
    (w : s.Idx → Val e) (y : s.Idx) : v.read Val (v.writes Val f [⟨Rect.whole s, w⟩]) y = w y := by
  have h := View.read_writes_cons_emb v f (Rect.whole s) w [] y
  rwa [Rect.emb_whole_apply] at h

/-- A rank-one index from its row-major position is that position. -/
theorem rowMajor_symm_rank1 {n : ℕ} (k : Fin (⟨1, ![n]⟩ : Shape).numel) : (((⟨1, ![n]⟩ : Shape).rowMajor.symm k) 0).val = k.val := by
  obtain ⟨x, rfl⟩ := (⟨1, ![n]⟩ : Shape).rowMajor.surjective k
  rw [Equiv.symm_apply_apply]
  show _ = ((Shape.rowMajorPi _ x : Fin _) : ℕ)
  rw [Shape.rowMajorPi_succ_val]
  simp [Shape.rowMajorPi, Shape.rankPi]

/-- A buffer written whole through a view holds the payload at the view's places. -/
theorem writes_whole_emb {sig : RefSig} {κ : Kind} {sp : Space} {s : Shape} {e : EltTy} {Val : EltTy → Type} (v : View sig κ sp s e) (f : v.ty.Contents Val)
    (w : s.Idx → Val e) (y : s.Idx) : v.writes Val f [⟨Rect.whole s, w⟩] (v.emb y) = cast (congrArg Val v.elt_eq.symm) (w y) := by
  rw [← View.write_univ_eq_writes_whole v f [] w]
  exact View.write_emb_of_mem _ _ (Finset.mem_univ y)

section LW
variable [FloatOps F] (I : (d : Dev nD) → Buf (Elt F) (iLoc d))

/-- Word `k` of row `r` of the worker's index scratch, holding the worker's rows of the index array, is the index array's word at row
    `8 s + 4 c + r`, column `k`. -/
theorem list_word (d : Dev nD) (L : grid0.Coords) (r : ℕ) (inbL : ∀ a, (![r, 0] : Fin 2 → ℕ) a + S1x128.size a ≤ S4x128.size a) (x : S128.Idx)
    (hb : 8 * (L 1).val + 4 * (L 0).val + r < 128) :
    View.read (Elt F) (((sI : Memref sig .scVector .vmem S4x128 .i32).slice (Rect.unit (s := S4x128) ![r, 0] S1x128.size inbL) (fun _ => rfl)).squeeze S128 squeezes_S1x128_S128).view
        (View.read (Elt F) (idxM L).view (I d)) x
      = I d (ix2 (⟨8 * (L 1).val + 4 * (L 0).val + r, hb⟩ : Fin 128) (⟨(x 0).val, (x 0).isLt⟩ : Fin 128)) := by
  show I d ((idxM L).view.emb ((((sI : Memref sig .scVector .vmem S4x128 .i32).slice (Rect.unit (s := S4x128) ![r, 0] S1x128.size inbL) (fun _ => rfl)).squeeze S128 squeezes_S1x128_S128).view.emb x)) = _
  refine congrArg (I d) ?_
  have hre : Shape.reshapeEquiv (s := S1x128) (s' := S128) squeezes_S1x128_S128.numel_eq x = Fin.cons ⟨0, Nat.one_pos⟩ x := Shape.reshapeEquiv_cons_one _ x
  funext b; apply Fin.ext
  match b with
  | ⟨0, _⟩ =>
    show k0_off1 L 0 + 1 * (![r, 0] 0 + 1 * ((Shape.reshapeEquiv (s := S1x128) (s' := S128) squeezes_S1x128_S128.numel_eq x) 0).val) = 8 * (L 1).val + 4 * (L 0).val + r
    rw [hre, k0_off1_eq]
    show (8 * (L 1).val + 4 * (L 0).val) + 1 * (r + 1 * 0) = _
    omega
  | ⟨1, _⟩ =>
    show k0_off1 L 1 + 1 * (![r, 0] 1 + 1 * ((Shape.reshapeEquiv (s := S1x128) (s' := S128) squeezes_S1x128_S128.numel_eq x) 1).val) = (x 0).val
    rw [hre, k0_off1_eq]
    show 0 + 1 * (0 + 1 * (x 0).val) = _
    omega
end LW

section Value

variable [FloatOps F] (m : (ℓ : Loc nD τ sig) → Buf (Elt F) ℓ) (I : (d : Dev nD) → Buf (Elt F) (iLoc d))

/-- What an output piece holds once its copy has landed — the gathered-rows piece's contents, themselves the gather's
    payload over the row of the index scratch it was issued with — is the gathered rows there: row `k` of piece `r` is the
    table's row named by word `k` of row `r` of the worker's rows of the index array, and the piece's row `k` is output row
    `1024 s + 512 c + 128 r + k`, whose quotient by 128 is that row of the index array and whose remainder is `k`. -/
theorem out_value (d : Dev nD) (L : grid0.Coords) (r : ℕ)
    (offO : Fin 2 → ℕ) (inbO : ∀ a, offO a + S128x128.size a ≤ S16384x128.size a) (hO : offO = ![1024 * (L 1).val + 512 * (L 0).val + 128 * r, 0])
    (offR : Fin 2 → ℕ) (inbR : ∀ a, offR a + S128x128.size a ≤ S512x128.size a)
    (offL : Fin 2 → ℕ) (inbL : ∀ a, offL a + S1x128.size a ≤ S4x128.size a) (hL : offL = ![r, 0])
    (inbT : ∀ a, (![0, 0] : Fin 2 → ℕ) a + S100000x128.size a ≤ S100000x128.size a)
    (hn : S128.numel = S128x128.size gathers_S100000x128_S128x128.axis')
    (fR : Buf (Elt F) ((thrV d L).loc cc0_scratch1))
    (hinr : ∀ x, ((((sI : Memref sig .scVector .vmem S4x128 .i32).slice (Rect.unit (s := S4x128) offL S1x128.size inbL) (fun _ => rfl)).squeeze S128 squeezes_S1x128_S128).view.read (Elt F)
      ((idxM L).view.read (Elt F) (I d)) x).toNat < S100000x128.size gathers_S100000x128_S128x128.axis) :
    ∀ i ∈ ((oV : Memref sig .scVector .hbm S16384x128 .f32).slice (Rect.unit (s := S16384x128) offO S128x128.size inbO) (fun _ => rfl)).view.set,
      ((oV : Memref sig .scVector .hbm S16384x128 .f32).slice (Rect.unit (s := S16384x128) offO S128x128.size inbO) (fun _ => rfl)).view.writes (Elt F) (m (oLoc d))
        [⟨Rect.whole S128x128, ReadAs.same.apply
          (((sR : Memref sig .scVector .vmem S512x128 .f32).slice (Rect.unit (s := S512x128) offR S128x128.size inbR) (fun _ => rfl)).view.read (Elt F)
            (((sR : Memref sig .scVector .vmem S512x128 .f32).slice (Rect.unit (s := S512x128) offR S128x128.size inbR) (fun _ => rfl)).view.writes (Elt F) fR
              [⟨Rect.whole S128x128, SparseCore.gatherPayload gathers_S100000x128_S128x128
                (((tV : Memref sig .scVector .hbm S100000x128 .f32).slice (Rect.unit (s := S100000x128) ![0, 0] S100000x128.size inbT) (fun _ => rfl)).view.read (Elt F) (m (tLoc d)))
                (SparseCore.rows ((((sI : Memref sig .scVector .vmem S4x128 .i32).slice (Rect.unit (s := S4x128) offL S1x128.size inbL) (fun _ => rfl)).squeeze S128 squeezes_S1x128_S128).view.read (Elt F)
                  ((idxM L).view.read (Elt F) (I d))) hn hinr)⟩]))⟩] i
        = gathered m I d i := by
  intro i hi
  obtain ⟨y, -, rfl⟩ := Finset.mem_map.mp hi
  subst hO hL
  refine (writes_whole_emb _ _ _ _).trans ?_
  generalize hj : ((oV : Memref sig .scVector .hbm S16384x128 .f32).slice (Rect.unit (s := S16384x128) ![1024 * (L 1).val + 512 * (L 0).val + 128 * r, 0] S128x128.size inbO) (fun _ => rfl)).view.emb y = j
  have hj0 : (j 0).val = 1024 * (L 1).val + 512 * (L 0).val + 128 * r + (y 0).val := by
    rw [← hj]; show (1024 * (L 1).val + 512 * (L 0).val + 128 * r) + 1 * (y 0).val = _; omega
  have hj1 : (j 1).val = (y 1).val := by
    rw [← hj]; show 0 + 1 * (y 1).val = _; omega
  clear hj hi
  refine (congrArg (cast _) (read_writes_whole _ _ _ _)).trans ?_
  unfold SparseCore.gatherPayload
  rw [View.read_apply]
  simp only [cast_cast, cast_eq]
  unfold gathered embF
  refine congrArg (m (tLoc d)) ?_
  have hy0 : (y 0).val < 128 := (y 0).isLt
  have hy1 : (y 1).val < 128 := (y 1).isLt
  have hs : (L 1).val < 16 := (L 1).isLt
  have hc : (L 0).val < 2 := (L 0).isLt
  have hr : r < 4 := by have := inbL 0; simp only [Matrix.cons_val_zero] at this; have e : S1x128.size 0 = 1 := rfl; have e' : S4x128.size 0 = 4 := rfl; omega
  have hb : 8 * (L 1).val + 4 * (L 0).val + r < 128 := by omega
  -- the word the list holds at the row's place
  have hx : ((S128.rowMajor.symm ((y 0).cast hn.symm)) 0).val = (y 0).val := rowMajor_symm_rank1 _
  have hbound := hinr (S128.rowMajor.symm ((y 0).cast hn.symm))
  rw [list_word I d L r inbL _ hb] at hbound
  have key : ∀ (A A' B B' : Fin 128), A.val = A'.val → B.val = B'.val → (I d (ix2 A B)).toNat = (I d (ix2 A' B')).toNat :=
    fun A A' B B' h1 h2 => by rw [Fin.ext h1, Fin.ext h2]
  generalize hrws : SparseCore.rows _ hn hinr = rws
  funext a
  apply Fin.ext
  match a with
  | ⟨0, _⟩ =>
    have e0 := Shape.Gathers.idx_axis gathers_S100000x128_S128x128 rws y
    show 0 + 1 * (gathers_S100000x128_S128x128.idx rws y gathers_S100000x128_S128x128.axis).val = _
    rw [e0, ← hrws]
    show 0 + 1 * BitVec.toNat (View.read (Elt F) (((sI : Memref sig .scVector .vmem S4x128 .i32).slice (Rect.unit (s := S4x128) ![r, 0] S1x128.size inbL) (fun _ => rfl)).squeeze S128 squeezes_S1x128_S128).view
      (View.read (Elt F) (idxM L).view (I d)) (S128.rowMajor.symm ((y 0).cast hn.symm))) = _
    rw [list_word I d L r inbL _ hb]
    refine (?_ : _ = (I d (ix2 (⟨8 * (L 1).val + 4 * (L 0).val + r, hb⟩ : Fin 128) (⟨((S128.rowMajor.symm ((y 0).cast hn.symm)) 0).val, Fin.isLt _⟩ : Fin 128))).toNat % 100000).trans
      (congrArg (· % 100000) (key _ _ _ _ ?_ ?_))
    · have hbound' : (I d (ix2 (⟨8 * (L 1).val + 4 * (L 0).val + r, hb⟩ : Fin 128) (⟨((S128.rowMajor.symm ((y 0).cast hn.symm)) 0).val, Fin.isLt _⟩ : Fin 128))).toNat < 100000 := hbound
      rw [Nat.mod_eq_of_lt hbound']; omega
    · show 8 * (L 1).val + 4 * (L 0).val + r = (j 0).val / 128
      omega
    · show ((S128.rowMajor.symm ((y 0).cast hn.symm)) 0).val = (j 0).val % 128
      omega
  | ⟨1, _⟩ =>
    have e1 := Shape.Gathers.idx_of_ne gathers_S100000x128_S128x128 rws y (1 : Fin 2) (by decide)
    show 0 + 1 * (gathers_S100000x128_S128x128.idx rws y (1 : Fin 2)).val = (j 1).val
    rw [e1, hj1]
    show 0 + 1 * (y 1).val = (y 1).val
    omega

end Value

section ValueInst

variable [FloatOps F] (m : (ℓ : Loc nD τ sig) → Buf (Elt F) ℓ) (I : (d : Dev nD) → Buf (Elt F) (iLoc d))

abbrev tM : Memref sig .scVector .hbm S100000x128 .f32 :=
  (tV : Memref sig .scVector .hbm S100000x128 .f32).slice (Rect.unit (s := S100000x128) ![0, 0] S100000x128.size inb_S100000x128_S100000x128_0_0) (fun _ => rfl)

theorem off2_0 (L : grid0.Coords) : k0_off2 L 0#32 = ![1024 * (L 1).val + 512 * (L 0).val + 128 * 0, 0] := k0_off2_eq L ⟨0, by decide⟩
theorem off2_1 (L : grid0.Coords) : k0_off2 L 128#32 = ![1024 * (L 1).val + 512 * (L 0).val + 128 * 1, 0] := k0_off2_eq L ⟨1, by decide⟩
theorem off2_2 (L : grid0.Coords) : k0_off2 L 256#32 = ![1024 * (L 1).val + 512 * (L 0).val + 128 * 2, 0] := k0_off2_eq L ⟨2, by decide⟩
theorem off2_3 (L : grid0.Coords) : k0_off2 L 384#32 = ![1024 * (L 1).val + 512 * (L 0).val + 128 * 3, 0] := k0_off2_eq L ⟨3, by decide⟩

theorem out_value0 (d : Dev nD) (L : grid0.Coords) (fR : Buf (Elt F) ((thrV d L).loc cc0_scratch1))
    (hn : S128.numel = S128x128.size gathers_S100000x128_S128x128.axis')
    (h : ∀ x, ((lR0 : Memref sig .scVector .vmem S128 .i32).view.read (Elt F) ((idxM L).view.read (Elt F) (I d)) x).toNat < S100000x128.size gathers_S100000x128_S128x128.axis) :
    ∀ i ∈ (outM0 L).view.set, (outM0 L).view.writes (Elt F) (m (oLoc d)) [⟨Rect.whole S128x128, ReadAs.same.apply
      ((rP0 : Memref sig .scVector .vmem S128x128 .f32).view.read (Elt F) ((rP0 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR0 : Memref sig .scVector .vmem S128 .i32).view.read (Elt F) ((idxM L).view.read (Elt F) (I d))) hn h)⟩]))⟩] i = gathered m I d i :=
  out_value m I d L 0 (k0_off2 L 0#32) (k0_off2_inb L 0) (off2_0 L) ![0, 0] inb_S512x128_S128x128_0_0 ![0, 0] inb_S4x128_S1x128_0_0 rfl inb_S100000x128_S100000x128_0_0 hn fR h
theorem out_value1 (d : Dev nD) (L : grid0.Coords) (fR : Buf (Elt F) ((thrV d L).loc cc0_scratch1))
    (hn : S128.numel = S128x128.size gathers_S100000x128_S128x128.axis')
    (h : ∀ x, ((lR1 : Memref sig .scVector .vmem S128 .i32).view.read (Elt F) ((idxM L).view.read (Elt F) (I d)) x).toNat < S100000x128.size gathers_S100000x128_S128x128.axis) :
    ∀ i ∈ (outM1 L).view.set, (outM1 L).view.writes (Elt F) (m (oLoc d)) [⟨Rect.whole S128x128, ReadAs.same.apply
      ((rP1 : Memref sig .scVector .vmem S128x128 .f32).view.read (Elt F) ((rP1 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR1 : Memref sig .scVector .vmem S128 .i32).view.read (Elt F) ((idxM L).view.read (Elt F) (I d))) hn h)⟩]))⟩] i = gathered m I d i :=
  out_value m I d L 1 (k0_off2 L 128#32) (k0_off2_inb L 1) (off2_1 L) ![128, 0] inb_S512x128_S128x128_128_0 ![1, 0] inb_S4x128_S1x128_1_0 rfl inb_S100000x128_S100000x128_0_0 hn fR h
theorem out_value2 (d : Dev nD) (L : grid0.Coords) (fR : Buf (Elt F) ((thrV d L).loc cc0_scratch1))
    (hn : S128.numel = S128x128.size gathers_S100000x128_S128x128.axis')
    (h : ∀ x, ((lR2 : Memref sig .scVector .vmem S128 .i32).view.read (Elt F) ((idxM L).view.read (Elt F) (I d)) x).toNat < S100000x128.size gathers_S100000x128_S128x128.axis) :
    ∀ i ∈ (outM2 L).view.set, (outM2 L).view.writes (Elt F) (m (oLoc d)) [⟨Rect.whole S128x128, ReadAs.same.apply
      ((rP2 : Memref sig .scVector .vmem S128x128 .f32).view.read (Elt F) ((rP2 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR2 : Memref sig .scVector .vmem S128 .i32).view.read (Elt F) ((idxM L).view.read (Elt F) (I d))) hn h)⟩]))⟩] i = gathered m I d i :=
  out_value m I d L 2 (k0_off2 L 256#32) (k0_off2_inb L 2) (off2_2 L) ![256, 0] inb_S512x128_S128x128_256_0 ![2, 0] inb_S4x128_S1x128_2_0 rfl inb_S100000x128_S100000x128_0_0 hn fR h
theorem out_value3 (d : Dev nD) (L : grid0.Coords) (fR : Buf (Elt F) ((thrV d L).loc cc0_scratch1))
    (hn : S128.numel = S128x128.size gathers_S100000x128_S128x128.axis')
    (h : ∀ x, ((lR3 : Memref sig .scVector .vmem S128 .i32).view.read (Elt F) ((idxM L).view.read (Elt F) (I d)) x).toNat < S100000x128.size gathers_S100000x128_S128x128.axis) :
    ∀ i ∈ (outM3 L).view.set, (outM3 L).view.writes (Elt F) (m (oLoc d)) [⟨Rect.whole S128x128, ReadAs.same.apply
      ((rP3 : Memref sig .scVector .vmem S128x128 .f32).view.read (Elt F) ((rP3 : Memref sig .scVector .vmem S128x128 .f32).view.writes (Elt F) fR
        [⟨Rect.whole S128x128, SparseCore.gatherPayload gathers_S100000x128_S128x128 ((tM : Memref sig .scVector .hbm S100000x128 .f32).view.read (Elt F) (m (tLoc d)))
          (SparseCore.rows ((lR3 : Memref sig .scVector .vmem S128 .i32).view.read (Elt F) ((idxM L).view.read (Elt F) (I d))) hn h)⟩]))⟩] i = gathered m I d i :=
  out_value m I d L 3 (k0_off2 L 384#32) (k0_off2_inb L 3) (off2_3 L) ![384, 0] inb_S512x128_S128x128_384_0 ![3, 0] inb_S4x128_S1x128_3_0 rfl inb_S100000x128_S100000x128_0_0 hn fR h

end ValueInst

end Tile

end Cert.KSideB

end
-- ==== Proof.TileBodyB.lean ====
/-
  The task of one worker, at a symbolic place: its four rows of the index array copied into its index scratch; four
  gathers of table rows, one per row of the scratch and each on a semaphore of its own, all started before any is waited
  for; each gather waited for in turn and its 128 gathered rows copied to the worker's piece of the output, the four
  copies on one semaphore; four waits for them. The worker hands back what it was handed, the output pieces holding the
  gathered rows.
-/
import proofs.«207835_g56727928045975_cont_9to1_m_1027_16_alg».proof.Proof.TileBodyLemmasB

noncomputable section

namespace Cert.KSideB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx
open Idealize.ShloMosaic.Tactic

variable {F : FTy → Type}

local notation "𝕄" => MT nD τ sig (HIx 1) (Elt F) ℕ UU ℕ

section Tile

variable [FloatOps F] (m : (ℓ : Loc nD τ sig) → Buf (Elt F) ℓ) (I : (d : Dev nD) → Buf (Elt F) (iLoc d))

set_option maxRecDepth 65536 in
theorem tile_body (hF : (K (F := F)).Facts) (hin : ∀ (d : Dev nD) (j : S128x128.Idx), (I d j).toNat < 100000) (d : Dev nD) (L : grid0.Coords)
      (O : CellTallies nD τ sig (HIx 1)) (W : Waits sig (HIx 1)) (hO : ∀ g, O g none = 0) :
    iprop(levAts (K (F := F)).L (K (F := F)).lev ∗ emp ∗ tileRes m I d L (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) tV (Memref.isWhole_whole _) oV (Memref.isWhole_whole _)
            sI (Memref.isWhole_whole _) sR (Memref.isWhole_whole _) cc0_scratch2 cc0_scratch3 cc0_scratch4 cc0_scratch5 cc0_scratch6 cc0_scoped0)
          fun _ => iprop(tileRes m I d L (gathered m I d) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hidx, Htab, Ho0, Ho1, Ho2, Ho3⟩, ⟨⟨%fI, HsI⟩, ⟨%fR, HsR⟩, Hbufs⟩, ⟨Hs2, Hs3, Hs4, Hs5, Hs6, Hs0, Hsems⟩, HO⟩
  ihave Hmw := ((K (F := F)).mayWaits_none (thr := V d (cV L) (jV L)) hO) $$ Hlv

  ihave Hidx := (show (iLoc d ↦[(idxM L).view.set]{fullShare} I d : sProp 𝕄) ⊢ ((idxM L).view.loc (V d (cV L) (jV L)) ↦[(idxM L).view.set]{fullShare} I d) from .rfl) $$ Hidx
  ihave HsI := (show ((V d (cV L) (jV L)).loc cc0_scratch0 ↦{fullShare} fI : sProp 𝕄) ⊢ ((sI : Memref sig .scVector .vmem S4x128 .i32).view.loc (V d (cV L) (jV L)) ↦{fullShare} fI) from .rfl) $$ HsI
  ihave Ho0 := (show (oLoc d ↦[(outM0 L).view.set]{fullShare} m (oLoc d) : sProp 𝕄) ⊢ ((outM0 L).view.loc (V d (cV L) (jV L)) ↦[(outM0 L).view.set]{fullShare} m (oLoc d)) from .rfl) $$ Ho0
  ihave Ho1 := (show (oLoc d ↦[(outM1 L).view.set]{fullShare} m (oLoc d) : sProp 𝕄) ⊢ ((outM1 L).view.loc (V d (cV L) (jV L)) ↦[(outM1 L).view.set]{fullShare} m (oLoc d)) from .rfl) $$ Ho1
  ihave Ho2 := (show (oLoc d ↦[(outM2 L).view.set]{fullShare} m (oLoc d) : sProp 𝕄) ⊢ ((outM2 L).view.loc (V d (cV L) (jV L)) ↦[(outM2 L).view.set]{fullShare} m (oLoc d)) from .rfl) $$ Ho2
  ihave Ho3 := (show (oLoc d ↦[(outM3 L).view.set]{fullShare} m (oLoc d) : sProp 𝕄) ⊢ ((outM3 L).view.loc (V d (cV L) (jV L)) ↦[(outM3 L).view.set]{fullShare} m (oLoc d)) from .rfl) $$ Ho3
  sl_exec
  have hw : (sI : Memref sig .scVector .vmem S4x128 .i32).view.write (Elt F) fI (tile_body.sl.dma0 I d L) Finset.univ = (idxM L).view.read (Elt F) (I d) :=
    (View.write_whole_univ (cc0_scratch0 : Ref sig .scVector) fI _).trans rfl
  rw [hw]
  ihave HsI := (sI_rows d L _).1 $$ HsI
  icases HsI with ⟨Hl0, Hl1, Hl2, Hl3⟩
  ihave HsR := (sR_pieces d L _).1 $$ HsR
  icases HsR with ⟨Hr0, Hr1, Hr2, Hr3⟩
  ihave Htab := (tab_toks d L _).1 $$ Htab
  icases Htab with ⟨HtD, Ht0, Ht1, Ht2, Ht3⟩
  have hin0 : ∀ x, ((lR0 : Memref sig .scVector .vmem S128 .i32).view.read (Elt F) ((idxM L).view.read (Elt F) (I d)) x).toNat < S100000x128.size gathers_S100000x128_S128x128.axis := fun x => hin d _
  have hin1 : ∀ x, ((lR1 : Memref sig .scVector .vmem S128 .i32).view.read (Elt F) ((idxM L).view.read (Elt F) (I d)) x).toNat < S100000x128.size gathers_S100000x128_S128x128.axis := fun x => hin d _
  have hin2 : ∀ x, ((lR2 : Memref sig .scVector .vmem S128 .i32).view.read (Elt F) ((idxM L).view.read (Elt F) (I d)) x).toNat < S100000x128.size gathers_S100000x128_S128x128.axis := fun x => hin d _
  have hin3 : ∀ x, ((lR3 : Memref sig .scVector .vmem S128 .i32).view.read (Elt F) ((idxM L).view.read (Elt F) (I d)) x).toNat < S100000x128.size gathers_S100000x128_S128x128.axis := fun x => hin d _
  have hB : Transfers.BatchOf (V d (cV L) (jV L)) (SemLoc.dma cc0_scratch6.sem) 4 := trivial
  sl_exec

  sl_step
  isplitl [Hidx HtD Ht0 Ht1 Ht2 Ht3 Ho0 Ho1 Ho2 Ho3]
  · isplitl [Hidx]; · iexact Hidx
    isplitl [HtD Ht0 Ht1 Ht2 Ht3]
    · iapply (tab_toks d L _).2
      isplitl [HtD]; · iexact HtD
      isplitl [Ht0]; · iexact Ht0
      isplitl [Ht1]; · iexact Ht1
      isplitl [Ht2]; · iexact Ht2
      iexact Ht3
    isplitl [Ho0]
    · ihave Ho0 := (Entails.of_eq (pointsTo_congr (q := fullShare) (out_value0 m I d L fR rfl hin0))) $$ Ho0
      iexact Ho0
    isplitl [Ho1]
    · ihave Ho1 := (Entails.of_eq (pointsTo_congr (q := fullShare) (out_value1 m I d L fR rfl hin1))) $$ Ho1
      iexact Ho1
    isplitl [Ho2]
    · ihave Ho2 := (Entails.of_eq (pointsTo_congr (q := fullShare) (out_value2 m I d L fR rfl hin2))) $$ Ho2
      iexact Ho2
    · ihave Ho3 := (Entails.of_eq (pointsTo_congr (q := fullShare) (out_value3 m I d L fR rfl hin3))) $$ Ho3
      iexact Ho3
  isplitl [Hl0 Hl1 Hl2 Hl3 Hr0 Hr1 Hr2 Hr3 Hbufs]
  · isplitl [Hl0 Hl1 Hl2 Hl3]
    · iexists _; iapply (sI_rows d L _).2
      isplitl [Hl0]; · iexact Hl0
      isplitl [Hl1]; · iexact Hl1
      isplitl [Hl2]; · iexact Hl2
      iexact Hl3
    isplitl [Hr0 Hr1 Hr2 Hr3]
    · iapply (sR_join d L _ _ _ _)
      isplitl [Hr0]; · iexact Hr0
      isplitl [Hr1]; · iexact Hr1
      isplitl [Hr2]; · iexact Hr2
      iexact Hr3
    iexact Hbufs
  isplitl [Hs2 Hs3 Hs4 Hs5 Hs6 Hs0 Hsems]
  · isplitl [Hs2]; · iexact Hs2
    isplitl [Hs3]; · iexact Hs3
    isplitl [Hs4]; · iexact Hs4
    isplitl [Hs5]; · iexact Hs5
    isplitl [Hs6]; · iexact Hs6
    isplitl [Hs0]; · iexact Hs0
    iexact Hsems
  iexists _; isplitr
  rotate_left
  · iexact HO
  · ipureintro; intro p hp
    repeat (rcases Finset.mem_insert.mp hp with rfl | hp; · exact .inr rfl)
    exact .inl hp

end Tile

end Cert.KSideB

end
-- ==== Proof.lean ====
/-
  The certificate's claim: both kernels run to the end with their arguments unchanged, the reference does, nothing
  was rewritten between the word-level kernel and its idealization, and the idealized kernel and the reference end
  with equal results.

  The kernel looks up one table row per index word on the SparseCore's 32 vector subcores (each gathers 512 rows, 128
  at a time, into its own memory and writes them out), multiplies the looked-up rows by the weights on the TensorCore,
  8192 rows at a time, and takes the softmax of each row of logits as the exponentials times the reciprocal of their
  sum; the reference looks the rows up, multiplies and divides the exponentials by their sum. Under the precondition
  every index word names a row of the table and every float is finite, so the logits are real numbers, the sum of the
  exponentials is a positive real number, and multiplying by its reciprocal is dividing by it. The parts: the
  specification (Spec), the reference's run and its value (RefRun, RefValue), what the precondition gives (PreFacts),
  the one algebraic law (SoftmaxAlgebra), one worker's task (TileBody), how the arrays split among the workers (Splits),
  the TensorCore region (RegionBody, Region, BodyValue), the launch of all threads (Setup, KDefs, Launch, KRun), the
  kernel's result as the specification (KValue), and the claims from the parts (Final). The word-level kernel's frame is
  the same proof over its own printed program (the modules named …B).
-/
import proofs.«207835_g56727928045975_cont_9to1_m_1027_16_alg».proof.Defs
import proofs.«207835_g56727928045975_cont_9to1_m_1027_16_alg».proof.Proof.Final
import proofs.«207835_g56727928045975_cont_9to1_m_1027_16_alg».proof.Proof.TileBody
import proofs.«207835_g56727928045975_cont_9to1_m_1027_16_alg».proof.Proof.TileBodyB

noncomputable section

namespace Cert.Proof

open Idealize.ShloMosaic Idealize.SL.Sem

/-- One worker's task at the idealized kernel, in the form the claims take it. -/
theorem tileIdeal : Final.TileIdeal :=
  fun m hin d L O W hO => Cert.KSide.tile_body m (Cert.KSide.Iof m) Cert.KSide.facts hin d L O W hO

/-- One worker's task at the word-level kernel. -/
theorem tileBits : Final.TileBits :=
  fun m hin d L O W hO => Cert.KSideB.tile_body m (Cert.KSideB.Iof m) Cert.KSideB.facts hin d L O W hO

theorem claim : Cert.Claim :=
  ⟨Cert.Kernel.Gen.facts, Cert.KernelIdeal.Gen.facts, Cert.ReferenceIdeal.Gen.facts, Cert.Pre_input_domain.Gen.facts,
    Final.frame_k tileBits, Final.frame_ki tileIdeal, Final.frame_ri, trivial, Final.algebraic tileIdeal⟩

end Cert.Proof

end
